-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v27_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x128 .f32) (main_arg1 : FVec F S600000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : IVec S600000 32) (main_arg17 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S600000 : Shape := ⟨1, ![600000]⟩
abbrev S128x384 : Shape := ⟨2, ![128, 384]⟩
abbrev S384 : Shape := ⟨1, ![384]⟩
abbrev S2000x128 : Shape := ⟨2, ![2000, 128]⟩
abbrev S2000x384 : Shape := ⟨2, ![2000, 384]⟩
abbrev S1x384 : Shape := ⟨2, ![1, 384]⟩
abbrev S_ : Shape := ⟨0, ![]⟩
abbrev S600000x1 : Shape := ⟨2, ![600000, 1]⟩
abbrev S2400x128 : Shape := ⟨2, ![2400, 128]⟩
abbrev S1x128 : Shape := ⟨2, ![1, 128]⟩
abbrev S2400 : Shape := ⟨1, ![2400]⟩
abbrev S2400x1 : Shape := ⟨2, ![2400, 1]⟩
abbrev S600000x256 : Shape := ⟨2, ![600000, 256]⟩
abbrev S50000x256 : Shape := ⟨2, ![50000, 256]⟩
abbrev S2000 : Shape := ⟨1, ![2000]⟩
abbrev S2000x1 : Shape := ⟨2, ![2000, 1]⟩

abbrev nBuf : Space → Nat
  | .hbm => 66
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S600000, .i32⟩
  | .hbm, ⟨17, _⟩ => ⟨S600000, .i32⟩
  | .hbm, ⟨18, _⟩ => ⟨S128x384, .f32⟩
  | .hbm, ⟨19, _⟩ => ⟨S384, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S600000x128, .f32⟩
  | .hbm, ⟨42, _⟩ => ⟨S600000x128, .bf16⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .bf16⟩
  | .hbm, ⟨53, _⟩ => ⟨S600000x128, .f32⟩
  | .hbm, ⟨54, _⟩ => ⟨S600000x128, .bf16⟩
  | .hbm, ⟨55, _⟩ => ⟨S600000x128, .bf16⟩
  | .hbm, ⟨56, _⟩ => ⟨S600000x128, .f32⟩
  | .hbm, ⟨57, _⟩ => ⟨S600000x128, .f32⟩
  | .hbm, ⟨58, _⟩ => ⟨S600000x256, .f32⟩
  | .hbm, ⟨59, _⟩ => ⟨S_, .f32⟩
  | .hbm, ⟨60, _⟩ => ⟨S50000x256, .f32⟩
  | .hbm, ⟨61, _⟩ => ⟨S600000x1, .i32⟩
  | .hbm, ⟨62, _⟩ => ⟨S50000x256, .f32⟩
  | .hbm, ⟨63, _⟩ => ⟨S50000x128, .f32⟩
  | .hbm, ⟨64, _⟩ => ⟨S50000x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S384, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2400x128, .f32⟩
  | .local _ .vmem, ⟨11, _⟩ => ⟨S2400x128, .f32⟩
  | .local _ .vmem, ⟨12, _⟩ => ⟨S2400x128, .bf16⟩
  | .local _ .vmem, ⟨13, _⟩ => ⟨S2400x128, .bf16⟩
  | .local _ .vmem, ⟨14, _⟩ => ⟨S2400x128, .bf16⟩
  | .local _ .vmem, ⟨15, _⟩ => ⟨S2400x128, .bf16⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S2400x128, .f32⟩
  | .local _ .vmem, ⟨21, _⟩ => ⟨S2400x128, .f32⟩
  | .local _ .vmem, ⟨22, _⟩ => ⟨S2400x128, .bf16⟩
  | .local _ .vmem, ⟨23, _⟩ => ⟨S2400x128, .bf16⟩
  | .local _ .vmem, ⟨24, _⟩ => ⟨S2400x128, .bf16⟩
  | .local _ .vmem, ⟨25, _⟩ => ⟨S2400x128, .bf16⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128, .f32⟩
  | .local _ .vmem, ⟨35, _⟩ => ⟨S128, .f32⟩
  | .local _ .vmem, ⟨36, _⟩ => ⟨S2000x128, .f32⟩
  | .local _ .vmem, ⟨37, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v27_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2400x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2400x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2400x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  bcast_S_S600000 : S_.BroadcastsInDim S600000 (![] : Fin 0 → Fin S600000.rank)
  bcast_S600000_S600000x1_0 : S600000.BroadcastsInDim S600000x1 (![0] : Fin 1 → Fin S600000x1.rank)
  inb_S2400x128_S2400x128_0_0 : ∀ a, (![0, 0] : Fin 2 → Nat) a + S2400x128.size a ≤ S2400x128.size a
  h_S2400x128 : 0 < S2400x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2400x128 : S1x128.Broadcasts S2400x128
  shapeCasts_S2400x128_S2400x128 : S2400x128.ShapeCasts S2400x128
  packedbf16_S2400x128_S2400x128_0_0 : (Rect.unit (s := S2400x128) ![0, 0] S2400x128.size inb_S2400x128_S2400x128_0_0).PackedRows (EltTy.packing .bf16)
  reduces_S2400x128_S2400 : S2400x128.Reduces [1] S2400
  shapeCasts_S2400_S2400x1 : S2400.ShapeCasts S2400x1
  broadcasts_S2400x1_S2400x128 : S2400x1.Broadcasts S2400x128
  concatenates_S600000x128_S600000x128_S600000x256_d1 : Shape.Concatenates [S600000x128, S600000x128] S600000x256 1
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  broadcasts_S1x128_S2000x128 : S1x128.Broadcasts S2000x128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  dot_S2000x128_S128x384_S2000x384_1_0_0_1_n_n_wf : DotDims.WF S2000x128 S128x384 S2000x384 [1] [0] [0] [1] [] []
  gather_S50000x128_S600000x1_S600000x128_1_0_n_n_0_1_1128_wf : GatherDims.WF S50000x128 S600000x1 S600000x128 [1] [0] [] [0] [] 1 ![1, 128]
  dot_S2400x128_S128x128_S2400x128_1_0_0_1_n_n_wf : DotDims.WF S2400x128 S128x128 S2400x128 [1] [0] [0] [1] [] []
  scatter_S50000x256_S600000x1_S600000x256_1_0_0_1_wf : ScatterDims.WF S50000x256 S600000x1 S600000x256 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2400x128.size a ≤ S600000x128.size a
  hwx1_0 : ∀ i : grid1.Coords, EltTy.bits .f32 = 32 ∨ (Rect.block (s := S600000x128) S2400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2400x128.size a ≤ S600000x128.size a
  hwx1_1 : ∀ i : grid1.Coords, EltTy.bits .bf16 = 32 ∨ (Rect.block (s := S600000x128) S2400x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2400x128.size a ≤ S600000x128.size a
  hwx1_2 : ∀ i : grid1.Coords, EltTy.bits .bf16 = 32 ∨ (Rect.block (s := S600000x128) S2400x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2400x128.size a ≤ S600000x128.size a
  hwx1_7 : ∀ i : grid1.Coords, EltTy.bits .f32 = 32 ∨ (Rect.block (s := S600000x128) S2400x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2400x128.size a ≤ S600000x128.size a
  hwx1_8 : ∀ i : grid1.Coords, EltTy.bits .bf16 = 32 ∨ (Rect.block (s := S600000x128) S2400x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2400x128.size a ≤ S600000x128.size a
  hwx1_9 : ∀ i : grid1.Coords, EltTy.bits .bf16 = 32 ∨ (Rect.block (s := S600000x128) S2400x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S2400x128_S128x128_S2400x128_1_0_0_1_n_n : DotDims S2400x128 S128x128 S2400x128 where
  lhsContracting := [1]
  rhsContracting := [0]
  lhsNonContracting := [0]
  rhsNonContracting := [1]
  lhsBatch := []
  rhsBatch := []
  wf := dot_S2400x128_S128x128_S2400x128_1_0_0_1_n_n_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S2400x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S2400x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S2400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S128x128 : Shape := ⟨2, ![128, 128]⟩
abbrev S128 : Shape := ⟨1, ![128]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S50000 : Shape := ⟨1, ![50000]⟩
abbrev S50000x1 : Shape := ⟨2, ![50000, 1]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S600000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S600000, .i32⟩
  | 17 => ⟨S600000, .i32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S1x128, .f32⟩
  | 47 => ⟨S600000x128, .f32⟩
  | 48 => ⟨S600000x128, .f32⟩
  | 49 => ⟨S600000x128, .f32⟩
  | 50 => ⟨S600000x128, .f32⟩
  | 51 => ⟨S600000x128, .f32⟩
  | 52 => ⟨S_, .f32⟩
  | 53 => ⟨S600000x128, .f32⟩
  | 54 => ⟨S600000x128, .f32⟩
  | 55 => ⟨S_, .f32⟩
  | 56 => ⟨S600000x128, .f32⟩
  | 57 => ⟨S600000x128, .f32⟩
  | 58 => ⟨S50000x128, .f32⟩
  | 59 => ⟨S1x128, .f32⟩
  | 60 => ⟨S50000x128, .f32⟩
  | 61 => ⟨S50000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S_, .f32⟩
  | 77 => ⟨S50000x128, .f32⟩
  | 78 => ⟨S600000x1, .i32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x128, .f32⟩
  | 96 => ⟨S50000x128, .f32⟩
  | 97 => ⟨S50000x128, .f32⟩
  | 98 => ⟨S_, .f32⟩
  | 99 => ⟨S50000, .f32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S_, .f32⟩
  | 107 => ⟨S50000x1, .f32⟩
  | 108 => ⟨S50000x1, .f32⟩
  | 109 => ⟨S50000x1, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S600000, .f32⟩
  | 1 => ⟨S600000x1, .f32⟩
  | 2 => ⟨S_, .f32⟩
  | 3 => ⟨S600000x1, .f32⟩
  | 4 => ⟨S600000x1, .f32⟩
  | 5 => ⟨S600000x128, .f32⟩
  | 6 => ⟨S600000x128, .f32⟩
  | 7 => ⟨S600000x128, .f32⟩
  | 8 => ⟨S_, .f32⟩
  | 9 => ⟨S600000, .f32⟩
  | 10 => ⟨S600000x1, .f32⟩
  | 11 => ⟨S_, .f32⟩
  | 12 => ⟨S600000x1, .f32⟩
  | 13 => ⟨S600000x1, .f32⟩
  | 14 => ⟨S600000x128, .f32⟩
  | 15 => ⟨S600000x128, .f32⟩
  | 16 => ⟨S_, .f32⟩
  | 17 => ⟨S600000x1, .f32⟩
  | 18 => ⟨S600000x1, .f32⟩
  | 19 => ⟨S600000x1, .f32⟩
  | 20 => ⟨S600000x128, .f32⟩
  | 21 => ⟨S600000x128, .f32⟩
  | 22 => ⟨S1x128, .f32⟩
  | 23 => ⟨S600000x128, .f32⟩
  | 24 => ⟨S600000x128, .f32⟩
  | 25 => ⟨S1x128, .f32⟩
  | 26 => ⟨S600000x128, .f32⟩
  | 27 => ⟨S600000x128, .f32⟩
  | 28 => ⟨S600000x128, .f32⟩
  | 29 => ⟨S600000x128, .f32⟩
  | 30 => ⟨S_, .f32⟩
  | 31 => ⟨S600000x128, .f32⟩
  | 32 => ⟨S600000x128, .f32⟩
  | 33 => ⟨S_, .f32⟩
  | 34 => ⟨S600000x128, .f32⟩
  | 35 => ⟨S600000x128, .f32⟩
  | 36 => ⟨S600000x128, .f32⟩
  | 37 => ⟨S50000x128, .f32⟩
  | 38 => ⟨S600000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call0_v0 : Ref sig .tc := ⟨.hbm, 118, rfl⟩
abbrev main_call0_v1 : Ref sig .tc := ⟨.hbm, 119, rfl⟩
abbrev main_call0_cst : Ref sig .tc := ⟨.hbm, 120, rfl⟩
abbrev main_call0_v2 : Ref sig .tc := ⟨.hbm, 121, rfl⟩
abbrev main_call0_v3 : Ref sig .tc := ⟨.hbm, 122, rfl⟩
abbrev main_call0_cst_0 : Ref sig .tc := ⟨.hbm, 123, rfl⟩
abbrev main_call0_v4 : Ref sig .tc := ⟨.hbm, 124, rfl⟩
abbrev main_call0_v5 : Ref sig .tc := ⟨.hbm, 125, rfl⟩
abbrev main_v84 : Ref sig .tc := ⟨.hbm, 126, rfl⟩
abbrev main_cst_14 : Ref sig .tc := ⟨.hbm, 127, rfl⟩
abbrev main_v85 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_16 : Ref sig .tc := ⟨.hbm, 136, rfl⟩
abbrev main_v92 : Ref sig .tc := ⟨.hbm, 137, rfl⟩
abbrev main_v93 : Ref sig .tc := ⟨.hbm, 138, rfl⟩
abbrev main_cst_17 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_18 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call1_v0 : Ref sig .tc := ⟨.hbm, 156, rfl⟩
abbrev main_call1_v1 : Ref sig .tc := ⟨.hbm, 157, rfl⟩
abbrev main_call1_cst : Ref sig .tc := ⟨.hbm, 158, rfl⟩
abbrev main_call1_v2 : Ref sig .tc := ⟨.hbm, 159, rfl⟩
abbrev main_call1_v3 : Ref sig .tc := ⟨.hbm, 160, rfl⟩
abbrev main_call1_cst_0 : Ref sig .tc := ⟨.hbm, 161, rfl⟩
abbrev main_call1_v4 : Ref sig .tc := ⟨.hbm, 162, rfl⟩
abbrev main_call1_v5 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S600000x128_S600000_d1 : S600000x128.ReducesTo [1] S600000
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.K.Region0.lean ====
import proofs.«172384_j69131793596856_2_alg».proof.Proof.Gen.Kernel.Launch
import proofs.«172384_j69131793596856_2_alg».proof.Proof.Gen.Kernel.Skeleton
import proofs.«172384_j69131793596856_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! # The node projection call (the first pallas_call of @main), at the entry contents `V` -/

/-- The block of window `w` at grid point `t`: the rectangle of the window's array, as the region finds it,
    that the pipeline stages there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds its block at every point, for any proof data whose array is
    `V`'s and whose body leaves the block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window is fetched once, at the first point; at a later point its block index has not moved, so its
    staging buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window, fetched once like the weight: its staging buffer holds its one block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S384 := Rect.unit (s := S384) ![0] S384.size inb_S384_S384_0

/-! ## What the body leaves in each output window's buffer -/

/-- The first output buffer after the body: columns 0 to 127 of the projected rows (features times weight plus
    bias), written by one whole-buffer store. -/
def out0_3 (x0 : Vec F S2000x128 .f32) (x1 : Vec F S128x384 .f32) (x2 : Vec F S384 .f32) : Vec F S2000x128 .f32 :=
  View.canon [⟨r0_0, k0_pay2 (View.ld x0 r0_0) (View.ld x1 r0_1) (View.ld x2 r0_2)⟩]

/-- That one store covers the buffer. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- The second output buffer after the body: columns 128 to 255 of the projected rows. -/
def out0_4 (x0 : Vec F S2000x128 .f32) (x1 : Vec F S128x384 .f32) (x2 : Vec F S384 .f32) : Vec F S2000x128 .f32 :=
  View.canon [⟨r0_0, k0_pay3 (View.ld x0 r0_0) (View.ld x1 r0_1) (View.ld x2 r0_2)⟩]

/-- That one store covers the buffer. -/
theorem cover0_4 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- The third output buffer after the body: columns 256 to 383 of the projected rows. -/
def out0_5 (x0 : Vec F S2000x128 .f32) (x1 : Vec F S128x384 .f32) (x2 : Vec F S384 .f32) : Vec F S2000x128 .f32 :=
  View.canon [⟨r0_0, k0_pay4 (View.ld x0 r0_0) (View.ld x1 r0_1) (View.ld x2 r0_2)⟩]

/-- That one store covers the buffer. -/
theorem cover0_5 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The projection body, called on whole staging memrefs with the three inputs at contents `x0 x1 x2` and the three
    outputs at anything, ends with the inputs unchanged and each output at `out0_w x0 x1 x2`: the printed function is
    its skeleton of loads and stores, which is run statement by statement. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S384 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole)
    (x0 : Vec F S2000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of the projection call on core `c`: the arrays as the region finds them; after the body at
    point `t` each input's buffer still at its block and each output's at `out0_w` of the three input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's staging memref at
    what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each staging memref at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the projection call, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«172384_j69131793596856_2_alg».proof.Proof.Gen.Kernel.Launch
import proofs.«172384_j69131793596856_2_alg».proof.Proof.Gen.Kernel.Skeleton
import proofs.«172384_j69131793596856_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! # The edge call (the second pallas_call of @main), at the entry contents `V` -/

/-- The block of window `w` at grid point `t`: the rectangle of the window's array, as the region finds it,
    that the pipeline stages there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge-feature window's staging buffer holds its block at every point, for any proof data whose array is
    `V`'s and whose body leaves the block where it is. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The first gathered half-precision window (the projected rows of one end of each edge): its staging buffer holds
    its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The second gathered half-precision window (the projected rows of the other end of each edge): its staging
    buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The weight window is fetched once, at the first point; later its block index has not moved, so its staging
    buffer still holds the same block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The bias window, fetched once: its staging buffer holds its one block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The normalisation scale window, fetched once: its staging buffer holds its one block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The normalisation shift window, fetched once: its staging buffer holds its one block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev r1_0 : Rect S2400x128 := Rect.unit (s := S2400x128) ![0, 0] S2400x128.size inb_S2400x128_S2400x128_0_0
abbrev r1_1 : Rect S128x128 := Rect.unit (s := S128x128) ![0, 0] S128x128.size inb_S128x128_S128x128_0_0
abbrev r1_2 : Rect S128 := Rect.unit (s := S128) ![0] S128.size inb_S128_S128_0

/-! ## What the body leaves in each output window's buffer -/

/-- The single-precision output buffer after the body: the updated edge rows — the old edge features plus the
    activated, normalised message — written by one whole-buffer store. -/
def out1_7 (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) : Vec F S2400x128 .f32 :=
  View.canon [⟨r1_0, k1_pay1 (View.ld x0 r1_0) (k1_pay7 (View.ld x0 r1_0) (View.ld x3 r1_1) (View.ld x4 r1_2) (View.ld x1 r1_0)) (k1_pay8 (View.ld x0 r1_0) (View.ld x3 r1_1) (View.ld x4 r1_2) (View.ld x1 r1_0)) (View.ld x5 r1_2) (View.ld x6 r1_2)⟩]

/-- That one store covers the buffer. -/
theorem cover1_7 (p0 : Vec F S2400x128 .f32) (y : S2400x128.Idx) :
    ∃ pc ∈ ([⟨r1_0, p0⟩] : List (View.Piece (Elt F) S2400x128 .f32)), y ∈ pc.1.set :=
  View.cover_of_tiled [⟨r1_0, p0⟩] S2400x128.size (by rfl) y

/-- The first half-precision output buffer after the body: the message rows rounded to half precision, written by
    one whole-buffer store. -/
def out1_8 (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) : Vec F S2400x128 .bf16 :=
  View.canon [⟨r1_0, k1_pay4 (View.ld x0 r1_0) (View.ld x3 r1_1) (View.ld x4 r1_2) (View.ld x1 r1_0)⟩]

/-- That one store covers the buffer. -/
theorem cover1_8 (p0 : Vec F S2400x128 .bf16) (y : S2400x128.Idx) :
    ∃ pc ∈ ([⟨r1_0, p0⟩] : List (View.Piece (Elt F) S2400x128 .bf16)), y ∈ pc.1.set :=
  View.cover_of_tiled [⟨r1_0, p0⟩] S2400x128.size (by rfl) y

/-- The second half-precision output buffer after the body: the message rows combined with the second gathered
    block and rounded to half precision, written by one whole-buffer store. -/
def out1_9 (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) : Vec F S2400x128 .bf16 :=
  View.canon [⟨r1_0, k1_pay5 (View.ld x0 r1_0) (View.ld x3 r1_1) (View.ld x4 r1_2) (View.ld x1 r1_0) (View.ld x2 r1_0)⟩]

/-- That one store covers the buffer. -/
theorem cover1_9 (p0 : Vec F S2400x128 .bf16) (y : S2400x128.Idx) :
    ∃ pc ∈ ([⟨r1_0, p0⟩] : List (View.Piece (Elt F) S2400x128 .bf16)), y ∈ pc.1.set :=
  View.cover_of_tiled [⟨r1_0, p0⟩] S2400x128.size (by rfl) y

/-! ## The body's triple -/

set_option maxHeartbeats 1000000 in
/-- The edge body, called on whole staging memrefs with the seven inputs at contents `x0 … x6` and the three outputs
    at anything, ends with the inputs unchanged and each output at `out1_w x0 … x6`: the printed function and the part
    it calls are their skeletons of loads and stores, which are run statement by statement through the part call. -/
theorem sound_kernel1 (c : Dev nD) (E : Set ℕ) (i : grid1.Coords) (arg1 : Memref sig .tc .vmem S2400x128 .f32) (harg1 : arg1.IsWhole) (arg2 : Memref sig .tc .vmem S2400x128 .bf16) (harg2 : arg2.IsWhole) (arg3 : Memref sig .tc .vmem S2400x128 .bf16) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S2400x128 .f32) (harg8 : arg8.IsWhole) (arg9 : Memref sig .tc .vmem S2400x128 .bf16) (harg9 : arg9.IsWhole) (arg10 : Memref sig .tc .vmem S2400x128 .bf16) (harg10 : arg10.IsWhole)
    (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

/-! ## The pipeline's proof data -/

/-- The proof data of the edge call on core `c`: the arrays as the region finds them; after the body at point `t`
    each input's buffer still at its block and each output's at `out1_w` of the seven input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves in each window's buffer, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what is owed, and each window's staging memref at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: the same, each staging memref at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for the edge call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«172384_j69131793596856_2_alg».proof.Proof.Gen.Kernel.Launch
import proofs.«172384_j69131793596856_2_alg».proof.Proof.Gen.Kernel.Skeleton
import proofs.«172384_j69131793596856_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! # The node update call (the third pallas_call of @main), at the entry contents `V` -/

/-- The block of window `w` at grid point `t`: the rectangle of the window's array, as the region finds it,
    that the pipeline stages there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node-feature window's staging buffer holds its block at every point, for any proof data whose array is
    `V`'s and whose body leaves the block where it is. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window is fetched once, at the first point; later its block index has not moved, so its staging
    buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The first bias window, fetched once: its staging buffer holds its one block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The first aggregate window (one half of the summed messages), fetched at every point: its staging buffer
    holds its block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The second aggregate window (the other half of the summed messages): its staging buffer holds its block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The normalisation scale window, fetched once: its staging buffer holds its one block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- The normalisation shift window, fetched once: its staging buffer holds its one block at every point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S128 := Rect.unit (s := S128) ![0] S128.size inb_S128_S128_0

/-! ## What the body leaves in the output window's buffer -/

/-- The output buffer after the body: the updated node rows — the old features combined with the activated,
    normalised message sum and the shift row — written by one whole-buffer store. -/
def out2_7 (x0 : Vec F S2000x128 .f32) (x1 : Vec F S128x128 .f32) (x2 : Vec F S128 .f32) (x3 : Vec F S2000x128 .f32) (x4 : Vec F S2000x128 .f32) (x5 : Vec F S128 .f32) (x6 : Vec F S128 .f32) : Vec F S2000x128 .f32 :=
  View.canon [⟨r2_0, k2_pay1 (View.ld x0 r2_0) (k2_pay2 (View.ld x0 r2_0) (View.ld x1 r2_1) (View.ld x2 r2_2) (View.ld x3 r2_0) (View.ld x4 r2_0) (View.ld x5 r2_2)) (k2_pay3 (View.ld x6 r2_2))⟩]

/-- That one store covers the buffer. -/
theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The update body, called on whole staging memrefs with the seven inputs at contents `x0 … x6` and the output at
    anything, ends with the inputs unchanged and the output at `out2_7 x0 … x6`: the printed function and the part it
    calls are their skeletons of loads and stores, which are run statement by statement through the part call. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128 .f32) (harg6 : arg6.IsWhole) (arg7 : Memref sig .tc .vmem S128 .f32) (harg7 : arg7.IsWhole) (arg8 : Memref sig .tc .vmem S2000x128 .f32) (harg8 : arg8.IsWhole)
    (x0 : Vec F S2000x128 .f32) (x1 : Vec F S128x128 .f32) (x2 : Vec F S128 .f32) (x3 : Vec F S2000x128 .f32) (x4 : Vec F S2000x128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__node_update_kernel i arg1 harg1 arg2 harg2 arg3 harg3 arg4 harg4 arg5 harg5 arg6 harg6 arg7 harg7 arg8 harg8) K := by
  simp only [cc2__node_update_kernel_eq_skeleton]; unfold cc2__node_update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of the update call on core `c`: the arrays as the region finds them; after the body at point
    `t` each input's buffer still at its block and the output's at `out2_7` of the seven input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves in each window's buffer, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what is owed, and each window's staging memref at
    what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each staging memref at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the update call, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  @main from launch to return as six segments — a stretch of host operations, a kernel region, twice more — and what
  every unscoped buffer holds at each boundary: the launch memory, then each host stretch's operations applied in order,
  then each region's arrays at what its write-backs leave. Every weakly fair execution terminates with every buffer at
  the last boundary's contents; an argument array is written by no host operation and is only ever an INPUT window of a
  region, so it ends as launched.
-/
import proofs.«172384_j69131793596856_2_alg».proof.Proof.K.Region0
import proofs.«172384_j69131793596856_2_alg».proof.Proof.K.Region1
import proofs.«172384_j69131793596856_2_alg».proof.Proof.K.Region2
import proofs.«172384_j69131793596856_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev U0 : Dev nD → Valuation τ sig (Elt F) := fun c b => (s₀ m ρ).mem ((c : Dev nD), b)
/-- After the first host stretch (the two concatenations). -/
abbrev U1 : Dev nD → Valuation τ sig (Elt F) := fun c => StableHlo.after hostOps0 (U0 m ρ c)
abbrev X1 : (c : Dev nD) → (b : Ref sig .tc) → Buf (Elt F) ((c : Thread nD τ).loc b) := fun c b => U1 m ρ c b

/-- After region 0: its arrays at what the pipeline leaves (the inputs as entered, each output's write-backs folded),
    every other buffer as entered. -/
def U2 (c : Dev nD) : Valuation τ sig (Elt F) :=
  Pipeline.withArrays spec0 c (U1 m ρ c) fun w => (dat0 (X1 m ρ) c).arrAt w cfg0.N
theorem U2_arr (c : Dev nD) (w : Fin cfg0.W) :
    U2 m ρ c (Proc.devRef .tc (Pipeline.arrRef spec0 w)) = (dat0 (X1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- An input window's array leaves region 0 as it entered. -/
theorem U2_in (c : Dev nD) (w : Fin cfg0.W) (hin : (cfg0.win w).isOut = false) :
    U2 m ρ c (Proc.devRef .tc (Pipeline.arrRef spec0 w)) = U1 m ρ c (Proc.devRef .tc (Pipeline.arrRef spec0 w)) :=
  (U2_arr m ρ c w).trans (((dat0 (X1 m ρ) c).arrAt_in w hin _).trans (A_eq0 (X1 m ρ) c w))
abbrev X2 : (c : Dev nD) → (b : Ref sig .tc) → Buf (Elt F) ((c : Thread nD τ).loc b) := fun c b => U2 m ρ c b
theorem hF0 (c : Dev nD) (w : Fin cfg0.W) : (dat0 (X1 m ρ) c).arrAt w cfg0.N = X2 m ρ c (Pipeline.arrRef spec0 w) :=
  (U2_arr m ρ c w).symm
theorem hrest0 (c : Dev nD) : ∀ b, b ∉ Finset.univ.image (Pipeline.arrRef spec0) → X2 m ρ c b = X1 m ρ c b :=
  fun b hb => U2_of_ne m ρ c b fun w e => hb (Finset.mem_image.mpr ⟨w, Finset.mem_univ _, e⟩)

/-- After the second host stretch (the gathers). -/
abbrev U3 : Dev nD → Valuation τ sig (Elt F) := fun c => StableHlo.after hostOps1 (U2 m ρ c)
abbrev X3 : (c : Dev nD) → (b : Ref sig .tc) → Buf (Elt F) ((c : Thread nD τ).loc b) := fun c b => U3 m ρ c b

/-- After region 1: its arrays at what the pipeline leaves (the inputs as entered, each output's write-backs folded),
    every other buffer as entered. -/
def U4 (c : Dev nD) : Valuation τ sig (Elt F) :=
  Pipeline.withArrays spec1 c (U3 m ρ c) fun w => (dat1 (X3 m ρ) c).arrAt w cfg1.N
theorem U4_arr (c : Dev nD) (w : Fin cfg1.W) :
    U4 m ρ c (Proc.devRef .tc (Pipeline.arrRef spec1 w)) = (dat1 (X3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
/-- An input window's array leaves region 1 as it entered. -/
theorem U4_in (c : Dev nD) (w : Fin cfg1.W) (hin : (cfg1.win w).isOut = false) :
    U4 m ρ c (Proc.devRef .tc (Pipeline.arrRef spec1 w)) = U3 m ρ c (Proc.devRef .tc (Pipeline.arrRef spec1 w)) :=
  (U4_arr m ρ c w).trans (((dat1 (X3 m ρ) c).arrAt_in w hin _).trans (A_eq1 (X3 m ρ) c w))
abbrev X4 : (c : Dev nD) → (b : Ref sig .tc) → Buf (Elt F) ((c : Thread nD τ).loc b) := fun c b => U4 m ρ c b
theorem hF1 (c : Dev nD) (w : Fin cfg1.W) : (dat1 (X3 m ρ) c).arrAt w cfg1.N = X4 m ρ c (Pipeline.arrRef spec1 w) :=
  (U4_arr m ρ c w).symm
theorem hrest1 (c : Dev nD) : ∀ b, b ∉ Finset.univ.image (Pipeline.arrRef spec1) → X4 m ρ c b = X3 m ρ c b :=
  fun b hb => U4_of_ne m ρ c b fun w e => hb (Finset.mem_image.mpr ⟨w, Finset.mem_univ _, e⟩)

/-- After the third host stretch (the scatter-add and its slices). -/
abbrev U5 : Dev nD → Valuation τ sig (Elt F) := fun c => StableHlo.after hostOps2 (U4 m ρ c)
abbrev X5 : (c : Dev nD) → (b : Ref sig .tc) → Buf (Elt F) ((c : Thread nD τ).loc b) := fun c b => U5 m ρ c b

/-- After region 2: its arrays at what the pipeline leaves (the inputs as entered, each output's write-backs folded),
    every other buffer as entered. -/
def U6 (c : Dev nD) : Valuation τ sig (Elt F) :=
  Pipeline.withArrays spec2 c (U5 m ρ c) fun w => (dat2 (X5 m ρ) c).arrAt w cfg2.N
theorem U6_arr (c : Dev nD) (w : Fin cfg2.W) :
    U6 m ρ c (Proc.devRef .tc (Pipeline.arrRef spec2 w)) = (dat2 (X5 m ρ) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m ρ c (Proc.devRef .tc b) = U5 m ρ c (Proc.devRef .tc b) := by
  unfold U6; exact Pipeline.withArrays_of_ne spec2 c _ _ b hb
/-- An input window's array leaves region 2 as it entered. -/
theorem U6_in (c : Dev nD) (w : Fin cfg2.W) (hin : (cfg2.win w).isOut = false) :
    U6 m ρ c (Proc.devRef .tc (Pipeline.arrRef spec2 w)) = U5 m ρ c (Proc.devRef .tc (Pipeline.arrRef spec2 w)) :=
  (U6_arr m ρ c w).trans (((dat2 (X5 m ρ) c).arrAt_in w hin _).trans (A_eq2 (X5 m ρ) c w))
abbrev X6 : (c : Dev nD) → (b : Ref sig .tc) → Buf (Elt F) ((c : Thread nD τ).loc b) := fun c b => U6 m ρ c b
theorem hF2 (c : Dev nD) (w : Fin cfg2.W) : (dat2 (X5 m ρ) c).arrAt w cfg2.N = X6 m ρ c (Pipeline.arrRef spec2 w) :=
  (U6_arr m ρ c w).symm
theorem hrest2 (c : Dev nD) : ∀ b, b ∉ Finset.univ.image (Pipeline.arrRef spec2) → X6 m ρ c b = X5 m ρ c b :=
  fun b hb => U6_of_ne m ρ c b fun w e => hb (Finset.mem_image.mpr ⟨w, Finset.mem_univ _, e⟩)

/-! ## A host stretch leaves the buffers it does not write -/

theorem U1_of (c : Dev nD) (r : Ref sig .tc) (h : r ∉ hostOps0_W) : U1 m ρ c (Proc.devRef .tc r) = U0 m ρ c (Proc.devRef .tc r) :=
  StableHlo.after_of_writes_sub hostOps0 _ hostOps0_writes h
theorem U3_of (c : Dev nD) (r : Ref sig .tc) (h : r ∉ hostOps1_W) : U3 m ρ c (Proc.devRef .tc r) = U2 m ρ c (Proc.devRef .tc r) :=
  StableHlo.after_of_writes_sub hostOps1 _ hostOps1_writes h
theorem U5_of (c : Dev nD) (r : Ref sig .tc) (h : r ∉ hostOps2_W) : U5 m ρ c (Proc.devRef .tc r) = U4 m ρ c (Proc.devRef .tc r) :=
  StableHlo.after_of_writes_sub hostOps2 _ hostOps2_writes h

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (X1 m ρ) c
  | ⟨1, _⟩ => fun c => dat1 (X3 m ρ) c
  | ⟨2, _⟩ => fun c => dat2 (X5 m ρ) c
abbrev 𝒱H : Variants := Variants.none
abbrev LH : GSem nD τ sig → Finset Unit := fun _ => ∅
abbrev lvH : GSem nD τ sig → Unit → ℕ := fun _ _ => 0
/-- What rides beside the buffers through every segment: the core's generator register at some state and its debts, none. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (U6 m ρ c) ∗ ∃ r, prngReg c r)

/-! ## The regions as segments -/

set_option backward.isDefEq.respectTransparency.types false in
/-- Region 0 as a segment of @main: entered with every unscoped buffer at the contents before it, left with the
    region's arrays at what its write-backs leave and every other buffer as entered. The arrays are split out of the
    unscoped buffers and put back; the generator register goes into the body's invariant and comes out; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ LH lvH 0 fun _ _ => rfl
  pre c := iprop(StableHlo.held (c : Thread nD τ) (Pipeline.ucRefs τ sig) (U1 m ρ c) ∗ RH c)
  post c := iprop(StableHlo.held (c : Thread nD τ) (Pipeline.ucRefs τ sig) (U2 m ρ c) ∗ RH c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (X1 m ρ c) (X2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with the
    region's arrays at what its write-backs leave and every other buffer as entered. The arrays are split out of the
    unscoped buffers and put back; the generator register goes into the body's invariant and comes out; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ LH lvH 1 fun _ _ => rfl
  pre c := iprop(StableHlo.held (c : Thread nD τ) (Pipeline.ucRefs τ sig) (U3 m ρ c) ∗ RH c)
  post c := iprop(StableHlo.held (c : Thread nD τ) (Pipeline.ucRefs τ sig) (U4 m ρ c) ∗ RH c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (X3 m ρ c) (X4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at the contents before it, left with the
    region's arrays at what its write-backs leave and every other buffer as entered. The arrays are split out of the
    unscoped buffers and put back; the generator register goes into the body's invariant and comes out; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (X5 m ρ) c).loose
  hwaits := Pipeline.hwaits_of_owed_zero _ _ _ _ LH lvH 2 fun _ _ => rfl
  pre c := iprop(StableHlo.held (c : Thread nD τ) (Pipeline.ucRefs τ sig) (U5 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (X5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (X5 m ρ c) (X6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ 𝒱H LH lvH) :=
  [ .host (hsegH hostOps0 hostOps0_sub hostOps0_fresh (U0 m ρ)),
    .region (reg0 m ρ),
    .host (hsegH hostOps1 hostOps1_sub hostOps1_fresh (U2 m ρ)),
    .region (reg1 m ρ),
    .host (hsegH hostOps2 hostOps2_sub hostOps2_fresh (U4 m ρ)),
    .region (reg2 m ρ) ]
theorem main_runH (c : Dev nD) : main (F := F) c = Pipeline.Seg.run (segsH m ρ) := (main_chain c).trans (by chain_rfl)

set_option backward.isDefEq.respectTransparency.types false in
/-- Every weakly fair execution of @main from memory m with zero counters terminates, nothing faulting, and in every
    final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ RH c)) (Tₙ := TnH m ρ)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m ρ c b)
    (hfin := fun c s' => by
      iintro ⟨⟨Hh, -⟩, HSI⟩
      unfold StableHlo.held
      imodintro
      iapply (pointsTo_read_all (Pipeline.ucRefs τ sig) (fun b => (((c : Thread nD τ)).1, b)) (U6 m ρ c) s')
      isplitl [Hh] <;> iassumption)
    (hQ := fun s h => h)

end Cert.Kernel.Hand

end
-- ==== Proof.K.Frame.lean ====
/-
  The frame: every argument array ends as launched. No host operation writes an argument, and a region touches one
  only as an input window, whose array its write-backs never change; so the last boundary's contents at an argument
  walk back, boundary by boundary, to the launch memory.
-/
import proofs.«172384_j69131793596856_2_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem U1_main_arg0 (c : Dev nD) : U1 m ρ c (Proc.devRef .tc main_arg0) = m ((c : Thread nD τ).loc main_arg0) :=
  calc U1 m ρ c (Proc.devRef .tc main_arg0)
    _ = U0 m ρ c (Proc.devRef .tc main_arg0) := U1_of m ρ c main_arg0 (by decide)
    _ = m ((c : Thread nD τ).loc main_arg0) := rfl

theorem U1_main_arg1 (c : Dev nD) : U1 m ρ c (Proc.devRef .tc main_arg1) = m ((c : Thread nD τ).loc main_arg1) :=
  calc U1 m ρ c (Proc.devRef .tc main_arg1)
    _ = U0 m ρ c (Proc.devRef .tc main_arg1) := U1_of m ρ c main_arg1 (by decide)
    _ = m ((c : Thread nD τ).loc main_arg1) := rfl

theorem U1_main_arg2 (c : Dev nD) : U1 m ρ c (Proc.devRef .tc main_arg2) = m ((c : Thread nD τ).loc main_arg2) :=
  calc U1 m ρ c (Proc.devRef .tc main_arg2)
    _ = U0 m ρ c (Proc.devRef .tc main_arg2) := U1_of m ρ c main_arg2 (by decide)
    _ = m ((c : Thread nD τ).loc main_arg2) := rfl

theorem U1_main_arg3 (c : Dev nD) : U1 m ρ c (Proc.devRef .tc main_arg3) = m ((c : Thread nD τ).loc main_arg3) :=
  calc U1 m ρ c (Proc.devRef .tc main_arg3)
    _ = U0 m ρ c (Proc.devRef .tc main_arg3) := U1_of m ρ c main_arg3 (by decide)
    _ = m ((c : Thread nD τ).loc main_arg3) := rfl

theorem U1_main_arg4 (c : Dev nD) : U1 m ρ c (Proc.devRef .tc main_arg4) = m ((c : Thread nD τ).loc main_arg4) :=
  calc U1 m ρ c (Proc.devRef .tc main_arg4)
    _ = U0 m ρ c (Proc.devRef .tc main_arg4) := U1_of m ρ c main_arg4 (by decide)
    _ = m ((c : Thread nD τ).loc main_arg4) := rfl

theorem U1_main_arg5 (c : Dev nD) : U1 m ρ c (Proc.devRef .tc main_arg5) = m ((c : Thread nD τ).loc main_arg5) :=
  calc U1 m ρ c (Proc.devRef .tc main_arg5)
    _ = U0 m ρ c (Proc.devRef .tc main_arg5) := U1_of m ρ c main_arg5 (by decide)
    _ = m ((c : Thread nD τ).loc main_arg5) := rfl

theorem U1_main_arg6 (c : Dev nD) : U1 m ρ c (Proc.devRef .tc main_arg6) = m ((c : Thread nD τ).loc main_arg6) :=
  calc U1 m ρ c (Proc.devRef .tc main_arg6)
    _ = U0 m ρ c (Proc.devRef .tc main_arg6) := U1_of m ρ c main_arg6 (by decide)
    _ = m ((c : Thread nD τ).loc main_arg6) := rfl

theorem U1_main_arg7 (c : Dev nD) : U1 m ρ c (Proc.devRef .tc main_arg7) = m ((c : Thread nD τ).loc main_arg7) :=
  calc U1 m ρ c (Proc.devRef .tc main_arg7)
    _ = U0 m ρ c (Proc.devRef .tc main_arg7) := U1_of m ρ c main_arg7 (by decide)
    _ = m ((c : Thread nD τ).loc main_arg7) := rfl

theorem U1_main_arg8 (c : Dev nD) : U1 m ρ c (Proc.devRef .tc main_arg8) = m ((c : Thread nD τ).loc main_arg8) :=
  calc U1 m ρ c (Proc.devRef .tc main_arg8)
    _ = U0 m ρ c (Proc.devRef .tc main_arg8) := U1_of m ρ c main_arg8 (by decide)
    _ = m ((c : Thread nD τ).loc main_arg8) := rfl

theorem U1_main_arg9 (c : Dev nD) : U1 m ρ c (Proc.devRef .tc main_arg9) = m ((c : Thread nD τ).loc main_arg9) :=
  calc U1 m ρ c (Proc.devRef .tc main_arg9)
    _ = U0 m ρ c (Proc.devRef .tc main_arg9) := U1_of m ρ c main_arg9 (by decide)
    _ = m ((c : Thread nD τ).loc main_arg9) := rfl

theorem U1_main_arg10 (c : Dev nD) : U1 m ρ c (Proc.devRef .tc main_arg10) = m ((c : Thread nD τ).loc main_arg10) :=
  calc U1 m ρ c (Proc.devRef .tc main_arg10)
    _ = U0 m ρ c (Proc.devRef .tc main_arg10) := U1_of m ρ c main_arg10 (by decide)
    _ = m ((c : Thread nD τ).loc main_arg10) := rfl

theorem U1_main_arg11 (c : Dev nD) : U1 m ρ c (Proc.devRef .tc main_arg11) = m ((c : Thread nD τ).loc main_arg11) :=
  calc U1 m ρ c (Proc.devRef .tc main_arg11)
    _ = U0 m ρ c (Proc.devRef .tc main_arg11) := U1_of m ρ c main_arg11 (by decide)
    _ = m ((c : Thread nD τ).loc main_arg11) := rfl

theorem U1_main_arg12 (c : Dev nD) : U1 m ρ c (Proc.devRef .tc main_arg12) = m ((c : Thread nD τ).loc main_arg12) :=
  calc U1 m ρ c (Proc.devRef .tc main_arg12)
    _ = U0 m ρ c (Proc.devRef .tc main_arg12) := U1_of m ρ c main_arg12 (by decide)
    _ = m ((c : Thread nD τ).loc main_arg12) := rfl

theorem U1_main_arg13 (c : Dev nD) : U1 m ρ c (Proc.devRef .tc main_arg13) = m ((c : Thread nD τ).loc main_arg13) :=
  calc U1 m ρ c (Proc.devRef .tc main_arg13)
    _ = U0 m ρ c (Proc.devRef .tc main_arg13) := U1_of m ρ c main_arg13 (by decide)
    _ = m ((c : Thread nD τ).loc main_arg13) := rfl

theorem U1_main_arg14 (c : Dev nD) : U1 m ρ c (Proc.devRef .tc main_arg14) = m ((c : Thread nD τ).loc main_arg14) :=
  calc U1 m ρ c (Proc.devRef .tc main_arg14)
    _ = U0 m ρ c (Proc.devRef .tc main_arg14) := U1_of m ρ c main_arg14 (by decide)
    _ = m ((c : Thread nD τ).loc main_arg14) := rfl

theorem U1_main_arg15 (c : Dev nD) : U1 m ρ c (Proc.devRef .tc main_arg15) = m ((c : Thread nD τ).loc main_arg15) :=
  calc U1 m ρ c (Proc.devRef .tc main_arg15)
    _ = U0 m ρ c (Proc.devRef .tc main_arg15) := U1_of m ρ c main_arg15 (by decide)
    _ = m ((c : Thread nD τ).loc main_arg15) := rfl

theorem U1_main_arg16 (c : Dev nD) : U1 m ρ c (Proc.devRef .tc main_arg16) = m ((c : Thread nD τ).loc main_arg16) :=
  calc U1 m ρ c (Proc.devRef .tc main_arg16)
    _ = U0 m ρ c (Proc.devRef .tc main_arg16) := U1_of m ρ c main_arg16 (by decide)
    _ = m ((c : Thread nD τ).loc main_arg16) := rfl

theorem U1_main_arg17 (c : Dev nD) : U1 m ρ c (Proc.devRef .tc main_arg17) = m ((c : Thread nD τ).loc main_arg17) :=
  calc U1 m ρ c (Proc.devRef .tc main_arg17)
    _ = U0 m ρ c (Proc.devRef .tc main_arg17) := U1_of m ρ c main_arg17 (by decide)
    _ = m ((c : Thread nD τ).loc main_arg17) := rfl

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of m ρ c main_arg0 (by decide)
    _ = U1 m ρ c (Proc.devRef .tc main_arg0) := U2_in m ρ c 0 rfl
    _ = U0 m ρ c (Proc.devRef .tc main_arg0) := U1_of m ρ c main_arg0 (by decide)
    _ = m ((c : Thread nD τ).loc main_arg0) := rfl

theorem U3_main_arg1 (c : Dev nD) : U3 m ρ c (Proc.devRef .tc main_arg1) = m ((c : Thread nD τ).loc main_arg1) :=
  calc U3 m ρ c (Proc.devRef .tc main_arg1)
    _ = U2 m ρ c (Proc.devRef .tc main_arg1) := U3_of m ρ c main_arg1 (by decide)
    _ = U1 m ρ c (Proc.devRef .tc main_arg1) := U2_of_ne m ρ c main_arg1 (by decide)
    _ = U0 m ρ c (Proc.devRef .tc main_arg1) := U1_of m ρ c main_arg1 (by decide)
    _ = m ((c : Thread nD τ).loc main_arg1) := rfl

theorem U3_main_arg2 (c : Dev nD) : U3 m ρ c (Proc.devRef .tc main_arg2) = m ((c : Thread nD τ).loc main_arg2) :=
  calc U3 m ρ c (Proc.devRef .tc main_arg2)
    _ = U2 m ρ c (Proc.devRef .tc main_arg2) := U3_of m ρ c main_arg2 (by decide)
    _ = U1 m ρ c (Proc.devRef .tc main_arg2) := U2_of_ne m ρ c main_arg2 (by decide)
    _ = U0 m ρ c (Proc.devRef .tc main_arg2) := U1_of m ρ c main_arg2 (by decide)
    _ = m ((c : Thread nD τ).loc main_arg2) := rfl

theorem U3_main_arg3 (c : Dev nD) : U3 m ρ c (Proc.devRef .tc main_arg3) = m ((c : Thread nD τ).loc main_arg3) :=
  calc U3 m ρ c (Proc.devRef .tc main_arg3)
    _ = U2 m ρ c (Proc.devRef .tc main_arg3) := U3_of m ρ c main_arg3 (by decide)
    _ = U1 m ρ c (Proc.devRef .tc main_arg3) := U2_of_ne m ρ c main_arg3 (by decide)
    _ = U0 m ρ c (Proc.devRef .tc main_arg3) := U1_of m ρ c main_arg3 (by decide)
    _ = m ((c : Thread nD τ).loc main_arg3) := rfl

theorem U3_main_arg4 (c : Dev nD) : U3 m ρ c (Proc.devRef .tc main_arg4) = m ((c : Thread nD τ).loc main_arg4) :=
  calc U3 m ρ c (Proc.devRef .tc main_arg4)
    _ = U2 m ρ c (Proc.devRef .tc main_arg4) := U3_of m ρ c main_arg4 (by decide)
    _ = U1 m ρ c (Proc.devRef .tc main_arg4) := U2_of_ne m ρ c main_arg4 (by decide)
    _ = U0 m ρ c (Proc.devRef .tc main_arg4) := U1_of m ρ c main_arg4 (by decide)
    _ = m ((c : Thread nD τ).loc main_arg4) := rfl

theorem U3_main_arg5 (c : Dev nD) : U3 m ρ c (Proc.devRef .tc main_arg5) = m ((c : Thread nD τ).loc main_arg5) :=
  calc U3 m ρ c (Proc.devRef .tc main_arg5)
    _ = U2 m ρ c (Proc.devRef .tc main_arg5) := U3_of m ρ c main_arg5 (by decide)
    _ = U1 m ρ c (Proc.devRef .tc main_arg5) := U2_of_ne m ρ c main_arg5 (by decide)
    _ = U0 m ρ c (Proc.devRef .tc main_arg5) := U1_of m ρ c main_arg5 (by decide)
    _ = m ((c : Thread nD τ).loc main_arg5) := rfl

theorem U3_main_arg6 (c : Dev nD) : U3 m ρ c (Proc.devRef .tc main_arg6) = m ((c : Thread nD τ).loc main_arg6) :=
  calc U3 m ρ c (Proc.devRef .tc main_arg6)
    _ = U2 m ρ c (Proc.devRef .tc main_arg6) := U3_of m ρ c main_arg6 (by decide)
    _ = U1 m ρ c (Proc.devRef .tc main_arg6) := U2_of_ne m ρ c main_arg6 (by decide)
    _ = U0 m ρ c (Proc.devRef .tc main_arg6) := U1_of m ρ c main_arg6 (by decide)
    _ = m ((c : Thread nD τ).loc main_arg6) := rfl

theorem U3_main_arg7 (c : Dev nD) : U3 m ρ c (Proc.devRef .tc main_arg7) = m ((c : Thread nD τ).loc main_arg7) :=
  calc U3 m ρ c (Proc.devRef .tc main_arg7)
    _ = U2 m ρ c (Proc.devRef .tc main_arg7) := U3_of m ρ c main_arg7 (by decide)
    _ = U1 m ρ c (Proc.devRef .tc main_arg7) := U2_of_ne m ρ c main_arg7 (by decide)
    _ = U0 m ρ c (Proc.devRef .tc main_arg7) := U1_of m ρ c main_arg7 (by decide)
    _ = m ((c : Thread nD τ).loc main_arg7) := rfl

theorem U3_main_arg8 (c : Dev nD) : U3 m ρ c (Proc.devRef .tc main_arg8) = m ((c : Thread nD τ).loc main_arg8) :=
  calc U3 m ρ c (Proc.devRef .tc main_arg8)
    _ = U2 m ρ c (Proc.devRef .tc main_arg8) := U3_of m ρ c main_arg8 (by decide)
    _ = U1 m ρ c (Proc.devRef .tc main_arg8) := U2_of_ne m ρ c main_arg8 (by decide)
    _ = U0 m ρ c (Proc.devRef .tc main_arg8) := U1_of m ρ c main_arg8 (by decide)
    _ = m ((c : Thread nD τ).loc main_arg8) := rfl

theorem U3_main_arg9 (c : Dev nD) : U3 m ρ c (Proc.devRef .tc main_arg9) = m ((c : Thread nD τ).loc main_arg9) :=
  calc U3 m ρ c (Proc.devRef .tc main_arg9)
    _ = U2 m ρ c (Proc.devRef .tc main_arg9) := U3_of m ρ c main_arg9 (by decide)
    _ = U1 m ρ c (Proc.devRef .tc main_arg9) := U2_of_ne m ρ c main_arg9 (by decide)
    _ = U0 m ρ c (Proc.devRef .tc main_arg9) := U1_of m ρ c main_arg9 (by decide)
    _ = m ((c : Thread nD τ).loc main_arg9) := rfl

theorem U3_main_arg10 (c : Dev nD) : U3 m ρ c (Proc.devRef .tc main_arg10) = m ((c : Thread nD τ).loc main_arg10) :=
  calc U3 m ρ c (Proc.devRef .tc main_arg10)
    _ = U2 m ρ c (Proc.devRef .tc main_arg10) := U3_of m ρ c main_arg10 (by decide)
    _ = U1 m ρ c (Proc.devRef .tc main_arg10) := U2_of_ne m ρ c main_arg10 (by decide)
    _ = U0 m ρ c (Proc.devRef .tc main_arg10) := U1_of m ρ c main_arg10 (by decide)
    _ = m ((c : Thread nD τ).loc main_arg10) := rfl

theorem U3_main_arg11 (c : Dev nD) : U3 m ρ c (Proc.devRef .tc main_arg11) = m ((c : Thread nD τ).loc main_arg11) :=
  calc U3 m ρ c (Proc.devRef .tc main_arg11)
    _ = U2 m ρ c (Proc.devRef .tc main_arg11) := U3_of m ρ c main_arg11 (by decide)
    _ = U1 m ρ c (Proc.devRef .tc main_arg11) := U2_of_ne m ρ c main_arg11 (by decide)
    _ = U0 m ρ c (Proc.devRef .tc main_arg11) := U1_of m ρ c main_arg11 (by decide)
    _ = m ((c : Thread nD τ).loc main_arg11) := rfl

theorem U3_main_arg12 (c : Dev nD) : U3 m ρ c (Proc.devRef .tc main_arg12) = m ((c : Thread nD τ).loc main_arg12) :=
  calc U3 m ρ c (Proc.devRef .tc main_arg12)
    _ = U2 m ρ c (Proc.devRef .tc main_arg12) := U3_of m ρ c main_arg12 (by decide)
    _ = U1 m ρ c (Proc.devRef .tc main_arg12) := U2_of_ne m ρ c main_arg12 (by decide)
    _ = U0 m ρ c (Proc.devRef .tc main_arg12) := U1_of m ρ c main_arg12 (by decide)
    _ = m ((c : Thread nD τ).loc main_arg12) := rfl

theorem U3_main_arg13 (c : Dev nD) : U3 m ρ c (Proc.devRef .tc main_arg13) = m ((c : Thread nD τ).loc main_arg13) :=
  calc U3 m ρ c (Proc.devRef .tc main_arg13)
    _ = U2 m ρ c (Proc.devRef .tc main_arg13) := U3_of m ρ c main_arg13 (by decide)
    _ = U1 m ρ c (Proc.devRef .tc main_arg13) := U2_of_ne m ρ c main_arg13 (by decide)
    _ = U0 m ρ c (Proc.devRef .tc main_arg13) := U1_of m ρ c main_arg13 (by decide)
    _ = m ((c : Thread nD τ).loc main_arg13) := rfl

theorem U3_main_arg14 (c : Dev nD) : U3 m ρ c (Proc.devRef .tc main_arg14) = m ((c : Thread nD τ).loc main_arg14) :=
  calc U3 m ρ c (Proc.devRef .tc main_arg14)
    _ = U2 m ρ c (Proc.devRef .tc main_arg14) := U3_of m ρ c main_arg14 (by decide)
    _ = U1 m ρ c (Proc.devRef .tc main_arg14) := U2_of_ne m ρ c main_arg14 (by decide)
    _ = U0 m ρ c (Proc.devRef .tc main_arg14) := U1_of m ρ c main_arg14 (by decide)
    _ = m ((c : Thread nD τ).loc main_arg14) := rfl

theorem U3_main_arg15 (c : Dev nD) : U3 m ρ c (Proc.devRef .tc main_arg15) = m ((c : Thread nD τ).loc main_arg15) :=
  calc U3 m ρ c (Proc.devRef .tc main_arg15)
    _ = U2 m ρ c (Proc.devRef .tc main_arg15) := U3_of m ρ c main_arg15 (by decide)
    _ = U1 m ρ c (Proc.devRef .tc main_arg15) := U2_of_ne m ρ c main_arg15 (by decide)
    _ = U0 m ρ c (Proc.devRef .tc main_arg15) := U1_of m ρ c main_arg15 (by decide)
    _ = m ((c : Thread nD τ).loc main_arg15) := rfl

theorem U3_main_arg16 (c : Dev nD) : U3 m ρ c (Proc.devRef .tc main_arg16) = m ((c : Thread nD τ).loc main_arg16) :=
  calc U3 m ρ c (Proc.devRef .tc main_arg16)
    _ = U2 m ρ c (Proc.devRef .tc main_arg16) := U3_of m ρ c main_arg16 (by decide)
    _ = U1 m ρ c (Proc.devRef .tc main_arg16) := U2_of_ne m ρ c main_arg16 (by decide)
    _ = U0 m ρ c (Proc.devRef .tc main_arg16) := U1_of m ρ c main_arg16 (by decide)
    _ = m ((c : Thread nD τ).loc main_arg16) := rfl

theorem U3_main_arg17 (c : Dev nD) : U3 m ρ c (Proc.devRef .tc main_arg17) = m ((c : Thread nD τ).loc main_arg17) :=
  calc U3 m ρ c (Proc.devRef .tc main_arg17)
    _ = U2 m ρ c (Proc.devRef .tc main_arg17) := U3_of m ρ c main_arg17 (by decide)
    _ = U1 m ρ c (Proc.devRef .tc main_arg17) := U2_of_ne m ρ c main_arg17 (by decide)
    _ = U0 m ρ c (Proc.devRef .tc main_arg17) := U1_of m ρ c main_arg17 (by decide)
    _ = m ((c : Thread nD τ).loc main_arg17) := rfl

theorem U5_main_arg0 (c : Dev nD) : U5 m ρ c (Proc.devRef .tc main_arg0) = m ((c : Thread nD τ).loc main_arg0) :=
  calc U5 m ρ c (Proc.devRef .tc main_arg0)
    _ = U4 m ρ c (Proc.devRef .tc main_arg0) := U5_of m ρ c main_arg0 (by decide)
    _ = U3 m ρ c (Proc.devRef .tc main_arg0) := U4_of_ne m ρ c main_arg0 (by decide)
    _ = U2 m ρ c (Proc.devRef .tc main_arg0) := U3_of m ρ c main_arg0 (by decide)
    _ = U1 m ρ c (Proc.devRef .tc main_arg0) := U2_in m ρ c 0 rfl
    _ = U0 m ρ c (Proc.devRef .tc main_arg0) := U1_of m ρ c main_arg0 (by decide)
    _ = m ((c : Thread nD τ).loc main_arg0) := rfl

theorem U5_main_arg1 (c : Dev nD) : U5 m ρ c (Proc.devRef .tc main_arg1) = m ((c : Thread nD τ).loc main_arg1) :=
  calc U5 m ρ c (Proc.devRef .tc main_arg1)
    _ = U4 m ρ c (Proc.devRef .tc main_arg1) := U5_of m ρ c main_arg1 (by decide)
    _ = U3 m ρ c (Proc.devRef .tc main_arg1) := U4_in m ρ c 0 rfl
    _ = U2 m ρ c (Proc.devRef .tc main_arg1) := U3_of m ρ c main_arg1 (by decide)
    _ = U1 m ρ c (Proc.devRef .tc main_arg1) := U2_of_ne m ρ c main_arg1 (by decide)
    _ = U0 m ρ c (Proc.devRef .tc main_arg1) := U1_of m ρ c main_arg1 (by decide)
    _ = m ((c : Thread nD τ).loc main_arg1) := rfl

theorem U5_main_arg2 (c : Dev nD) : U5 m ρ c (Proc.devRef .tc main_arg2) = m ((c : Thread nD τ).loc main_arg2) :=
  calc U5 m ρ c (Proc.devRef .tc main_arg2)
    _ = U4 m ρ c (Proc.devRef .tc main_arg2) := U5_of m ρ c main_arg2 (by decide)
    _ = U3 m ρ c (Proc.devRef .tc main_arg2) := U4_of_ne m ρ c main_arg2 (by decide)
    _ = U2 m ρ c (Proc.devRef .tc main_arg2) := U3_of m ρ c main_arg2 (by decide)
    _ = U1 m ρ c (Proc.devRef .tc main_arg2) := U2_of_ne m ρ c main_arg2 (by decide)
    _ = U0 m ρ c (Proc.devRef .tc main_arg2) := U1_of m ρ c main_arg2 (by decide)
    _ = m ((c : Thread nD τ).loc main_arg2) := rfl

theorem U5_main_arg3 (c : Dev nD) : U5 m ρ c (Proc.devRef .tc main_arg3) = m ((c : Thread nD τ).loc main_arg3) :=
  calc U5 m ρ c (Proc.devRef .tc main_arg3)
    _ = U4 m ρ c (Proc.devRef .tc main_arg3) := U5_of m ρ c main_arg3 (by decide)
    _ = U3 m ρ c (Proc.devRef .tc main_arg3) := U4_of_ne m ρ c main_arg3 (by decide)
    _ = U2 m ρ c (Proc.devRef .tc main_arg3) := U3_of m ρ c main_arg3 (by decide)
    _ = U1 m ρ c (Proc.devRef .tc main_arg3) := U2_of_ne m ρ c main_arg3 (by decide)
    _ = U0 m ρ c (Proc.devRef .tc main_arg3) := U1_of m ρ c main_arg3 (by decide)
    _ = m ((c : Thread nD τ).loc main_arg3) := rfl

theorem U5_main_arg4 (c : Dev nD) : U5 m ρ c (Proc.devRef .tc main_arg4) = m ((c : Thread nD τ).loc main_arg4) :=
  calc U5 m ρ c (Proc.devRef .tc main_arg4)
    _ = U4 m ρ c (Proc.devRef .tc main_arg4) := U5_of m ρ c main_arg4 (by decide)
    _ = U3 m ρ c (Proc.devRef .tc main_arg4) := U4_of_ne m ρ c main_arg4 (by decide)
    _ = U2 m ρ c (Proc.devRef .tc main_arg4) := U3_of m ρ c main_arg4 (by decide)
    _ = U1 m ρ c (Proc.devRef .tc main_arg4) := U2_of_ne m ρ c main_arg4 (by decide)
    _ = U0 m ρ c (Proc.devRef .tc main_arg4) := U1_of m ρ c main_arg4 (by decide)
    _ = m ((c : Thread nD τ).loc main_arg4) := rfl

theorem U5_main_arg5 (c : Dev nD) : U5 m ρ c (Proc.devRef .tc main_arg5) = m ((c : Thread nD τ).loc main_arg5) :=
  calc U5 m ρ c (Proc.devRef .tc main_arg5)
    _ = U4 m ρ c (Proc.devRef .tc main_arg5) := U5_of m ρ c main_arg5 (by decide)
    _ = U3 m ρ c (Proc.devRef .tc main_arg5) := U4_of_ne m ρ c main_arg5 (by decide)
    _ = U2 m ρ c (Proc.devRef .tc main_arg5) := U3_of m ρ c main_arg5 (by decide)
    _ = U1 m ρ c (Proc.devRef .tc main_arg5) := U2_of_ne m ρ c main_arg5 (by decide)
    _ = U0 m ρ c (Proc.devRef .tc main_arg5) := U1_of m ρ c main_arg5 (by decide)
    _ = m ((c : Thread nD τ).loc main_arg5) := rfl

theorem U5_main_arg6 (c : Dev nD) : U5 m ρ c (Proc.devRef .tc main_arg6) = m ((c : Thread nD τ).loc main_arg6) :=
  calc U5 m ρ c (Proc.devRef .tc main_arg6)
    _ = U4 m ρ c (Proc.devRef .tc main_arg6) := U5_of m ρ c main_arg6 (by decide)
    _ = U3 m ρ c (Proc.devRef .tc main_arg6) := U4_in m ρ c 3 rfl
    _ = U2 m ρ c (Proc.devRef .tc main_arg6) := U3_of m ρ c main_arg6 (by decide)
    _ = U1 m ρ c (Proc.devRef .tc main_arg6) := U2_of_ne m ρ c main_arg6 (by decide)
    _ = U0 m ρ c (Proc.devRef .tc main_arg6) := U1_of m ρ c main_arg6 (by decide)
    _ = m ((c : Thread nD τ).loc main_arg6) := rfl

theorem U5_main_arg7 (c : Dev nD) : U5 m ρ c (Proc.devRef .tc main_arg7) = m ((c : Thread nD τ).loc main_arg7) :=
  calc U5 m ρ c (Proc.devRef .tc main_arg7)
    _ = U4 m ρ c (Proc.devRef .tc main_arg7) := U5_of m ρ c main_arg7 (by decide)
    _ = U3 m ρ c (Proc.devRef .tc main_arg7) := U4_in m ρ c 4 rfl
    _ = U2 m ρ c (Proc.devRef .tc main_arg7) := U3_of m ρ c main_arg7 (by decide)
    _ = U1 m ρ c (Proc.devRef .tc main_arg7) := U2_of_ne m ρ c main_arg7 (by decide)
    _ = U0 m ρ c (Proc.devRef .tc main_arg7) := U1_of m ρ c main_arg7 (by decide)
    _ = m ((c : Thread nD τ).loc main_arg7) := rfl

theorem U5_main_arg8 (c : Dev nD) : U5 m ρ c (Proc.devRef .tc main_arg8) = m ((c : Thread nD τ).loc main_arg8) :=
  calc U5 m ρ c (Proc.devRef .tc main_arg8)
    _ = U4 m ρ c (Proc.devRef .tc main_arg8) := U5_of m ρ c main_arg8 (by decide)
    _ = U3 m ρ c (Proc.devRef .tc main_arg8) := U4_of_ne m ρ c main_arg8 (by decide)
    _ = U2 m ρ c (Proc.devRef .tc main_arg8) := U3_of m ρ c main_arg8 (by decide)
    _ = U1 m ρ c (Proc.devRef .tc main_arg8) := U2_of_ne m ρ c main_arg8 (by decide)
    _ = U0 m ρ c (Proc.devRef .tc main_arg8) := U1_of m ρ c main_arg8 (by decide)
    _ = m ((c : Thread nD τ).loc main_arg8) := rfl

theorem U5_main_arg9 (c : Dev nD) : U5 m ρ c (Proc.devRef .tc main_arg9) = m ((c : Thread nD τ).loc main_arg9) :=
  calc U5 m ρ c (Proc.devRef .tc main_arg9)
    _ = U4 m ρ c (Proc.devRef .tc main_arg9) := U5_of m ρ c main_arg9 (by decide)
    _ = U3 m ρ c (Proc.devRef .tc main_arg9) := U4_of_ne m ρ c main_arg9 (by decide)
    _ = U2 m ρ c (Proc.devRef .tc main_arg9) := U3_of m ρ c main_arg9 (by decide)
    _ = U1 m ρ c (Proc.devRef .tc main_arg9) := U2_of_ne m ρ c main_arg9 (by decide)
    _ = U0 m ρ c (Proc.devRef .tc main_arg9) := U1_of m ρ c main_arg9 (by decide)
    _ = m ((c : Thread nD τ).loc main_arg9) := rfl

theorem U5_main_arg10 (c : Dev nD) : U5 m ρ c (Proc.devRef .tc main_arg10) = m ((c : Thread nD τ).loc main_arg10) :=
  calc U5 m ρ c (Proc.devRef .tc main_arg10)
    _ = U4 m ρ c (Proc.devRef .tc main_arg10) := U5_of m ρ c main_arg10 (by decide)
    _ = U3 m ρ c (Proc.devRef .tc main_arg10) := U4_of_ne m ρ c main_arg10 (by decide)
    _ = U2 m ρ c (Proc.devRef .tc main_arg10) := U3_of m ρ c main_arg10 (by decide)
    _ = U1 m ρ c (Proc.devRef .tc main_arg10) := U2_of_ne m ρ c main_arg10 (by decide)
    _ = U0 m ρ c (Proc.devRef .tc main_arg10) := U1_of m ρ c main_arg10 (by decide)
    _ = m ((c : Thread nD τ).loc main_arg10) := rfl

theorem U5_main_arg11 (c : Dev nD) : U5 m ρ c (Proc.devRef .tc main_arg11) = m ((c : Thread nD τ).loc main_arg11) :=
  calc U5 m ρ c (Proc.devRef .tc main_arg11)
    _ = U4 m ρ c (Proc.devRef .tc main_arg11) := U5_of m ρ c main_arg11 (by decide)
    _ = U3 m ρ c (Proc.devRef .tc main_arg11) := U4_of_ne m ρ c main_arg11 (by decide)
    _ = U2 m ρ c (Proc.devRef .tc main_arg11) := U3_of m ρ c main_arg11 (by decide)
    _ = U1 m ρ c (Proc.devRef .tc main_arg11) := U2_of_ne m ρ c main_arg11 (by decide)
    _ = U0 m ρ c (Proc.devRef .tc main_arg11) := U1_of m ρ c main_arg11 (by decide)
    _ = m ((c : Thread nD τ).loc main_arg11) := rfl

theorem U5_main_arg12 (c : Dev nD) : U5 m ρ c (Proc.devRef .tc main_arg12) = m ((c : Thread nD τ).loc main_arg12) :=
  calc U5 m ρ c (Proc.devRef .tc main_arg12)
    _ = U4 m ρ c (Proc.devRef .tc main_arg12) := U5_of m ρ c main_arg12 (by decide)
    _ = U3 m ρ c (Proc.devRef .tc main_arg12) := U4_of_ne m ρ c main_arg12 (by decide)
    _ = U2 m ρ c (Proc.devRef .tc main_arg12) := U3_of m ρ c main_arg12 (by decide)
    _ = U1 m ρ c (Proc.devRef .tc main_arg12) := U2_of_ne m ρ c main_arg12 (by decide)
    _ = U0 m ρ c (Proc.devRef .tc main_arg12) := U1_of m ρ c main_arg12 (by decide)
    _ = m ((c : Thread nD τ).loc main_arg12) := rfl

theorem U5_main_arg13 (c : Dev nD) : U5 m ρ c (Proc.devRef .tc main_arg13) = m ((c : Thread nD τ).loc main_arg13) :=
  calc U5 m ρ c (Proc.devRef .tc main_arg13)
    _ = U4 m ρ c (Proc.devRef .tc main_arg13) := U5_of m ρ c main_arg13 (by decide)
    _ = U3 m ρ c (Proc.devRef .tc main_arg13) := U4_of_ne m ρ c main_arg13 (by decide)
    _ = U2 m ρ c (Proc.devRef .tc main_arg13) := U3_of m ρ c main_arg13 (by decide)
    _ = U1 m ρ c (Proc.devRef .tc main_arg13) := U2_of_ne m ρ c main_arg13 (by decide)
    _ = U0 m ρ c (Proc.devRef .tc main_arg13) := U1_of m ρ c main_arg13 (by decide)
    _ = m ((c : Thread nD τ).loc main_arg13) := rfl

theorem U5_main_arg14 (c : Dev nD) : U5 m ρ c (Proc.devRef .tc main_arg14) = m ((c : Thread nD τ).loc main_arg14) :=
  calc U5 m ρ c (Proc.devRef .tc main_arg14)
    _ = U4 m ρ c (Proc.devRef .tc main_arg14) := U5_of m ρ c main_arg14 (by decide)
    _ = U3 m ρ c (Proc.devRef .tc main_arg14) := U4_in m ρ c 5 rfl
    _ = U2 m ρ c (Proc.devRef .tc main_arg14) := U3_of m ρ c main_arg14 (by decide)
    _ = U1 m ρ c (Proc.devRef .tc main_arg14) := U2_of_ne m ρ c main_arg14 (by decide)
    _ = U0 m ρ c (Proc.devRef .tc main_arg14) := U1_of m ρ c main_arg14 (by decide)
    _ = m ((c : Thread nD τ).loc main_arg14) := rfl

theorem U5_main_arg15 (c : Dev nD) : U5 m ρ c (Proc.devRef .tc main_arg15) = m ((c : Thread nD τ).loc main_arg15) :=
  calc U5 m ρ c (Proc.devRef .tc main_arg15)
    _ = U4 m ρ c (Proc.devRef .tc main_arg15) := U5_of m ρ c main_arg15 (by decide)
    _ = U3 m ρ c (Proc.devRef .tc main_arg15) := U4_in m ρ c 6 rfl
    _ = U2 m ρ c (Proc.devRef .tc main_arg15) := U3_of m ρ c main_arg15 (by decide)
    _ = U1 m ρ c (Proc.devRef .tc main_arg15) := U2_of_ne m ρ c main_arg15 (by decide)
    _ = U0 m ρ c (Proc.devRef .tc main_arg15) := U1_of m ρ c main_arg15 (by decide)
    _ = m ((c : Thread nD τ).loc main_arg15) := rfl

theorem U5_main_arg16 (c : Dev nD) : U5 m ρ c (Proc.devRef .tc main_arg16) = m ((c : Thread nD τ).loc main_arg16) :=
  calc U5 m ρ c (Proc.devRef .tc main_arg16)
    _ = U4 m ρ c (Proc.devRef .tc main_arg16) := U5_of m ρ c main_arg16 (by decide)
    _ = U3 m ρ c (Proc.devRef .tc main_arg16) := U4_of_ne m ρ c main_arg16 (by decide)
    _ = U2 m ρ c (Proc.devRef .tc main_arg16) := U3_of m ρ c main_arg16 (by decide)
    _ = U1 m ρ c (Proc.devRef .tc main_arg16) := U2_of_ne m ρ c main_arg16 (by decide)
    _ = U0 m ρ c (Proc.devRef .tc main_arg16) := U1_of m ρ c main_arg16 (by decide)
    _ = m ((c : Thread nD τ).loc main_arg16) := rfl

theorem U5_main_arg17 (c : Dev nD) : U5 m ρ c (Proc.devRef .tc main_arg17) = m ((c : Thread nD τ).loc main_arg17) :=
  calc U5 m ρ c (Proc.devRef .tc main_arg17)
    _ = U4 m ρ c (Proc.devRef .tc main_arg17) := U5_of m ρ c main_arg17 (by decide)
    _ = U3 m ρ c (Proc.devRef .tc main_arg17) := U4_of_ne m ρ c main_arg17 (by decide)
    _ = U2 m ρ c (Proc.devRef .tc main_arg17) := U3_of m ρ c main_arg17 (by decide)
    _ = U1 m ρ c (Proc.devRef .tc main_arg17) := U2_of_ne m ρ c main_arg17 (by decide)
    _ = U0 m ρ c (Proc.devRef .tc main_arg17) := U1_of m ρ c main_arg17 (by decide)
    _ = m ((c : Thread nD τ).loc main_arg17) := rfl

theorem U6_main_arg0 (c : Dev nD) : U6 m ρ c (Proc.devRef .tc main_arg0) = m ((c : Thread nD τ).loc main_arg0) :=
  (U6_in m ρ c 0 rfl).trans (U5_main_arg0 m ρ c)

theorem U6_main_arg1 (c : Dev nD) : U6 m ρ c (Proc.devRef .tc main_arg1) = m ((c : Thread nD τ).loc main_arg1) :=
  (U6_of_ne m ρ c main_arg1 (by decide)).trans (U5_main_arg1 m ρ c)

theorem U6_main_arg2 (c : Dev nD) : U6 m ρ c (Proc.devRef .tc main_arg2) = m ((c : Thread nD τ).loc main_arg2) :=
  (U6_of_ne m ρ c main_arg2 (by decide)).trans (U5_main_arg2 m ρ c)

theorem U6_main_arg3 (c : Dev nD) : U6 m ρ c (Proc.devRef .tc main_arg3) = m ((c : Thread nD τ).loc main_arg3) :=
  (U6_of_ne m ρ c main_arg3 (by decide)).trans (U5_main_arg3 m ρ c)

theorem U6_main_arg4 (c : Dev nD) : U6 m ρ c (Proc.devRef .tc main_arg4) = m ((c : Thread nD τ).loc main_arg4) :=
  (U6_of_ne m ρ c main_arg4 (by decide)).trans (U5_main_arg4 m ρ c)

theorem U6_main_arg5 (c : Dev nD) : U6 m ρ c (Proc.devRef .tc main_arg5) = m ((c : Thread nD τ).loc main_arg5) :=
  (U6_of_ne m ρ c main_arg5 (by decide)).trans (U5_main_arg5 m ρ c)

theorem U6_main_arg6 (c : Dev nD) : U6 m ρ c (Proc.devRef .tc main_arg6) = m ((c : Thread nD τ).loc main_arg6) :=
  (U6_of_ne m ρ c main_arg6 (by decide)).trans (U5_main_arg6 m ρ c)

theorem U6_main_arg7 (c : Dev nD) : U6 m ρ c (Proc.devRef .tc main_arg7) = m ((c : Thread nD τ).loc main_arg7) :=
  (U6_of_ne m ρ c main_arg7 (by decide)).trans (U5_main_arg7 m ρ c)

theorem U6_main_arg8 (c : Dev nD) : U6 m ρ c (Proc.devRef .tc main_arg8) = m ((c : Thread nD τ).loc main_arg8) :=
  (U6_in m ρ c 1 rfl).trans (U5_main_arg8 m ρ c)

theorem U6_main_arg9 (c : Dev nD) : U6 m ρ c (Proc.devRef .tc main_arg9) = m ((c : Thread nD τ).loc main_arg9) :=
  (U6_in m ρ c 2 rfl).trans (U5_main_arg9 m ρ c)

theorem U6_main_arg10 (c : Dev nD) : U6 m ρ c (Proc.devRef .tc main_arg10) = m ((c : Thread nD τ).loc main_arg10) :=
  (U6_of_ne m ρ c main_arg10 (by decide)).trans (U5_main_arg10 m ρ c)

theorem U6_main_arg11 (c : Dev nD) : U6 m ρ c (Proc.devRef .tc main_arg11) = m ((c : Thread nD τ).loc main_arg11) :=
  (U6_of_ne m ρ c main_arg11 (by decide)).trans (U5_main_arg11 m ρ c)

theorem U6_main_arg12 (c : Dev nD) : U6 m ρ c (Proc.devRef .tc main_arg12) = m ((c : Thread nD τ).loc main_arg12) :=
  (U6_in m ρ c 5 rfl).trans (U5_main_arg12 m ρ c)

theorem U6_main_arg13 (c : Dev nD) : U6 m ρ c (Proc.devRef .tc main_arg13) = m ((c : Thread nD τ).loc main_arg13) :=
  (U6_in m ρ c 6 rfl).trans (U5_main_arg13 m ρ c)

theorem U6_main_arg14 (c : Dev nD) : U6 m ρ c (Proc.devRef .tc main_arg14) = m ((c : Thread nD τ).loc main_arg14) :=
  (U6_of_ne m ρ c main_arg14 (by decide)).trans (U5_main_arg14 m ρ c)

theorem U6_main_arg15 (c : Dev nD) : U6 m ρ c (Proc.devRef .tc main_arg15) = m ((c : Thread nD τ).loc main_arg15) :=
  (U6_of_ne m ρ c main_arg15 (by decide)).trans (U5_main_arg15 m ρ c)

theorem U6_main_arg16 (c : Dev nD) : U6 m ρ c (Proc.devRef .tc main_arg16) = m ((c : Thread nD τ).loc main_arg16) :=
  (U6_of_ne m ρ c main_arg16 (by decide)).trans (U5_main_arg16 m ρ c)

theorem U6_main_arg17 (c : Dev nD) : U6 m ρ c (Proc.devRef .tc main_arg17) = m ((c : Thread nD τ).loc main_arg17) :=
  (U6_of_ne m ρ c main_arg17 (by decide)).trans (U5_main_arg17 m ρ c)

/-- What the run's final states hold at the arguments: their launch contents. -/
theorem args_kept (s : MemSt nD τ sig (Elt F))
    (h : ∀ c : Dev nD, ∀ b ∈ Pipeline.ucRefs τ sig, s.mem (((c : Thread nD τ)).1, b) = U6 m ρ c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17) :=
  ⟨(h c _ (mem_ucH main_arg0 (by decide))).trans (U6_main_arg0 m ρ c),
   (h c _ (mem_ucH main_arg1 (by decide))).trans (U6_main_arg1 m ρ c),
   (h c _ (mem_ucH main_arg2 (by decide))).trans (U6_main_arg2 m ρ c),
   (h c _ (mem_ucH main_arg3 (by decide))).trans (U6_main_arg3 m ρ c),
   (h c _ (mem_ucH main_arg4 (by decide))).trans (U6_main_arg4 m ρ c),
   (h c _ (mem_ucH main_arg5 (by decide))).trans (U6_main_arg5 m ρ c),
   (h c _ (mem_ucH main_arg6 (by decide))).trans (U6_main_arg6 m ρ c),
   (h c _ (mem_ucH main_arg7 (by decide))).trans (U6_main_arg7 m ρ c),
   (h c _ (mem_ucH main_arg8 (by decide))).trans (U6_main_arg8 m ρ c),
   (h c _ (mem_ucH main_arg9 (by decide))).trans (U6_main_arg9 m ρ c),
   (h c _ (mem_ucH main_arg10 (by decide))).trans (U6_main_arg10 m ρ c),
   (h c _ (mem_ucH main_arg11 (by decide))).trans (U6_main_arg11 m ρ c),
   (h c _ (mem_ucH main_arg12 (by decide))).trans (U6_main_arg12 m ρ c),
   (h c _ (mem_ucH main_arg13 (by decide))).trans (U6_main_arg13 m ρ c),
   (h c _ (mem_ucH main_arg14 (by decide))).trans (U6_main_arg14 m ρ c),
   (h c _ (mem_ucH main_arg15 (by decide))).trans (U6_main_arg15 m ρ c),
   (h c _ (mem_ucH main_arg16 (by decide))).trans (U6_main_arg16 m ρ c),
   (h c _ (mem_ucH main_arg17 (by decide))).trans (U6_main_arg17 m ρ c)⟩

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => args_kept m ρ r.2 h c) (run_all m ρ)

end Cert.Kernel.Hand

end
-- ==== Proof.KI.Region0.lean ====
import proofs.«172384_j69131793596856_2_alg».proof.Proof.Gen.KernelIdeal.Launch
import proofs.«172384_j69131793596856_2_alg».proof.Proof.Gen.KernelIdeal.Skeleton
import proofs.«172384_j69131793596856_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! # The node projection call (the first pallas_call of @main), at the entry contents `V` -/

/-- The block of window `w` at grid point `t`: the rectangle of the window's array, as the region finds it,
    that the pipeline stages there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's staging buffer holds its block at every point, for any proof data whose array is
    `V`'s and whose body leaves the block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window is fetched once, at the first point; at a later point its block index has not moved, so its
    staging buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window, fetched once like the weight: its staging buffer holds its one block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S384 := Rect.unit (s := S384) ![0] S384.size inb_S384_S384_0

/-! ## What the body leaves in each output window's buffer -/

/-- The first output buffer after the body: columns 0 to 127 of the projected rows (features times weight plus
    bias), written by one whole-buffer store. -/
def out0_3 (x0 : Vec F S2000x128 .f32) (x1 : Vec F S128x384 .f32) (x2 : Vec F S384 .f32) : Vec F S2000x128 .f32 :=
  View.canon [⟨r0_0, k0_pay2 (View.ld x0 r0_0) (View.ld x1 r0_1) (View.ld x2 r0_2)⟩]

/-- That one store covers the buffer. -/
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- The second output buffer after the body: columns 128 to 255 of the projected rows. -/
def out0_4 (x0 : Vec F S2000x128 .f32) (x1 : Vec F S128x384 .f32) (x2 : Vec F S384 .f32) : Vec F S2000x128 .f32 :=
  View.canon [⟨r0_0, k0_pay3 (View.ld x0 r0_0) (View.ld x1 r0_1) (View.ld x2 r0_2)⟩]

/-- That one store covers the buffer. -/
theorem cover0_4 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- The third output buffer after the body: columns 256 to 383 of the projected rows. -/
def out0_5 (x0 : Vec F S2000x128 .f32) (x1 : Vec F S128x384 .f32) (x2 : Vec F S384 .f32) : Vec F S2000x128 .f32 :=
  View.canon [⟨r0_0, k0_pay4 (View.ld x0 r0_0) (View.ld x1 r0_1) (View.ld x2 r0_2)⟩]

/-- That one store covers the buffer. -/
theorem cover0_5 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The projection body, called on whole staging memrefs with the three inputs at contents `x0 x1 x2` and the three
    outputs at anything, ends with the inputs unchanged and each output at `out0_w x0 x1 x2`: the printed function is
    its skeleton of loads and stores, which is run statement by statement. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S384 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole)
    (x0 : Vec F S2000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of the projection call on core `c`: the arrays as the region finds them; after the body at
    point `t` each input's buffer still at its block and each output's at `out0_w` of the three input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's staging memref at
    what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each staging memref at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the projection call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«172384_j69131793596856_2_alg».proof.Proof.Gen.KernelIdeal.Launch
import proofs.«172384_j69131793596856_2_alg».proof.Proof.Gen.KernelIdeal.Skeleton
import proofs.«172384_j69131793596856_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! # The edge call (the second pallas_call of @main), at the entry contents `V` -/

/-- The block of window `w` at grid point `t`: the rectangle of the window's array, as the region finds it,
    that the pipeline stages there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge-feature window's staging buffer holds its block at every point, for any proof data whose array is
    `V`'s and whose body leaves the block where it is. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The first gathered half-precision window (the projected rows of one end of each edge): its staging buffer holds
    its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The second gathered half-precision window (the projected rows of the other end of each edge): its staging
    buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The weight window is fetched once, at the first point; later its block index has not moved, so its staging
    buffer still holds the same block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The bias window, fetched once: its staging buffer holds its one block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- The normalisation scale window, fetched once: its staging buffer holds its one block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- The normalisation shift window, fetched once: its staging buffer holds its one block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev r1_0 : Rect S2400x128 := Rect.unit (s := S2400x128) ![0, 0] S2400x128.size inb_S2400x128_S2400x128_0_0
abbrev r1_1 : Rect S128x128 := Rect.unit (s := S128x128) ![0, 0] S128x128.size inb_S128x128_S128x128_0_0
abbrev r1_2 : Rect S128 := Rect.unit (s := S128) ![0] S128.size inb_S128_S128_0

/-! ## What the body leaves in each output window's buffer -/

/-- The single-precision output buffer after the body: the updated edge rows — the old edge features plus the
    activated, normalised message — written by one whole-buffer store. -/
def out1_7 (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) : Vec F S2400x128 .f32 :=
  View.canon [⟨r1_0, k1_pay1 (View.ld x0 r1_0) (k1_pay7 (View.ld x0 r1_0) (View.ld x3 r1_1) (View.ld x4 r1_2) (View.ld x1 r1_0)) (k1_pay8 (View.ld x0 r1_0) (View.ld x3 r1_1) (View.ld x4 r1_2) (View.ld x1 r1_0)) (View.ld x5 r1_2) (View.ld x6 r1_2)⟩]

/-- That one store covers the buffer. -/
theorem cover1_7 (p0 : Vec F S2400x128 .f32) (y : S2400x128.Idx) :
    ∃ pc ∈ ([⟨r1_0, p0⟩] : List (View.Piece (Elt F) S2400x128 .f32)), y ∈ pc.1.set :=
  View.cover_of_tiled [⟨r1_0, p0⟩] S2400x128.size (by rfl) y

/-- The first half-precision output buffer after the body: the message rows rounded to half precision, written by
    one whole-buffer store. -/
def out1_8 (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) : Vec F S2400x128 .bf16 :=
  View.canon [⟨r1_0, k1_pay4 (View.ld x0 r1_0) (View.ld x3 r1_1) (View.ld x4 r1_2) (View.ld x1 r1_0)⟩]

/-- That one store covers the buffer. -/
theorem cover1_8 (p0 : Vec F S2400x128 .bf16) (y : S2400x128.Idx) :
    ∃ pc ∈ ([⟨r1_0, p0⟩] : List (View.Piece (Elt F) S2400x128 .bf16)), y ∈ pc.1.set :=
  View.cover_of_tiled [⟨r1_0, p0⟩] S2400x128.size (by rfl) y

/-- The second half-precision output buffer after the body: the message rows combined with the second gathered
    block and rounded to half precision, written by one whole-buffer store. -/
def out1_9 (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) : Vec F S2400x128 .bf16 :=
  View.canon [⟨r1_0, k1_pay5 (View.ld x0 r1_0) (View.ld x3 r1_1) (View.ld x4 r1_2) (View.ld x1 r1_0) (View.ld x2 r1_0)⟩]

/-- That one store covers the buffer. -/
theorem cover1_9 (p0 : Vec F S2400x128 .bf16) (y : S2400x128.Idx) :
    ∃ pc ∈ ([⟨r1_0, p0⟩] : List (View.Piece (Elt F) S2400x128 .bf16)), y ∈ pc.1.set :=
  View.cover_of_tiled [⟨r1_0, p0⟩] S2400x128.size (by rfl) y

/-! ## The body's triple -/

set_option maxHeartbeats 1000000 in
/-- The edge body, called on whole staging memrefs with the seven inputs at contents `x0 … x6` and the three outputs
    at anything, ends with the inputs unchanged and each output at `out1_w x0 … x6`: the printed function and the part
    it calls are their skeletons of loads and stores, which are run statement by statement through the part call. -/
theorem sound_kernel1 (c : Dev nD) (E : Set ℕ) (i : grid1.Coords) (arg1 : Memref sig .tc .vmem S2400x128 .f32) (harg1 : arg1.IsWhole) (arg2 : Memref sig .tc .vmem S2400x128 .bf16) (harg2 : arg2.IsWhole) (arg3 : Memref sig .tc .vmem S2400x128 .bf16) (harg3 : arg3.IsWhole) (arg4 : Memref sig .tc .vmem S128x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S2400x128 .f32) (harg8 : arg8.IsWhole) (arg9 : Memref sig .tc .vmem S2400x128 .bf16) (harg9 : arg9.IsWhole) (arg10 : Memref sig .tc .vmem S2400x128 .bf16) (harg10 : arg10.IsWhole)
    (x0 : Vec F S2400x128 .f32) (x1 : Vec F S2400x128 .bf16) (x2 : Vec F S2400x128 .bf16) (x3 : Vec F S128x128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

/-! ## The pipeline's proof data -/

/-- The proof data of the edge call on core `c`: the arrays as the region finds them; after the body at point `t`
    each input's buffer still at its block and each output's at `out1_w` of the seven input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves in each window's buffer, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what is owed, and each window's staging memref at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: the same, each staging memref at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for the edge call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«172384_j69131793596856_2_alg».proof.Proof.Gen.KernelIdeal.Launch
import proofs.«172384_j69131793596856_2_alg».proof.Proof.Gen.KernelIdeal.Skeleton
import proofs.«172384_j69131793596856_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! # The node update call (the third pallas_call of @main), at the entry contents `V` -/

/-- The block of window `w` at grid point `t`: the rectangle of the window's array, as the region finds it,
    that the pipeline stages there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node-feature window's staging buffer holds its block at every point, for any proof data whose array is
    `V`'s and whose body leaves the block where it is. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window is fetched once, at the first point; later its block index has not moved, so its staging
    buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The first bias window, fetched once: its staging buffer holds its one block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The first aggregate window (one half of the summed messages), fetched at every point: its staging buffer
    holds its block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- The second aggregate window (the other half of the summed messages): its staging buffer holds its block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- The normalisation scale window, fetched once: its staging buffer holds its one block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- The normalisation shift window, fetched once: its staging buffer holds its one block at every point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S128 := Rect.unit (s := S128) ![0] S128.size inb_S128_S128_0

/-! ## What the body leaves in the output window's buffer -/

/-- The output buffer after the body: the updated node rows — the old features combined with the activated,
    normalised message sum and the shift row — written by one whole-buffer store. -/
def out2_7 (x0 : Vec F S2000x128 .f32) (x1 : Vec F S128x128 .f32) (x2 : Vec F S128 .f32) (x3 : Vec F S2000x128 .f32) (x4 : Vec F S2000x128 .f32) (x5 : Vec F S128 .f32) (x6 : Vec F S128 .f32) : Vec F S2000x128 .f32 :=
  View.canon [⟨r2_0, k2_pay1 (View.ld x0 r2_0) (k2_pay2 (View.ld x0 r2_0) (View.ld x1 r2_1) (View.ld x2 r2_2) (View.ld x3 r2_0) (View.ld x4 r2_0) (View.ld x5 r2_2)) (k2_pay3 (View.ld x6 r2_2))⟩]

/-- That one store covers the buffer. -/
theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The update body, called on whole staging memrefs with the seven inputs at contents `x0 … x6` and the output at
    anything, ends with the inputs unchanged and the output at `out2_7 x0 … x6`: the printed function and the part it
    calls are their skeletons of loads and stores, which are run statement by statement through the part call. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S128 .f32) (harg6 : arg6.IsWhole) (arg7 : Memref sig .tc .vmem S128 .f32) (harg7 : arg7.IsWhole) (arg8 : Memref sig .tc .vmem S2000x128 .f32) (harg8 : arg8.IsWhole)
    (x0 : Vec F S2000x128 .f32) (x1 : Vec F S128x128 .f32) (x2 : Vec F S128 .f32) (x3 : Vec F S2000x128 .f32) (x4 : Vec F S2000x128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__node_update_kernel i arg1 harg1 arg2 harg2 arg3 harg3 arg4 harg4 arg5 harg5 arg6 harg6 arg7 harg7 arg8 harg8) K := by
  simp only [cc2__node_update_kernel_eq_skeleton]; unfold cc2__node_update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of the update call on core `c`: the arrays as the region finds them; after the body at point
    `t` each input's buffer still at its block and the output's at `out2_7` of the seven input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves in each window's buffer, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what is owed, and each window's staging memref at
    what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each staging memref at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the update call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  @main from launch to return as six segments — a stretch of host operations, a kernel region, twice more — and what
  every unscoped buffer holds at each boundary: the launch memory, then each host stretch's operations applied in order,
  then each region's arrays at what its write-backs leave. Every weakly fair execution terminates with every buffer at
  the last boundary's contents; an argument array is written by no host operation and is only ever an INPUT window of a
  region, so it ends as launched.
-/
import proofs.«172384_j69131793596856_2_alg».proof.Proof.KI.Region0
import proofs.«172384_j69131793596856_2_alg».proof.Proof.KI.Region1
import proofs.«172384_j69131793596856_2_alg».proof.Proof.KI.Region2
import proofs.«172384_j69131793596856_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev U0 : Dev nD → Valuation τ sig (Elt F) := fun c b => (s₀ m ρ).mem ((c : Dev nD), b)
/-- After the first host stretch (the two concatenations). -/
abbrev U1 : Dev nD → Valuation τ sig (Elt F) := fun c => StableHlo.after hostOps0 (U0 m ρ c)
abbrev X1 : (c : Dev nD) → (b : Ref sig .tc) → Buf (Elt F) ((c : Thread nD τ).loc b) := fun c b => U1 m ρ c b

/-- After region 0: its arrays at what the pipeline leaves (the inputs as entered, each output's write-backs folded),
    every other buffer as entered. -/
def U2 (c : Dev nD) : Valuation τ sig (Elt F) :=
  Pipeline.withArrays spec0 c (U1 m ρ c) fun w => (dat0 (X1 m ρ) c).arrAt w cfg0.N
theorem U2_arr (c : Dev nD) (w : Fin cfg0.W) :
    U2 m ρ c (Proc.devRef .tc (Pipeline.arrRef spec0 w)) = (dat0 (X1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- An input window's array leaves region 0 as it entered. -/
theorem U2_in (c : Dev nD) (w : Fin cfg0.W) (hin : (cfg0.win w).isOut = false) :
    U2 m ρ c (Proc.devRef .tc (Pipeline.arrRef spec0 w)) = U1 m ρ c (Proc.devRef .tc (Pipeline.arrRef spec0 w)) :=
  (U2_arr m ρ c w).trans (((dat0 (X1 m ρ) c).arrAt_in w hin _).trans (A_eq0 (X1 m ρ) c w))
abbrev X2 : (c : Dev nD) → (b : Ref sig .tc) → Buf (Elt F) ((c : Thread nD τ).loc b) := fun c b => U2 m ρ c b
theorem hF0 (c : Dev nD) (w : Fin cfg0.W) : (dat0 (X1 m ρ) c).arrAt w cfg0.N = X2 m ρ c (Pipeline.arrRef spec0 w) :=
  (U2_arr m ρ c w).symm
theorem hrest0 (c : Dev nD) : ∀ b, b ∉ Finset.univ.image (Pipeline.arrRef spec0) → X2 m ρ c b = X1 m ρ c b :=
  fun b hb => U2_of_ne m ρ c b fun w e => hb (Finset.mem_image.mpr ⟨w, Finset.mem_univ _, e⟩)

/-- After the second host stretch (the gathers). -/
abbrev U3 : Dev nD → Valuation τ sig (Elt F) := fun c => StableHlo.after hostOps1 (U2 m ρ c)
abbrev X3 : (c : Dev nD) → (b : Ref sig .tc) → Buf (Elt F) ((c : Thread nD τ).loc b) := fun c b => U3 m ρ c b

/-- After region 1: its arrays at what the pipeline leaves (the inputs as entered, each output's write-backs folded),
    every other buffer as entered. -/
def U4 (c : Dev nD) : Valuation τ sig (Elt F) :=
  Pipeline.withArrays spec1 c (U3 m ρ c) fun w => (dat1 (X3 m ρ) c).arrAt w cfg1.N
theorem U4_arr (c : Dev nD) (w : Fin cfg1.W) :
    U4 m ρ c (Proc.devRef .tc (Pipeline.arrRef spec1 w)) = (dat1 (X3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
/-- An input window's array leaves region 1 as it entered. -/
theorem U4_in (c : Dev nD) (w : Fin cfg1.W) (hin : (cfg1.win w).isOut = false) :
    U4 m ρ c (Proc.devRef .tc (Pipeline.arrRef spec1 w)) = U3 m ρ c (Proc.devRef .tc (Pipeline.arrRef spec1 w)) :=
  (U4_arr m ρ c w).trans (((dat1 (X3 m ρ) c).arrAt_in w hin _).trans (A_eq1 (X3 m ρ) c w))
abbrev X4 : (c : Dev nD) → (b : Ref sig .tc) → Buf (Elt F) ((c : Thread nD τ).loc b) := fun c b => U4 m ρ c b
theorem hF1 (c : Dev nD) (w : Fin cfg1.W) : (dat1 (X3 m ρ) c).arrAt w cfg1.N = X4 m ρ c (Pipeline.arrRef spec1 w) :=
  (U4_arr m ρ c w).symm
theorem hrest1 (c : Dev nD) : ∀ b, b ∉ Finset.univ.image (Pipeline.arrRef spec1) → X4 m ρ c b = X3 m ρ c b :=
  fun b hb => U4_of_ne m ρ c b fun w e => hb (Finset.mem_image.mpr ⟨w, Finset.mem_univ _, e⟩)

/-- After the third host stretch (the scatter-add and its slices). -/
abbrev U5 : Dev nD → Valuation τ sig (Elt F) := fun c => StableHlo.after hostOps2 (U4 m ρ c)
abbrev X5 : (c : Dev nD) → (b : Ref sig .tc) → Buf (Elt F) ((c : Thread nD τ).loc b) := fun c b => U5 m ρ c b

/-- After region 2: its arrays at what the pipeline leaves (the inputs as entered, each output's write-backs folded),
    every other buffer as entered. -/
def U6 (c : Dev nD) : Valuation τ sig (Elt F) :=
  Pipeline.withArrays spec2 c (U5 m ρ c) fun w => (dat2 (X5 m ρ) c).arrAt w cfg2.N
theorem U6_arr (c : Dev nD) (w : Fin cfg2.W) :
    U6 m ρ c (Proc.devRef .tc (Pipeline.arrRef spec2 w)) = (dat2 (X5 m ρ) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m ρ c (Proc.devRef .tc b) = U5 m ρ c (Proc.devRef .tc b) := by
  unfold U6; exact Pipeline.withArrays_of_ne spec2 c _ _ b hb
/-- An input window's array leaves region 2 as it entered. -/
theorem U6_in (c : Dev nD) (w : Fin cfg2.W) (hin : (cfg2.win w).isOut = false) :
    U6 m ρ c (Proc.devRef .tc (Pipeline.arrRef spec2 w)) = U5 m ρ c (Proc.devRef .tc (Pipeline.arrRef spec2 w)) :=
  (U6_arr m ρ c w).trans (((dat2 (X5 m ρ) c).arrAt_in w hin _).trans (A_eq2 (X5 m ρ) c w))
abbrev X6 : (c : Dev nD) → (b : Ref sig .tc) → Buf (Elt F) ((c : Thread nD τ).loc b) := fun c b => U6 m ρ c b
theorem hF2 (c : Dev nD) (w : Fin cfg2.W) : (dat2 (X5 m ρ) c).arrAt w cfg2.N = X6 m ρ c (Pipeline.arrRef spec2 w) :=
  (U6_arr m ρ c w).symm
theorem hrest2 (c : Dev nD) : ∀ b, b ∉ Finset.univ.image (Pipeline.arrRef spec2) → X6 m ρ c b = X5 m ρ c b :=
  fun b hb => U6_of_ne m ρ c b fun w e => hb (Finset.mem_image.mpr ⟨w, Finset.mem_univ _, e⟩)

/-! ## A host stretch leaves the buffers it does not write -/

theorem U1_of (c : Dev nD) (r : Ref sig .tc) (h : r ∉ hostOps0_W) : U1 m ρ c (Proc.devRef .tc r) = U0 m ρ c (Proc.devRef .tc r) :=
  StableHlo.after_of_writes_sub hostOps0 _ hostOps0_writes h
theorem U3_of (c : Dev nD) (r : Ref sig .tc) (h : r ∉ hostOps1_W) : U3 m ρ c (Proc.devRef .tc r) = U2 m ρ c (Proc.devRef .tc r) :=
  StableHlo.after_of_writes_sub hostOps1 _ hostOps1_writes h
theorem U5_of (c : Dev nD) (r : Ref sig .tc) (h : r ∉ hostOps2_W) : U5 m ρ c (Proc.devRef .tc r) = U4 m ρ c (Proc.devRef .tc r) :=
  StableHlo.after_of_writes_sub hostOps2 _ hostOps2_writes h

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (X1 m ρ) c
  | ⟨1, _⟩ => fun c => dat1 (X3 m ρ) c
  | ⟨2, _⟩ => fun c => dat2 (X5 m ρ) c
abbrev 𝒱H : Variants := Variants.none
abbrev LH : GSem nD τ sig → Finset Unit := fun _ => ∅
abbrev lvH : GSem nD τ sig → Unit → ℕ := fun _ _ => 0
/-- What rides beside the buffers through every segment: the core's generator register at some state and its debts, none. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (U6 m ρ c) ∗ ∃ r, prngReg c r)

/-! ## The regions as segments -/

set_option backward.isDefEq.respectTransparency.types false in
/-- Region 0 as a segment of @main: entered with every unscoped buffer at the contents before it, left with the
    region's arrays at what its write-backs leave and every other buffer as entered. The arrays are split out of the
    unscoped buffers and put back; the generator register goes into the body's invariant and comes out; nothing is owed. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ LH lvH 0 fun _ _ => rfl
  pre c := iprop(StableHlo.held (c : Thread nD τ) (Pipeline.ucRefs τ sig) (U1 m ρ c) ∗ RH c)
  post c := iprop(StableHlo.held (c : Thread nD τ) (Pipeline.ucRefs τ sig) (U2 m ρ c) ∗ RH c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (X1 m ρ c) (X2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with the
    region's arrays at what its write-backs leave and every other buffer as entered. The arrays are split out of the
    unscoped buffers and put back; the generator register goes into the body's invariant and comes out; nothing is owed. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ LH lvH 1 fun _ _ => rfl
  pre c := iprop(StableHlo.held (c : Thread nD τ) (Pipeline.ucRefs τ sig) (U3 m ρ c) ∗ RH c)
  post c := iprop(StableHlo.held (c : Thread nD τ) (Pipeline.ucRefs τ sig) (U4 m ρ c) ∗ RH c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (X3 m ρ c) (X4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at the contents before it, left with the
    region's arrays at what its write-backs leave and every other buffer as entered. The arrays are split out of the
    unscoped buffers and put back; the generator register goes into the body's invariant and comes out; nothing is owed. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (X5 m ρ) c).loose
  hwaits := Pipeline.hwaits_of_owed_zero _ _ _ _ LH lvH 2 fun _ _ => rfl
  pre c := iprop(StableHlo.held (c : Thread nD τ) (Pipeline.ucRefs τ sig) (U5 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (X5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (X5 m ρ c) (X6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ 𝒱H LH lvH) :=
  [ .host (hsegH hostOps0 hostOps0_sub hostOps0_fresh (U0 m ρ)),
    .region (reg0 m ρ),
    .host (hsegH hostOps1 hostOps1_sub hostOps1_fresh (U2 m ρ)),
    .region (reg1 m ρ),
    .host (hsegH hostOps2 hostOps2_sub hostOps2_fresh (U4 m ρ)),
    .region (reg2 m ρ) ]
theorem main_runH (c : Dev nD) : main (F := F) c = Pipeline.Seg.run (segsH m ρ) := (main_chain c).trans (by chain_rfl)

set_option backward.isDefEq.respectTransparency.types false in
/-- Every weakly fair execution of @main from memory m with zero counters terminates, nothing faulting, and in every
    final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ RH c)) (Tₙ := TnH m ρ)
    (hch := ⟨fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m ρ c b)
    (hfin := fun c s' => by
      iintro ⟨⟨Hh, -⟩, HSI⟩
      unfold StableHlo.held
      imodintro
      iapply (pointsTo_read_all (Pipeline.ucRefs τ sig) (fun b => (((c : Thread nD τ)).1, b)) (U6 m ρ c) s')
      isplitl [Hh] <;> iassumption)
    (hQ := fun s h => h)

end Cert.KernelIdeal.Hand

end
-- ==== Proof.KI.Frame.lean ====
/-
  The frame: every argument array ends as launched. No host operation writes an argument, and a region touches one
  only as an input window, whose array its write-backs never change; so the last boundary's contents at an argument
  walk back, boundary by boundary, to the launch memory.
-/
import proofs.«172384_j69131793596856_2_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem U1_main_arg0 (c : Dev nD) : U1 m ρ c (Proc.devRef .tc main_arg0) = m ((c : Thread nD τ).loc main_arg0) :=
  calc U1 m ρ c (Proc.devRef .tc main_arg0)
    _ = U0 m ρ c (Proc.devRef .tc main_arg0) := U1_of m ρ c main_arg0 (by decide)
    _ = m ((c : Thread nD τ).loc main_arg0) := rfl

theorem U1_main_arg1 (c : Dev nD) : U1 m ρ c (Proc.devRef .tc main_arg1) = m ((c : Thread nD τ).loc main_arg1) :=
  calc U1 m ρ c (Proc.devRef .tc main_arg1)
    _ = U0 m ρ c (Proc.devRef .tc main_arg1) := U1_of m ρ c main_arg1 (by decide)
    _ = m ((c : Thread nD τ).loc main_arg1) := rfl

theorem U1_main_arg2 (c : Dev nD) : U1 m ρ c (Proc.devRef .tc main_arg2) = m ((c : Thread nD τ).loc main_arg2) :=
  calc U1 m ρ c (Proc.devRef .tc main_arg2)
    _ = U0 m ρ c (Proc.devRef .tc main_arg2) := U1_of m ρ c main_arg2 (by decide)
    _ = m ((c : Thread nD τ).loc main_arg2) := rfl

theorem U1_main_arg3 (c : Dev nD) : U1 m ρ c (Proc.devRef .tc main_arg3) = m ((c : Thread nD τ).loc main_arg3) :=
  calc U1 m ρ c (Proc.devRef .tc main_arg3)
    _ = U0 m ρ c (Proc.devRef .tc main_arg3) := U1_of m ρ c main_arg3 (by decide)
    _ = m ((c : Thread nD τ).loc main_arg3) := rfl

theorem U1_main_arg4 (c : Dev nD) : U1 m ρ c (Proc.devRef .tc main_arg4) = m ((c : Thread nD τ).loc main_arg4) :=
  calc U1 m ρ c (Proc.devRef .tc main_arg4)
    _ = U0 m ρ c (Proc.devRef .tc main_arg4) := U1_of m ρ c main_arg4 (by decide)
    _ = m ((c : Thread nD τ).loc main_arg4) := rfl

theorem U1_main_arg5 (c : Dev nD) : U1 m ρ c (Proc.devRef .tc main_arg5) = m ((c : Thread nD τ).loc main_arg5) :=
  calc U1 m ρ c (Proc.devRef .tc main_arg5)
    _ = U0 m ρ c (Proc.devRef .tc main_arg5) := U1_of m ρ c main_arg5 (by decide)
    _ = m ((c : Thread nD τ).loc main_arg5) := rfl

theorem U1_main_arg6 (c : Dev nD) : U1 m ρ c (Proc.devRef .tc main_arg6) = m ((c : Thread nD τ).loc main_arg6) :=
  calc U1 m ρ c (Proc.devRef .tc main_arg6)
    _ = U0 m ρ c (Proc.devRef .tc main_arg6) := U1_of m ρ c main_arg6 (by decide)
    _ = m ((c : Thread nD τ).loc main_arg6) := rfl

theorem U1_main_arg7 (c : Dev nD) : U1 m ρ c (Proc.devRef .tc main_arg7) = m ((c : Thread nD τ).loc main_arg7) :=
  calc U1 m ρ c (Proc.devRef .tc main_arg7)
    _ = U0 m ρ c (Proc.devRef .tc main_arg7) := U1_of m ρ c main_arg7 (by decide)
    _ = m ((c : Thread nD τ).loc main_arg7) := rfl

theorem U1_main_arg8 (c : Dev nD) : U1 m ρ c (Proc.devRef .tc main_arg8) = m ((c : Thread nD τ).loc main_arg8) :=
  calc U1 m ρ c (Proc.devRef .tc main_arg8)
    _ = U0 m ρ c (Proc.devRef .tc main_arg8) := U1_of m ρ c main_arg8 (by decide)
    _ = m ((c : Thread nD τ).loc main_arg8) := rfl

theorem U1_main_arg9 (c : Dev nD) : U1 m ρ c (Proc.devRef .tc main_arg9) = m ((c : Thread nD τ).loc main_arg9) :=
  calc U1 m ρ c (Proc.devRef .tc main_arg9)
    _ = U0 m ρ c (Proc.devRef .tc main_arg9) := U1_of m ρ c main_arg9 (by decide)
    _ = m ((c : Thread nD τ).loc main_arg9) := rfl

theorem U1_main_arg10 (c : Dev nD) : U1 m ρ c (Proc.devRef .tc main_arg10) = m ((c : Thread nD τ).loc main_arg10) :=
  calc U1 m ρ c (Proc.devRef .tc main_arg10)
    _ = U0 m ρ c (Proc.devRef .tc main_arg10) := U1_of m ρ c main_arg10 (by decide)
    _ = m ((c : Thread nD τ).loc main_arg10) := rfl

theorem U1_main_arg11 (c : Dev nD) : U1 m ρ c (Proc.devRef .tc main_arg11) = m ((c : Thread nD τ).loc main_arg11) :=
  calc U1 m ρ c (Proc.devRef .tc main_arg11)
    _ = U0 m ρ c (Proc.devRef .tc main_arg11) := U1_of m ρ c main_arg11 (by decide)
    _ = m ((c : Thread nD τ).loc main_arg11) := rfl

theorem U1_main_arg12 (c : Dev nD) : U1 m ρ c (Proc.devRef .tc main_arg12) = m ((c : Thread nD τ).loc main_arg12) :=
  calc U1 m ρ c (Proc.devRef .tc main_arg12)
    _ = U0 m ρ c (Proc.devRef .tc main_arg12) := U1_of m ρ c main_arg12 (by decide)
    _ = m ((c : Thread nD τ).loc main_arg12) := rfl

theorem U1_main_arg13 (c : Dev nD) : U1 m ρ c (Proc.devRef .tc main_arg13) = m ((c : Thread nD τ).loc main_arg13) :=
  calc U1 m ρ c (Proc.devRef .tc main_arg13)
    _ = U0 m ρ c (Proc.devRef .tc main_arg13) := U1_of m ρ c main_arg13 (by decide)
    _ = m ((c : Thread nD τ).loc main_arg13) := rfl

theorem U1_main_arg14 (c : Dev nD) : U1 m ρ c (Proc.devRef .tc main_arg14) = m ((c : Thread nD τ).loc main_arg14) :=
  calc U1 m ρ c (Proc.devRef .tc main_arg14)
    _ = U0 m ρ c (Proc.devRef .tc main_arg14) := U1_of m ρ c main_arg14 (by decide)
    _ = m ((c : Thread nD τ).loc main_arg14) := rfl

theorem U1_main_arg15 (c : Dev nD) : U1 m ρ c (Proc.devRef .tc main_arg15) = m ((c : Thread nD τ).loc main_arg15) :=
  calc U1 m ρ c (Proc.devRef .tc main_arg15)
    _ = U0 m ρ c (Proc.devRef .tc main_arg15) := U1_of m ρ c main_arg15 (by decide)
    _ = m ((c : Thread nD τ).loc main_arg15) := rfl

theorem U1_main_arg16 (c : Dev nD) : U1 m ρ c (Proc.devRef .tc main_arg16) = m ((c : Thread nD τ).loc main_arg16) :=
  calc U1 m ρ c (Proc.devRef .tc main_arg16)
    _ = U0 m ρ c (Proc.devRef .tc main_arg16) := U1_of m ρ c main_arg16 (by decide)
    _ = m ((c : Thread nD τ).loc main_arg16) := rfl

theorem U1_main_arg17 (c : Dev nD) : U1 m ρ c (Proc.devRef .tc main_arg17) = m ((c : Thread nD τ).loc main_arg17) :=
  calc U1 m ρ c (Proc.devRef .tc main_arg17)
    _ = U0 m ρ c (Proc.devRef .tc main_arg17) := U1_of m ρ c main_arg17 (by decide)
    _ = m ((c : Thread nD τ).loc main_arg17) := rfl

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of m ρ c main_arg0 (by decide)
    _ = U1 m ρ c (Proc.devRef .tc main_arg0) := U2_in m ρ c 0 rfl
    _ = U0 m ρ c (Proc.devRef .tc main_arg0) := U1_of m ρ c main_arg0 (by decide)
    _ = m ((c : Thread nD τ).loc main_arg0) := rfl

theorem U3_main_arg1 (c : Dev nD) : U3 m ρ c (Proc.devRef .tc main_arg1) = m ((c : Thread nD τ).loc main_arg1) :=
  calc U3 m ρ c (Proc.devRef .tc main_arg1)
    _ = U2 m ρ c (Proc.devRef .tc main_arg1) := U3_of m ρ c main_arg1 (by decide)
    _ = U1 m ρ c (Proc.devRef .tc main_arg1) := U2_of_ne m ρ c main_arg1 (by decide)
    _ = U0 m ρ c (Proc.devRef .tc main_arg1) := U1_of m ρ c main_arg1 (by decide)
    _ = m ((c : Thread nD τ).loc main_arg1) := rfl

theorem U3_main_arg2 (c : Dev nD) : U3 m ρ c (Proc.devRef .tc main_arg2) = m ((c : Thread nD τ).loc main_arg2) :=
  calc U3 m ρ c (Proc.devRef .tc main_arg2)
    _ = U2 m ρ c (Proc.devRef .tc main_arg2) := U3_of m ρ c main_arg2 (by decide)
    _ = U1 m ρ c (Proc.devRef .tc main_arg2) := U2_of_ne m ρ c main_arg2 (by decide)
    _ = U0 m ρ c (Proc.devRef .tc main_arg2) := U1_of m ρ c main_arg2 (by decide)
    _ = m ((c : Thread nD τ).loc main_arg2) := rfl

theorem U3_main_arg3 (c : Dev nD) : U3 m ρ c (Proc.devRef .tc main_arg3) = m ((c : Thread nD τ).loc main_arg3) :=
  calc U3 m ρ c (Proc.devRef .tc main_arg3)
    _ = U2 m ρ c (Proc.devRef .tc main_arg3) := U3_of m ρ c main_arg3 (by decide)
    _ = U1 m ρ c (Proc.devRef .tc main_arg3) := U2_of_ne m ρ c main_arg3 (by decide)
    _ = U0 m ρ c (Proc.devRef .tc main_arg3) := U1_of m ρ c main_arg3 (by decide)
    _ = m ((c : Thread nD τ).loc main_arg3) := rfl

theorem U3_main_arg4 (c : Dev nD) : U3 m ρ c (Proc.devRef .tc main_arg4) = m ((c : Thread nD τ).loc main_arg4) :=
  calc U3 m ρ c (Proc.devRef .tc main_arg4)
    _ = U2 m ρ c (Proc.devRef .tc main_arg4) := U3_of m ρ c main_arg4 (by decide)
    _ = U1 m ρ c (Proc.devRef .tc main_arg4) := U2_of_ne m ρ c main_arg4 (by decide)
    _ = U0 m ρ c (Proc.devRef .tc main_arg4) := U1_of m ρ c main_arg4 (by decide)
    _ = m ((c : Thread nD τ).loc main_arg4) := rfl

theorem U3_main_arg5 (c : Dev nD) : U3 m ρ c (Proc.devRef .tc main_arg5) = m ((c : Thread nD τ).loc main_arg5) :=
  calc U3 m ρ c (Proc.devRef .tc main_arg5)
    _ = U2 m ρ c (Proc.devRef .tc main_arg5) := U3_of m ρ c main_arg5 (by decide)
    _ = U1 m ρ c (Proc.devRef .tc main_arg5) := U2_of_ne m ρ c main_arg5 (by decide)
    _ = U0 m ρ c (Proc.devRef .tc main_arg5) := U1_of m ρ c main_arg5 (by decide)
    _ = m ((c : Thread nD τ).loc main_arg5) := rfl

theorem U3_main_arg6 (c : Dev nD) : U3 m ρ c (Proc.devRef .tc main_arg6) = m ((c : Thread nD τ).loc main_arg6) :=
  calc U3 m ρ c (Proc.devRef .tc main_arg6)
    _ = U2 m ρ c (Proc.devRef .tc main_arg6) := U3_of m ρ c main_arg6 (by decide)
    _ = U1 m ρ c (Proc.devRef .tc main_arg6) := U2_of_ne m ρ c main_arg6 (by decide)
    _ = U0 m ρ c (Proc.devRef .tc main_arg6) := U1_of m ρ c main_arg6 (by decide)
    _ = m ((c : Thread nD τ).loc main_arg6) := rfl

theorem U3_main_arg7 (c : Dev nD) : U3 m ρ c (Proc.devRef .tc main_arg7) = m ((c : Thread nD τ).loc main_arg7) :=
  calc U3 m ρ c (Proc.devRef .tc main_arg7)
    _ = U2 m ρ c (Proc.devRef .tc main_arg7) := U3_of m ρ c main_arg7 (by decide)
    _ = U1 m ρ c (Proc.devRef .tc main_arg7) := U2_of_ne m ρ c main_arg7 (by decide)
    _ = U0 m ρ c (Proc.devRef .tc main_arg7) := U1_of m ρ c main_arg7 (by decide)
    _ = m ((c : Thread nD τ).loc main_arg7) := rfl

theorem U3_main_arg8 (c : Dev nD) : U3 m ρ c (Proc.devRef .tc main_arg8) = m ((c : Thread nD τ).loc main_arg8) :=
  calc U3 m ρ c (Proc.devRef .tc main_arg8)
    _ = U2 m ρ c (Proc.devRef .tc main_arg8) := U3_of m ρ c main_arg8 (by decide)
    _ = U1 m ρ c (Proc.devRef .tc main_arg8) := U2_of_ne m ρ c main_arg8 (by decide)
    _ = U0 m ρ c (Proc.devRef .tc main_arg8) := U1_of m ρ c main_arg8 (by decide)
    _ = m ((c : Thread nD τ).loc main_arg8) := rfl

theorem U3_main_arg9 (c : Dev nD) : U3 m ρ c (Proc.devRef .tc main_arg9) = m ((c : Thread nD τ).loc main_arg9) :=
  calc U3 m ρ c (Proc.devRef .tc main_arg9)
    _ = U2 m ρ c (Proc.devRef .tc main_arg9) := U3_of m ρ c main_arg9 (by decide)
    _ = U1 m ρ c (Proc.devRef .tc main_arg9) := U2_of_ne m ρ c main_arg9 (by decide)
    _ = U0 m ρ c (Proc.devRef .tc main_arg9) := U1_of m ρ c main_arg9 (by decide)
    _ = m ((c : Thread nD τ).loc main_arg9) := rfl

theorem U3_main_arg10 (c : Dev nD) : U3 m ρ c (Proc.devRef .tc main_arg10) = m ((c : Thread nD τ).loc main_arg10) :=
  calc U3 m ρ c (Proc.devRef .tc main_arg10)
    _ = U2 m ρ c (Proc.devRef .tc main_arg10) := U3_of m ρ c main_arg10 (by decide)
    _ = U1 m ρ c (Proc.devRef .tc main_arg10) := U2_of_ne m ρ c main_arg10 (by decide)
    _ = U0 m ρ c (Proc.devRef .tc main_arg10) := U1_of m ρ c main_arg10 (by decide)
    _ = m ((c : Thread nD τ).loc main_arg10) := rfl

theorem U3_main_arg11 (c : Dev nD) : U3 m ρ c (Proc.devRef .tc main_arg11) = m ((c : Thread nD τ).loc main_arg11) :=
  calc U3 m ρ c (Proc.devRef .tc main_arg11)
    _ = U2 m ρ c (Proc.devRef .tc main_arg11) := U3_of m ρ c main_arg11 (by decide)
    _ = U1 m ρ c (Proc.devRef .tc main_arg11) := U2_of_ne m ρ c main_arg11 (by decide)
    _ = U0 m ρ c (Proc.devRef .tc main_arg11) := U1_of m ρ c main_arg11 (by decide)
    _ = m ((c : Thread nD τ).loc main_arg11) := rfl

theorem U3_main_arg12 (c : Dev nD) : U3 m ρ c (Proc.devRef .tc main_arg12) = m ((c : Thread nD τ).loc main_arg12) :=
  calc U3 m ρ c (Proc.devRef .tc main_arg12)
    _ = U2 m ρ c (Proc.devRef .tc main_arg12) := U3_of m ρ c main_arg12 (by decide)
    _ = U1 m ρ c (Proc.devRef .tc main_arg12) := U2_of_ne m ρ c main_arg12 (by decide)
    _ = U0 m ρ c (Proc.devRef .tc main_arg12) := U1_of m ρ c main_arg12 (by decide)
    _ = m ((c : Thread nD τ).loc main_arg12) := rfl

theorem U3_main_arg13 (c : Dev nD) : U3 m ρ c (Proc.devRef .tc main_arg13) = m ((c : Thread nD τ).loc main_arg13) :=
  calc U3 m ρ c (Proc.devRef .tc main_arg13)
    _ = U2 m ρ c (Proc.devRef .tc main_arg13) := U3_of m ρ c main_arg13 (by decide)
    _ = U1 m ρ c (Proc.devRef .tc main_arg13) := U2_of_ne m ρ c main_arg13 (by decide)
    _ = U0 m ρ c (Proc.devRef .tc main_arg13) := U1_of m ρ c main_arg13 (by decide)
    _ = m ((c : Thread nD τ).loc main_arg13) := rfl

theorem U3_main_arg14 (c : Dev nD) : U3 m ρ c (Proc.devRef .tc main_arg14) = m ((c : Thread nD τ).loc main_arg14) :=
  calc U3 m ρ c (Proc.devRef .tc main_arg14)
    _ = U2 m ρ c (Proc.devRef .tc main_arg14) := U3_of m ρ c main_arg14 (by decide)
    _ = U1 m ρ c (Proc.devRef .tc main_arg14) := U2_of_ne m ρ c main_arg14 (by decide)
    _ = U0 m ρ c (Proc.devRef .tc main_arg14) := U1_of m ρ c main_arg14 (by decide)
    _ = m ((c : Thread nD τ).loc main_arg14) := rfl

theorem U3_main_arg15 (c : Dev nD) : U3 m ρ c (Proc.devRef .tc main_arg15) = m ((c : Thread nD τ).loc main_arg15) :=
  calc U3 m ρ c (Proc.devRef .tc main_arg15)
    _ = U2 m ρ c (Proc.devRef .tc main_arg15) := U3_of m ρ c main_arg15 (by decide)
    _ = U1 m ρ c (Proc.devRef .tc main_arg15) := U2_of_ne m ρ c main_arg15 (by decide)
    _ = U0 m ρ c (Proc.devRef .tc main_arg15) := U1_of m ρ c main_arg15 (by decide)
    _ = m ((c : Thread nD τ).loc main_arg15) := rfl

theorem U3_main_arg16 (c : Dev nD) : U3 m ρ c (Proc.devRef .tc main_arg16) = m ((c : Thread nD τ).loc main_arg16) :=
  calc U3 m ρ c (Proc.devRef .tc main_arg16)
    _ = U2 m ρ c (Proc.devRef .tc main_arg16) := U3_of m ρ c main_arg16 (by decide)
    _ = U1 m ρ c (Proc.devRef .tc main_arg16) := U2_of_ne m ρ c main_arg16 (by decide)
    _ = U0 m ρ c (Proc.devRef .tc main_arg16) := U1_of m ρ c main_arg16 (by decide)
    _ = m ((c : Thread nD τ).loc main_arg16) := rfl

theorem U3_main_arg17 (c : Dev nD) : U3 m ρ c (Proc.devRef .tc main_arg17) = m ((c : Thread nD τ).loc main_arg17) :=
  calc U3 m ρ c (Proc.devRef .tc main_arg17)
    _ = U2 m ρ c (Proc.devRef .tc main_arg17) := U3_of m ρ c main_arg17 (by decide)
    _ = U1 m ρ c (Proc.devRef .tc main_arg17) := U2_of_ne m ρ c main_arg17 (by decide)
    _ = U0 m ρ c (Proc.devRef .tc main_arg17) := U1_of m ρ c main_arg17 (by decide)
    _ = m ((c : Thread nD τ).loc main_arg17) := rfl

theorem U5_main_arg0 (c : Dev nD) : U5 m ρ c (Proc.devRef .tc main_arg0) = m ((c : Thread nD τ).loc main_arg0) :=
  calc U5 m ρ c (Proc.devRef .tc main_arg0)
    _ = U4 m ρ c (Proc.devRef .tc main_arg0) := U5_of m ρ c main_arg0 (by decide)
    _ = U3 m ρ c (Proc.devRef .tc main_arg0) := U4_of_ne m ρ c main_arg0 (by decide)
    _ = U2 m ρ c (Proc.devRef .tc main_arg0) := U3_of m ρ c main_arg0 (by decide)
    _ = U1 m ρ c (Proc.devRef .tc main_arg0) := U2_in m ρ c 0 rfl
    _ = U0 m ρ c (Proc.devRef .tc main_arg0) := U1_of m ρ c main_arg0 (by decide)
    _ = m ((c : Thread nD τ).loc main_arg0) := rfl

theorem U5_main_arg1 (c : Dev nD) : U5 m ρ c (Proc.devRef .tc main_arg1) = m ((c : Thread nD τ).loc main_arg1) :=
  calc U5 m ρ c (Proc.devRef .tc main_arg1)
    _ = U4 m ρ c (Proc.devRef .tc main_arg1) := U5_of m ρ c main_arg1 (by decide)
    _ = U3 m ρ c (Proc.devRef .tc main_arg1) := U4_in m ρ c 0 rfl
    _ = U2 m ρ c (Proc.devRef .tc main_arg1) := U3_of m ρ c main_arg1 (by decide)
    _ = U1 m ρ c (Proc.devRef .tc main_arg1) := U2_of_ne m ρ c main_arg1 (by decide)
    _ = U0 m ρ c (Proc.devRef .tc main_arg1) := U1_of m ρ c main_arg1 (by decide)
    _ = m ((c : Thread nD τ).loc main_arg1) := rfl

theorem U5_main_arg2 (c : Dev nD) : U5 m ρ c (Proc.devRef .tc main_arg2) = m ((c : Thread nD τ).loc main_arg2) :=
  calc U5 m ρ c (Proc.devRef .tc main_arg2)
    _ = U4 m ρ c (Proc.devRef .tc main_arg2) := U5_of m ρ c main_arg2 (by decide)
    _ = U3 m ρ c (Proc.devRef .tc main_arg2) := U4_of_ne m ρ c main_arg2 (by decide)
    _ = U2 m ρ c (Proc.devRef .tc main_arg2) := U3_of m ρ c main_arg2 (by decide)
    _ = U1 m ρ c (Proc.devRef .tc main_arg2) := U2_of_ne m ρ c main_arg2 (by decide)
    _ = U0 m ρ c (Proc.devRef .tc main_arg2) := U1_of m ρ c main_arg2 (by decide)
    _ = m ((c : Thread nD τ).loc main_arg2) := rfl

theorem U5_main_arg3 (c : Dev nD) : U5 m ρ c (Proc.devRef .tc main_arg3) = m ((c : Thread nD τ).loc main_arg3) :=
  calc U5 m ρ c (Proc.devRef .tc main_arg3)
    _ = U4 m ρ c (Proc.devRef .tc main_arg3) := U5_of m ρ c main_arg3 (by decide)
    _ = U3 m ρ c (Proc.devRef .tc main_arg3) := U4_of_ne m ρ c main_arg3 (by decide)
    _ = U2 m ρ c (Proc.devRef .tc main_arg3) := U3_of m ρ c main_arg3 (by decide)
    _ = U1 m ρ c (Proc.devRef .tc main_arg3) := U2_of_ne m ρ c main_arg3 (by decide)
    _ = U0 m ρ c (Proc.devRef .tc main_arg3) := U1_of m ρ c main_arg3 (by decide)
    _ = m ((c : Thread nD τ).loc main_arg3) := rfl

theorem U5_main_arg4 (c : Dev nD) : U5 m ρ c (Proc.devRef .tc main_arg4) = m ((c : Thread nD τ).loc main_arg4) :=
  calc U5 m ρ c (Proc.devRef .tc main_arg4)
    _ = U4 m ρ c (Proc.devRef .tc main_arg4) := U5_of m ρ c main_arg4 (by decide)
    _ = U3 m ρ c (Proc.devRef .tc main_arg4) := U4_of_ne m ρ c main_arg4 (by decide)
    _ = U2 m ρ c (Proc.devRef .tc main_arg4) := U3_of m ρ c main_arg4 (by decide)
    _ = U1 m ρ c (Proc.devRef .tc main_arg4) := U2_of_ne m ρ c main_arg4 (by decide)
    _ = U0 m ρ c (Proc.devRef .tc main_arg4) := U1_of m ρ c main_arg4 (by decide)
    _ = m ((c : Thread nD τ).loc main_arg4) := rfl

theorem U5_main_arg5 (c : Dev nD) : U5 m ρ c (Proc.devRef .tc main_arg5) = m ((c : Thread nD τ).loc main_arg5) :=
  calc U5 m ρ c (Proc.devRef .tc main_arg5)
    _ = U4 m ρ c (Proc.devRef .tc main_arg5) := U5_of m ρ c main_arg5 (by decide)
    _ = U3 m ρ c (Proc.devRef .tc main_arg5) := U4_of_ne m ρ c main_arg5 (by decide)
    _ = U2 m ρ c (Proc.devRef .tc main_arg5) := U3_of m ρ c main_arg5 (by decide)
    _ = U1 m ρ c (Proc.devRef .tc main_arg5) := U2_of_ne m ρ c main_arg5 (by decide)
    _ = U0 m ρ c (Proc.devRef .tc main_arg5) := U1_of m ρ c main_arg5 (by decide)
    _ = m ((c : Thread nD τ).loc main_arg5) := rfl

theorem U5_main_arg6 (c : Dev nD) : U5 m ρ c (Proc.devRef .tc main_arg6) = m ((c : Thread nD τ).loc main_arg6) :=
  calc U5 m ρ c (Proc.devRef .tc main_arg6)
    _ = U4 m ρ c (Proc.devRef .tc main_arg6) := U5_of m ρ c main_arg6 (by decide)
    _ = U3 m ρ c (Proc.devRef .tc main_arg6) := U4_in m ρ c 3 rfl
    _ = U2 m ρ c (Proc.devRef .tc main_arg6) := U3_of m ρ c main_arg6 (by decide)
    _ = U1 m ρ c (Proc.devRef .tc main_arg6) := U2_of_ne m ρ c main_arg6 (by decide)
    _ = U0 m ρ c (Proc.devRef .tc main_arg6) := U1_of m ρ c main_arg6 (by decide)
    _ = m ((c : Thread nD τ).loc main_arg6) := rfl

theorem U5_main_arg7 (c : Dev nD) : U5 m ρ c (Proc.devRef .tc main_arg7) = m ((c : Thread nD τ).loc main_arg7) :=
  calc U5 m ρ c (Proc.devRef .tc main_arg7)
    _ = U4 m ρ c (Proc.devRef .tc main_arg7) := U5_of m ρ c main_arg7 (by decide)
    _ = U3 m ρ c (Proc.devRef .tc main_arg7) := U4_in m ρ c 4 rfl
    _ = U2 m ρ c (Proc.devRef .tc main_arg7) := U3_of m ρ c main_arg7 (by decide)
    _ = U1 m ρ c (Proc.devRef .tc main_arg7) := U2_of_ne m ρ c main_arg7 (by decide)
    _ = U0 m ρ c (Proc.devRef .tc main_arg7) := U1_of m ρ c main_arg7 (by decide)
    _ = m ((c : Thread nD τ).loc main_arg7) := rfl

theorem U5_main_arg8 (c : Dev nD) : U5 m ρ c (Proc.devRef .tc main_arg8) = m ((c : Thread nD τ).loc main_arg8) :=
  calc U5 m ρ c (Proc.devRef .tc main_arg8)
    _ = U4 m ρ c (Proc.devRef .tc main_arg8) := U5_of m ρ c main_arg8 (by decide)
    _ = U3 m ρ c (Proc.devRef .tc main_arg8) := U4_of_ne m ρ c main_arg8 (by decide)
    _ = U2 m ρ c (Proc.devRef .tc main_arg8) := U3_of m ρ c main_arg8 (by decide)
    _ = U1 m ρ c (Proc.devRef .tc main_arg8) := U2_of_ne m ρ c main_arg8 (by decide)
    _ = U0 m ρ c (Proc.devRef .tc main_arg8) := U1_of m ρ c main_arg8 (by decide)
    _ = m ((c : Thread nD τ).loc main_arg8) := rfl

theorem U5_main_arg9 (c : Dev nD) : U5 m ρ c (Proc.devRef .tc main_arg9) = m ((c : Thread nD τ).loc main_arg9) :=
  calc U5 m ρ c (Proc.devRef .tc main_arg9)
    _ = U4 m ρ c (Proc.devRef .tc main_arg9) := U5_of m ρ c main_arg9 (by decide)
    _ = U3 m ρ c (Proc.devRef .tc main_arg9) := U4_of_ne m ρ c main_arg9 (by decide)
    _ = U2 m ρ c (Proc.devRef .tc main_arg9) := U3_of m ρ c main_arg9 (by decide)
    _ = U1 m ρ c (Proc.devRef .tc main_arg9) := U2_of_ne m ρ c main_arg9 (by decide)
    _ = U0 m ρ c (Proc.devRef .tc main_arg9) := U1_of m ρ c main_arg9 (by decide)
    _ = m ((c : Thread nD τ).loc main_arg9) := rfl

theorem U5_main_arg10 (c : Dev nD) : U5 m ρ c (Proc.devRef .tc main_arg10) = m ((c : Thread nD τ).loc main_arg10) :=
  calc U5 m ρ c (Proc.devRef .tc main_arg10)
    _ = U4 m ρ c (Proc.devRef .tc main_arg10) := U5_of m ρ c main_arg10 (by decide)
    _ = U3 m ρ c (Proc.devRef .tc main_arg10) := U4_of_ne m ρ c main_arg10 (by decide)
    _ = U2 m ρ c (Proc.devRef .tc main_arg10) := U3_of m ρ c main_arg10 (by decide)
    _ = U1 m ρ c (Proc.devRef .tc main_arg10) := U2_of_ne m ρ c main_arg10 (by decide)
    _ = U0 m ρ c (Proc.devRef .tc main_arg10) := U1_of m ρ c main_arg10 (by decide)
    _ = m ((c : Thread nD τ).loc main_arg10) := rfl

theorem U5_main_arg11 (c : Dev nD) : U5 m ρ c (Proc.devRef .tc main_arg11) = m ((c : Thread nD τ).loc main_arg11) :=
  calc U5 m ρ c (Proc.devRef .tc main_arg11)
    _ = U4 m ρ c (Proc.devRef .tc main_arg11) := U5_of m ρ c main_arg11 (by decide)
    _ = U3 m ρ c (Proc.devRef .tc main_arg11) := U4_of_ne m ρ c main_arg11 (by decide)
    _ = U2 m ρ c (Proc.devRef .tc main_arg11) := U3_of m ρ c main_arg11 (by decide)
    _ = U1 m ρ c (Proc.devRef .tc main_arg11) := U2_of_ne m ρ c main_arg11 (by decide)
    _ = U0 m ρ c (Proc.devRef .tc main_arg11) := U1_of m ρ c main_arg11 (by decide)
    _ = m ((c : Thread nD τ).loc main_arg11) := rfl

theorem U5_main_arg12 (c : Dev nD) : U5 m ρ c (Proc.devRef .tc main_arg12) = m ((c : Thread nD τ).loc main_arg12) :=
  calc U5 m ρ c (Proc.devRef .tc main_arg12)
    _ = U4 m ρ c (Proc.devRef .tc main_arg12) := U5_of m ρ c main_arg12 (by decide)
    _ = U3 m ρ c (Proc.devRef .tc main_arg12) := U4_of_ne m ρ c main_arg12 (by decide)
    _ = U2 m ρ c (Proc.devRef .tc main_arg12) := U3_of m ρ c main_arg12 (by decide)
    _ = U1 m ρ c (Proc.devRef .tc main_arg12) := U2_of_ne m ρ c main_arg12 (by decide)
    _ = U0 m ρ c (Proc.devRef .tc main_arg12) := U1_of m ρ c main_arg12 (by decide)
    _ = m ((c : Thread nD τ).loc main_arg12) := rfl

theorem U5_main_arg13 (c : Dev nD) : U5 m ρ c (Proc.devRef .tc main_arg13) = m ((c : Thread nD τ).loc main_arg13) :=
  calc U5 m ρ c (Proc.devRef .tc main_arg13)
    _ = U4 m ρ c (Proc.devRef .tc main_arg13) := U5_of m ρ c main_arg13 (by decide)
    _ = U3 m ρ c (Proc.devRef .tc main_arg13) := U4_of_ne m ρ c main_arg13 (by decide)
    _ = U2 m ρ c (Proc.devRef .tc main_arg13) := U3_of m ρ c main_arg13 (by decide)
    _ = U1 m ρ c (Proc.devRef .tc main_arg13) := U2_of_ne m ρ c main_arg13 (by decide)
    _ = U0 m ρ c (Proc.devRef .tc main_arg13) := U1_of m ρ c main_arg13 (by decide)
    _ = m ((c : Thread nD τ).loc main_arg13) := rfl

theorem U5_main_arg14 (c : Dev nD) : U5 m ρ c (Proc.devRef .tc main_arg14) = m ((c : Thread nD τ).loc main_arg14) :=
  calc U5 m ρ c (Proc.devRef .tc main_arg14)
    _ = U4 m ρ c (Proc.devRef .tc main_arg14) := U5_of m ρ c main_arg14 (by decide)
    _ = U3 m ρ c (Proc.devRef .tc main_arg14) := U4_in m ρ c 5 rfl
    _ = U2 m ρ c (Proc.devRef .tc main_arg14) := U3_of m ρ c main_arg14 (by decide)
    _ = U1 m ρ c (Proc.devRef .tc main_arg14) := U2_of_ne m ρ c main_arg14 (by decide)
    _ = U0 m ρ c (Proc.devRef .tc main_arg14) := U1_of m ρ c main_arg14 (by decide)
    _ = m ((c : Thread nD τ).loc main_arg14) := rfl

theorem U5_main_arg15 (c : Dev nD) : U5 m ρ c (Proc.devRef .tc main_arg15) = m ((c : Thread nD τ).loc main_arg15) :=
  calc U5 m ρ c (Proc.devRef .tc main_arg15)
    _ = U4 m ρ c (Proc.devRef .tc main_arg15) := U5_of m ρ c main_arg15 (by decide)
    _ = U3 m ρ c (Proc.devRef .tc main_arg15) := U4_in m ρ c 6 rfl
    _ = U2 m ρ c (Proc.devRef .tc main_arg15) := U3_of m ρ c main_arg15 (by decide)
    _ = U1 m ρ c (Proc.devRef .tc main_arg15) := U2_of_ne m ρ c main_arg15 (by decide)
    _ = U0 m ρ c (Proc.devRef .tc main_arg15) := U1_of m ρ c main_arg15 (by decide)
    _ = m ((c : Thread nD τ).loc main_arg15) := rfl

theorem U5_main_arg16 (c : Dev nD) : U5 m ρ c (Proc.devRef .tc main_arg16) = m ((c : Thread nD τ).loc main_arg16) :=
  calc U5 m ρ c (Proc.devRef .tc main_arg16)
    _ = U4 m ρ c (Proc.devRef .tc main_arg16) := U5_of m ρ c main_arg16 (by decide)
    _ = U3 m ρ c (Proc.devRef .tc main_arg16) := U4_of_ne m ρ c main_arg16 (by decide)
    _ = U2 m ρ c (Proc.devRef .tc main_arg16) := U3_of m ρ c main_arg16 (by decide)
    _ = U1 m ρ c (Proc.devRef .tc main_arg16) := U2_of_ne m ρ c main_arg16 (by decide)
    _ = U0 m ρ c (Proc.devRef .tc main_arg16) := U1_of m ρ c main_arg16 (by decide)
    _ = m ((c : Thread nD τ).loc main_arg16) := rfl

theorem U5_main_arg17 (c : Dev nD) : U5 m ρ c (Proc.devRef .tc main_arg17) = m ((c : Thread nD τ).loc main_arg17) :=
  calc U5 m ρ c (Proc.devRef .tc main_arg17)
    _ = U4 m ρ c (Proc.devRef .tc main_arg17) := U5_of m ρ c main_arg17 (by decide)
    _ = U3 m ρ c (Proc.devRef .tc main_arg17) := U4_of_ne m ρ c main_arg17 (by decide)
    _ = U2 m ρ c (Proc.devRef .tc main_arg17) := U3_of m ρ c main_arg17 (by decide)
    _ = U1 m ρ c (Proc.devRef .tc main_arg17) := U2_of_ne m ρ c main_arg17 (by decide)
    _ = U0 m ρ c (Proc.devRef .tc main_arg17) := U1_of m ρ c main_arg17 (by decide)
    _ = m ((c : Thread nD τ).loc main_arg17) := rfl

theorem U6_main_arg0 (c : Dev nD) : U6 m ρ c (Proc.devRef .tc main_arg0) = m ((c : Thread nD τ).loc main_arg0) :=
  (U6_in m ρ c 0 rfl).trans (U5_main_arg0 m ρ c)

theorem U6_main_arg1 (c : Dev nD) : U6 m ρ c (Proc.devRef .tc main_arg1) = m ((c : Thread nD τ).loc main_arg1) :=
  (U6_of_ne m ρ c main_arg1 (by decide)).trans (U5_main_arg1 m ρ c)

theorem U6_main_arg2 (c : Dev nD) : U6 m ρ c (Proc.devRef .tc main_arg2) = m ((c : Thread nD τ).loc main_arg2) :=
  (U6_of_ne m ρ c main_arg2 (by decide)).trans (U5_main_arg2 m ρ c)

theorem U6_main_arg3 (c : Dev nD) : U6 m ρ c (Proc.devRef .tc main_arg3) = m ((c : Thread nD τ).loc main_arg3) :=
  (U6_of_ne m ρ c main_arg3 (by decide)).trans (U5_main_arg3 m ρ c)

theorem U6_main_arg4 (c : Dev nD) : U6 m ρ c (Proc.devRef .tc main_arg4) = m ((c : Thread nD τ).loc main_arg4) :=
  (U6_of_ne m ρ c main_arg4 (by decide)).trans (U5_main_arg4 m ρ c)

theorem U6_main_arg5 (c : Dev nD) : U6 m ρ c (Proc.devRef .tc main_arg5) = m ((c : Thread nD τ).loc main_arg5) :=
  (U6_of_ne m ρ c main_arg5 (by decide)).trans (U5_main_arg5 m ρ c)

theorem U6_main_arg6 (c : Dev nD) : U6 m ρ c (Proc.devRef .tc main_arg6) = m ((c : Thread nD τ).loc main_arg6) :=
  (U6_of_ne m ρ c main_arg6 (by decide)).trans (U5_main_arg6 m ρ c)

theorem U6_main_arg7 (c : Dev nD) : U6 m ρ c (Proc.devRef .tc main_arg7) = m ((c : Thread nD τ).loc main_arg7) :=
  (U6_of_ne m ρ c main_arg7 (by decide)).trans (U5_main_arg7 m ρ c)

theorem U6_main_arg8 (c : Dev nD) : U6 m ρ c (Proc.devRef .tc main_arg8) = m ((c : Thread nD τ).loc main_arg8) :=
  (U6_in m ρ c 1 rfl).trans (U5_main_arg8 m ρ c)

theorem U6_main_arg9 (c : Dev nD) : U6 m ρ c (Proc.devRef .tc main_arg9) = m ((c : Thread nD τ).loc main_arg9) :=
  (U6_in m ρ c 2 rfl).trans (U5_main_arg9 m ρ c)

theorem U6_main_arg10 (c : Dev nD) : U6 m ρ c (Proc.devRef .tc main_arg10) = m ((c : Thread nD τ).loc main_arg10) :=
  (U6_of_ne m ρ c main_arg10 (by decide)).trans (U5_main_arg10 m ρ c)

theorem U6_main_arg11 (c : Dev nD) : U6 m ρ c (Proc.devRef .tc main_arg11) = m ((c : Thread nD τ).loc main_arg11) :=
  (U6_of_ne m ρ c main_arg11 (by decide)).trans (U5_main_arg11 m ρ c)

theorem U6_main_arg12 (c : Dev nD) : U6 m ρ c (Proc.devRef .tc main_arg12) = m ((c : Thread nD τ).loc main_arg12) :=
  (U6_in m ρ c 5 rfl).trans (U5_main_arg12 m ρ c)

theorem U6_main_arg13 (c : Dev nD) : U6 m ρ c (Proc.devRef .tc main_arg13) = m ((c : Thread nD τ).loc main_arg13) :=
  (U6_in m ρ c 6 rfl).trans (U5_main_arg13 m ρ c)

theorem U6_main_arg14 (c : Dev nD) : U6 m ρ c (Proc.devRef .tc main_arg14) = m ((c : Thread nD τ).loc main_arg14) :=
  (U6_of_ne m ρ c main_arg14 (by decide)).trans (U5_main_arg14 m ρ c)

theorem U6_main_arg15 (c : Dev nD) : U6 m ρ c (Proc.devRef .tc main_arg15) = m ((c : Thread nD τ).loc main_arg15) :=
  (U6_of_ne m ρ c main_arg15 (by decide)).trans (U5_main_arg15 m ρ c)

theorem U6_main_arg16 (c : Dev nD) : U6 m ρ c (Proc.devRef .tc main_arg16) = m ((c : Thread nD τ).loc main_arg16) :=
  (U6_of_ne m ρ c main_arg16 (by decide)).trans (U5_main_arg16 m ρ c)

theorem U6_main_arg17 (c : Dev nD) : U6 m ρ c (Proc.devRef .tc main_arg17) = m ((c : Thread nD τ).loc main_arg17) :=
  (U6_of_ne m ρ c main_arg17 (by decide)).trans (U5_main_arg17 m ρ c)

/-- What the run's final states hold at the arguments: their launch contents. -/
theorem args_kept (s : MemSt nD τ sig (Elt F))
    (h : ∀ c : Dev nD, ∀ b ∈ Pipeline.ucRefs τ sig, s.mem (((c : Thread nD τ)).1, b) = U6 m ρ c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17) :=
  ⟨(h c _ (mem_ucH main_arg0 (by decide))).trans (U6_main_arg0 m ρ c),
   (h c _ (mem_ucH main_arg1 (by decide))).trans (U6_main_arg1 m ρ c),
   (h c _ (mem_ucH main_arg2 (by decide))).trans (U6_main_arg2 m ρ c),
   (h c _ (mem_ucH main_arg3 (by decide))).trans (U6_main_arg3 m ρ c),
   (h c _ (mem_ucH main_arg4 (by decide))).trans (U6_main_arg4 m ρ c),
   (h c _ (mem_ucH main_arg5 (by decide))).trans (U6_main_arg5 m ρ c),
   (h c _ (mem_ucH main_arg6 (by decide))).trans (U6_main_arg6 m ρ c),
   (h c _ (mem_ucH main_arg7 (by decide))).trans (U6_main_arg7 m ρ c),
   (h c _ (mem_ucH main_arg8 (by decide))).trans (U6_main_arg8 m ρ c),
   (h c _ (mem_ucH main_arg9 (by decide))).trans (U6_main_arg9 m ρ c),
   (h c _ (mem_ucH main_arg10 (by decide))).trans (U6_main_arg10 m ρ c),
   (h c _ (mem_ucH main_arg11 (by decide))).trans (U6_main_arg11 m ρ c),
   (h c _ (mem_ucH main_arg12 (by decide))).trans (U6_main_arg12 m ρ c),
   (h c _ (mem_ucH main_arg13 (by decide))).trans (U6_main_arg13 m ρ c),
   (h c _ (mem_ucH main_arg14 (by decide))).trans (U6_main_arg14 m ρ c),
   (h c _ (mem_ucH main_arg15 (by decide))).trans (U6_main_arg15 m ρ c),
   (h c _ (mem_ucH main_arg16 (by decide))).trans (U6_main_arg16 m ρ c),
   (h c _ (mem_ucH main_arg17 (by decide))).trans (U6_main_arg17 m ρ c)⟩

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => args_kept m ρ r.2 h c) (run_all m ρ)

end Cert.KernelIdeal.Hand

end
-- ==== Proof.KI.HostRead.lean ====
/-
  The three stretches of host operations between the regions, read back: what each buffer a later region stages holds
  after the stretch, as the operations' composed term of the buffers' contents before it. The first stretch concatenates
  the three gate/update weights and biases; the second wraps negative indices, gathers projected rows per edge and adds
  the two gate gathers; the third widens the two gated arrays, lays them side by side, scatter-adds the rows to their
  destination nodes and cuts the sum back in two.
-/
import proofs.«172384_j69131793596856_2_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

/-- An index vector with its negative entries wrapped by the node count, as a column. -/
def idxK (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

theorem host0_v0 : StableHlo.after (hostOps0 (F := Ideal)) W (Proc.devRef .tc main_v0)
    = concatenate S128x384 1 [⟨S128x128, W (Proc.devRef .tc main_arg2)⟩, ⟨S128x128, W (Proc.devRef .tc main_arg4)⟩,
        ⟨S128x128, W (Proc.devRef .tc main_arg10)⟩] concatenates_S128x128_S128x128_S128x128_S128x384_d1 := by
  after_results; rfl

theorem host0_v1 : StableHlo.after (hostOps0 (F := Ideal)) W (Proc.devRef .tc main_v1)
    = concatenate S384 0 [⟨S128, W (Proc.devRef .tc main_arg3)⟩, ⟨S128, W (Proc.devRef .tc main_arg5)⟩,
        ⟨S128, W (Proc.devRef .tc main_arg11)⟩] concatenates_S128_S128_S128_S384_d0 := by
  after_results; rfl

set_option maxHeartbeats 4000000 in
theorem host1_v18 : (StableHlo.after (hostOps1 (F := Ideal)) W (Proc.devRef .tc main_v18) : FVec Ideal S600000x128 .bf16)
    = truncf (F := Ideal) .bf16 (addf (F := Ideal)
        (Host.gather gather_S50000x128_S600000x1_S600000x128_1_0_n_n_0_1_1128 (W (Proc.devRef .tc main_v2_0)) (idxK (W (Proc.devRef .tc main_arg16))))
        (Host.gather gather_S50000x128_S600000x1_S600000x128_1_0_n_n_0_1_1128 (W (Proc.devRef .tc main_v2_1)) (idxK (W (Proc.devRef .tc main_arg17)))))
      bitsLt_bf16_f32 := by
  after_results_simp <;> rfl

set_option maxHeartbeats 4000000 in
theorem host1_v26 : (StableHlo.after (hostOps1 (F := Ideal)) W (Proc.devRef .tc main_v26) : FVec Ideal S600000x128 .bf16)
    = truncf (F := Ideal) .bf16 (Host.gather gather_S50000x128_S600000x1_S600000x128_1_0_n_n_0_1_1128 (W (Proc.devRef .tc main_v2_2)) (idxK (W (Proc.devRef .tc main_arg16))))
      bitsLt_bf16_f32 := by
  after_results_simp <;> rfl

/-- The scatter-add of the third stretch, before it is cut in two. -/
def scat (W : Valuation τ sig (Elt Ideal)) : FVec Ideal S50000x256 .f32 :=
  Host.scatterAdd scatter_S50000x256_S600000x1_S600000x256_1_0_0_1
    (broadcastInDim S50000x256 ![] bcast_S_S50000x256 (constant S_ .f32 0x00000000#32))
    (broadcastInDim S600000x1 ![0] bcast_S600000_S600000x1_0 (W (Proc.devRef .tc main_arg17)))
    (concatenate S600000x256 1
      [⟨S600000x128, extf .f32 (W (Proc.devRef .tc main_v27_2)) bitsLt_bf16_f32⟩,
       ⟨S600000x128, extf .f32 (W (Proc.devRef .tc main_v27_1)) bitsLt_bf16_f32⟩]
      concatenates_S600000x128_S600000x128_S600000x256_d1)

theorem host2_v34 : StableHlo.after (hostOps2 (F := Ideal)) W (Proc.devRef .tc main_v34)
    = extractStridedSlice S50000x128 ![0, 0] (scat W) slices_S50000x256_S50000x128_0_0 := by
  after_results; rfl

theorem host2_v35 : StableHlo.after (hostOps2 (F := Ideal)) W (Proc.devRef .tc main_v35)
    = extractStridedSlice S50000x128 ![0, 128] (scat W) slices_S50000x256_S50000x128_0_128 := by
  after_results; rfl

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«172384_j69131793596856_2_alg».proof.Proof.LibPlainDot
import proofs.«172384_j69131793596856_2_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibRowLocal.lean ====
/-
  DENSE STAGES THAT ACT ROW BY ROW, as functions of whole arrays on the extended reals, generic in the extents.

  * `scaleRows Y s`  — row a of Y : [A, B] multiplied by the entry s(a, 0) of a column s : [A, 1];
  * `mapEntries f Y` — a function of one extended real applied to every entry.

  Three things are proved about them and about the product, the bias-then-maximum and the bias add of the dense-layer
  file (`prod`, `act`, `addRow`):

  1. the HOST's spelling is the stage: a column broadcast along the rows by `broadcast_in_dim` and multiplied;
  2. a KERNEL's spelling is the stage: a matmul into the zero accumulator is `prod`; a column cast to its own shape,
     broadcast along the rows and multiplied is `scaleRows`; a vector cast to one row, broadcast down the rows, added and
     met with a broadcast scalar is `act`, without the maximum `addRow`;
  3. each stage is ROW-LOCAL: if a block x : [a, ·] holds the rows e(0), …, e(a−1) of X : [A, ·] (and a block of the
     column the same rows of the column), then the stage of the blocks, read at (p, q), is the stage of the whole arrays
     read at (e p, q). A matrix that is not cut (the weights, the bias) is the same on both sides.

  Nothing here depends on a program.
-/
import proofs.«172384_j69131793596856_2_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowLocal

open Idealize.ShloMosaic Idealize.ShloMosaic.ValueIdx Cert.Layer

variable {A K B : Nat}

/-- The index (a, 0) of a column. -/
abbrev col0 (a : Fin A) : (⟨2, ![A, 1]⟩ : Shape).Idx := ix2 a (⟨0, Nat.one_pos⟩ : Fin 1)

/-- Row a of Y multiplied by s(a, 0). -/
def scaleRows (Y : (⟨2, ![A, B]⟩ : Shape).Idx → EReal) (s : (⟨2, ![A, 1]⟩ : Shape).Idx → EReal) :
    (⟨2, ![A, B]⟩ : Shape).Idx → EReal :=
  fun i => Y i * s (col0 (i 0))

/-- A function of one extended real applied entry by entry. -/
def mapEntries (f : EReal → EReal) (Y : (⟨2, ![A, B]⟩ : Shape).Idx → EReal) : (⟨2, ![A, B]⟩ : Shape).Idx → EReal :=
  fun i => f (Y i)

theorem scaleRows_apply (Y : (⟨2, ![A, B]⟩ : Shape).Idx → EReal) (s : (⟨2, ![A, 1]⟩ : Shape).Idx → EReal)
    (a : Fin A) (b : Fin B) : scaleRows Y s (ix2 a b) = Y (ix2 a b) * s (col0 a) := rfl

/-! ## The host's spelling -/

/-- A column [A, 1] broadcast along the rows to [A, B], read at (a, b): the column's entry (a, 0). -/
theorem bcastCol_apply (h : (⟨2, ![A, 1]⟩ : Shape).BroadcastsInDim ⟨2, ![A, B]⟩ ![0, 1])
    (s : (⟨2, ![A, 1]⟩ : Shape).Idx → EReal) (a : Fin A) (b : Fin B) :
    broadcastInDim ⟨2, ![A, B]⟩ ![0, 1] h s (ix2 a b) = s (col0 a) := by
  refine broadcastInDim_apply ![0, 1] h s (ix2 a b) (col0 a) fun d => ?_
  match d with
  | ⟨0, _⟩ =>
    show a.val = if A = 1 then 0 else a.val
    split
    · have := a.isLt; omega
    · rfl
  | ⟨1, _⟩ => exact (if_pos rfl).symm

/-- The host's product with a column broadcast along the rows is `scaleRows`. -/
theorem hostScale_eq (Y : FVec Ideal ⟨2, ![A, B]⟩ .f32) (s : FVec Ideal ⟨2, ![A, 1]⟩ .f32)
    (h : (⟨2, ![A, 1]⟩ : Shape).BroadcastsInDim ⟨2, ![A, B]⟩ ![0, 1]) :
    mulf Y (broadcastInDim ⟨2, ![A, B]⟩ ![0, 1] h s) = scaleRows Y s :=
  funext fun i => by
    obtain ⟨a, b, rfl⟩ : ∃ (a : Fin A) (b : Fin B), i = ix2 a b := ⟨i 0, i 1, eq_ix2 i⟩
    show Y (ix2 a b) * broadcastInDim ⟨2, ![A, B]⟩ ![0, 1] h s (ix2 a b) = Y (ix2 a b) * s (col0 a)
    rw [bcastCol_apply]

/-- The host's hyperbolic tangent is the entrywise one. -/
theorem hostTanh_eq (Y : FVec Ideal ⟨2, ![A, B]⟩ .f32) : Host.tanh Y = mapEntries Ideal.tanh Y := rfl

/-! ## A kernel's spelling -/

/-- A column [A, 1] broadcast (as a vector broadcast) to [A, B], read at (a, b): the column's entry (a, 0). -/
theorem bcastToCol_apply (h : (⟨2, ![A, 1]⟩ : Shape).Broadcasts ⟨2, ![A, B]⟩)
    (s : (⟨2, ![A, 1]⟩ : Shape).Idx → EReal) (a : Fin A) (b : Fin B) :
    broadcastTo ⟨2, ![A, B]⟩ s h (ix2 a b) = s (col0 a) := by
  refine broadcastTo_apply s h (ix2 a b) (col0 a) fun d => ?_
  match d with
  | ⟨0, _⟩ =>
    show a.val = if A = 1 then 0 else a.val
    split
    · have := a.isLt; omega
    · rfl
  | ⟨1, _⟩ => exact (if_pos rfl).symm

/-- A kernel's product with a column, cast to its own shape and broadcast along the rows, is `scaleRows`. -/
theorem kernelScale_eq (Y : FVec Ideal ⟨2, ![A, B]⟩ .f32) (s : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩) :
    mulf Y (broadcastTo ⟨2, ![A, B]⟩ (shapeCast ⟨2, ![A, 1]⟩ s hc) hb) = scaleRows Y s :=
  funext fun i => by
    obtain ⟨a, b, rfl⟩ : ∃ (a : Fin A) (b : Fin B), i = ix2 a b := ⟨i 0, i 1, eq_ix2 i⟩
    show Y (ix2 a b) * broadcastTo ⟨2, ![A, B]⟩ (shapeCast ⟨2, ![A, 1]⟩ s hc) hb (ix2 a b) = Y (ix2 a b) * s (col0 a)
    rw [bcastToCol_apply, shapeCast_self]

/-- A kernel's matmul of a plain product into the zero accumulator (whatever record spells its dimension numbers, and
    whatever formats the operands were narrowed to) is `prod`. -/
theorem kernelProd_eq {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ φ₁) (W : FVec Ideal ⟨2, ![K, B]⟩ φ₂) :
    matmul d none X W (constant ⟨2, ![A, B]⟩ .f32 0x00000000#32) = prod X W := by
  rw [Cert.Lib.PlainDot.eq_plain d h1 h2 h3 h4 h5 h6]
  exact funext fun i => Cert.Lib.PlainDot.matmul_zero_plain_apply none X W i

/-- A kernel's bias add (the vector cast to one row, the row broadcast down the rows) and maximum with a broadcast
    scalar is `act`. -/
theorem kernelAct_eq (Z : FVec Ideal ⟨2, ![A, K]⟩ .f32) (b : FVec Ideal ⟨1, ![K]⟩ .f32)
    (hc : (⟨1, ![K]⟩ : Shape).ShapeCasts ⟨2, ![1, K]⟩) (hb : (⟨2, ![1, K]⟩ : Shape).Broadcasts ⟨2, ![A, K]⟩) (z : EReal) :
    maximumf (addf Z (broadcastTo ⟨2, ![A, K]⟩ (shapeCast ⟨2, ![1, K]⟩ b hc) hb)) (broadcast ⟨2, ![A, K]⟩ z) = act Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ (shapeCast ⟨2, ![1, K]⟩ b hc) hb (ix2 a k)) z
      = max (Z (ix2 a k) + b (ix1 k)) z
    rw [broadcastTo_1b_ab_apply, shapeCast_a_1a_apply]

/-- A kernel's bias add of a vector to every row is `addRow`. -/
theorem kernelAddRow_eq (Y : FVec Ideal ⟨2, ![A, B]⟩ .f32) (o : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf Y (broadcastTo ⟨2, ![A, B]⟩ (shapeCast ⟨2, ![1, B]⟩ o hc) hb) = addRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ (shapeCast ⟨2, ![1, B]⟩ o hc) hb (ix2 a k) = Y (ix2 a k) + o (ix1 k)
    rw [broadcastTo_1b_ab_apply, shapeCast_a_1a_apply]

/-! ## Row-locality: the stage of a block of rows is that block of the stage -/

section Blocks
variable {a : Nat} (e : Fin a → Fin A)

/-- A block x : [a, C] holds the rows e(0), …, e(a−1) of X : [A, C]. -/
def RowsOf {C : Nat} (x : (⟨2, ![a, C]⟩ : Shape).Idx → EReal) (X : (⟨2, ![A, C]⟩ : Shape).Idx → EReal) : Prop :=
  ∀ (p : Fin a) (q : Fin C), x (ix2 p q) = X (ix2 (e p) q)

theorem rowsOf_prod {x : (⟨2, ![a, K]⟩ : Shape).Idx → EReal} {X : (⟨2, ![A, K]⟩ : Shape).Idx → EReal}
    (hx : RowsOf e x X) (W : (⟨2, ![K, B]⟩ : Shape).Idx → EReal) : RowsOf e (prod x W) (prod X W) :=
  fun p q => Finset.sum_congr rfl fun k _ => by
    show x (ix2 p k) * W (ix2 k q) = X (ix2 (e p) k) * W (ix2 k q)
    rw [hx p k]

theorem rowsOf_scaleRows {y : (⟨2, ![a, B]⟩ : Shape).Idx → EReal} {Y : (⟨2, ![A, B]⟩ : Shape).Idx → EReal}
    {s : (⟨2, ![a, 1]⟩ : Shape).Idx → EReal} {S : (⟨2, ![A, 1]⟩ : Shape).Idx → EReal}
    (hy : RowsOf e y Y) (hs : RowsOf e s S) : RowsOf e (scaleRows y s) (scaleRows Y S) :=
  fun p q => by
    show y (ix2 p q) * s (col0 p) = Y (ix2 (e p) q) * S (col0 (e p))
    rw [hy p q, hs p ⟨0, Nat.one_pos⟩]

theorem rowsOf_act {z' : (⟨2, ![a, K]⟩ : Shape).Idx → EReal} {Z : (⟨2, ![A, K]⟩ : Shape).Idx → EReal}
    (hz : RowsOf e z' Z) (b : (⟨1, ![K]⟩ : Shape).Idx → EReal) (z : EReal) : RowsOf e (act z' b z) (act Z b z) :=
  fun p q => by
    show max (z' (ix2 p q) + b (ix1 q)) z = max (Z (ix2 (e p) q) + b (ix1 q)) z
    rw [hz p q]

theorem rowsOf_addRow {y : (⟨2, ![a, B]⟩ : Shape).Idx → EReal} {Y : (⟨2, ![A, B]⟩ : Shape).Idx → EReal}
    (hy : RowsOf e y Y) (o : (⟨1, ![B]⟩ : Shape).Idx → EReal) : RowsOf e (addRow y o) (addRow Y o) :=
  fun p q => by
    show y (ix2 p q) + o (ix1 q) = Y (ix2 (e p) q) + o (ix1 q)
    rw [hy p q]

theorem rowsOf_mapEntries (f : EReal → EReal) {y : (⟨2, ![a, B]⟩ : Shape).Idx → EReal}
    {Y : (⟨2, ![A, B]⟩ : Shape).Idx → EReal} (hy : RowsOf e y Y) : RowsOf e (mapEntries f y) (mapEntries f Y) :=
  fun p q => congrArg f (hy p q)

end Blocks

end Cert.RowLocal

end
-- ==== Proof.LibStages.lean ====
/-
  The network's stages as functions of whole arrays on the extended reals, generic in the number of rows A and the
  lane count C. A layer normalisation of every row (mean and variance by division of the row's sum by n, the
  reciprocal square root of variance plus eps, a scale vector and a shift vector), the gated unit x ↦ x · σ(x), and
  the three things the network computes: the edge message M = GS + (EF·W + b), its gate σ(M) and gated message
  σ(M) · BHG, the edge output EF + silu(LN(M)), and the node output NF + silu(LN((NF·W + b) + NUM / (DEN + δ))).
  Each entry of a stage depends on ONE row of its row-indexed operands, so a block of rows of the operands gives
  that block of rows of the stage.
-/
import proofs.«172384_j69131793596856_2_alg».proof.Proof.LibRowLocal

noncomputable section

open scoped BigOperators

namespace Cert.Stage

open Idealize.ShloMosaic Idealize.ShloMosaic.ValueIdx Cert.Layer Cert.RowLocal

/-- An [A, C] array and a length-C vector of extended reals. -/
abbrev Arr (A C : Nat) : Type := (⟨2, ![A, C]⟩ : Shape).Idx → EReal
abbrev Vec1 (C : Nat) : Type := (⟨1, ![C]⟩ : Shape).Idx → EReal

/-- The three float constants of the network, as extended reals: the lane count 128, the normalisation's 1e-5 and the
    gate's 1e-6 (each the exact value of its binary word). -/
abbrev n128 : EReal := Ideal.ofBits .f32 0x43000000#32
abbrev eps5 : EReal := Ideal.ofBits .f32 0x3727C5AC#32
abbrev eps6 : EReal := Ideal.ofBits .f32 0x358637BD#32

variable {A C : Nat}

/-- The sum of row r. -/
def rowSum (Y : Arr A C) (r : Fin A) : EReal := ∑ k : Fin C, Y (ix2 r k)

/-- Row r's mean: its sum divided by n. -/
def rowMean (n : EReal) (Y : Arr A C) (r : Fin A) : EReal := Ideal.div (rowSum Y r) n

/-- Every entry less its row's mean. -/
def centered (n : EReal) (Y : Arr A C) : Arr A C := fun i => Y i - rowMean n Y (i 0)

/-- Row r's variance: the mean of the squared centered entries. -/
def rowVar (n : EReal) (Y : Arr A C) (r : Fin A) : EReal :=
  Ideal.div (rowSum (fun i => centered n Y i * centered n Y i) r) n

/-- Layer normalisation of every row: (y − mean) · rsqrt(var + eps) · w + b. -/
def lnRows (n eps : EReal) (Y : Arr A C) (w b : Vec1 C) : Arr A C :=
  fun i => centered n Y i * Ideal.rsqrt (rowVar n Y (i 0) + eps) * w (ix1 (i 1)) + b (ix1 (i 1))

/-- x · σ(x). -/
def silu (x : EReal) : EReal := x * Ideal.logistic x

/-- The edge message: the gathered gate sum plus the edge projection EF · W + b. -/
def edgeM (EF GS : Arr A C) (W : Arr C C) (b : Vec1 C) : Arr A C := fun i => GS i + addRow (prod EF W) b i

/-- The gate σ(M). -/
def edgeSig (EF GS : Arr A C) (W : Arr C C) (b : Vec1 C) : Arr A C := fun i => Ideal.logistic (edgeM EF GS W b i)

/-- The gated message σ(M) · BHG. -/
def edgeWt (EF GS : Arr A C) (W : Arr C C) (b : Vec1 C) (BHG : Arr A C) : Arr A C :=
  fun i => edgeSig EF GS W b i * BHG i

/-- The edge output EF + silu(LN(M)). -/
def edgeY (n eps : EReal) (EF GS : Arr A C) (W : Arr C C) (b lnw lnb : Vec1 C) : Arr A C :=
  fun i => EF i + silu (lnRows n eps (edgeM EF GS W b) lnw lnb i)

/-- The node pre-activation (NF · W + b) + NUM / (DEN + δ). -/
def nodeX (δ : EReal) (NF : Arr A C) (W : Arr C C) (b : Vec1 C) (NUM DEN : Arr A C) : Arr A C :=
  fun i => addRow (prod NF W) b i + Ideal.div (NUM i) (DEN i + δ)

/-- The node output NF + silu(LN(X)). -/
def nodeOut (n eps δ : EReal) (NF : Arr A C) (W : Arr C C) (b : Vec1 C) (NUM DEN : Arr A C) (lnw lnb : Vec1 C) : Arr A C :=
  fun i => NF i + silu (lnRows n eps (nodeX δ NF W b NUM DEN) lnw lnb i)

/-! ## Row-locality -/

variable {a : Nat} (e : Fin a → Fin A)

theorem rowSum_rows {y : Arr a C} {Y : Arr A C} (h : RowsOf e y Y) (p : Fin a) : rowSum y p = rowSum Y (e p) :=
  Finset.sum_congr rfl fun k _ => h p k

theorem rowsOf_centered (n : EReal) {y : Arr a C} {Y : Arr A C} (h : RowsOf e y Y) :
    RowsOf e (centered n y) (centered n Y) := fun p q => by
  show y (ix2 p q) - Ideal.div (rowSum y p) n = Y (ix2 (e p) q) - Ideal.div (rowSum Y (e p)) n
  rw [h p q, rowSum_rows e h p]

theorem rowVar_rows (n : EReal) {y : Arr a C} {Y : Arr A C} (h : RowsOf e y Y) (p : Fin a) :
    rowVar n y p = rowVar n Y (e p) := by
  unfold rowVar
  rw [rowSum_rows e (y := fun i => centered n y i * centered n y i) (Y := fun i => centered n Y i * centered n Y i)
    (fun p q => by
      show centered n y (ix2 p q) * centered n y (ix2 p q) = centered n Y (ix2 (e p) q) * centered n Y (ix2 (e p) q)
      rw [rowsOf_centered e n h p q]) p]

theorem rowsOf_lnRows (n eps : EReal) {y : Arr a C} {Y : Arr A C} (h : RowsOf e y Y) (w b : Vec1 C) :
    RowsOf e (lnRows n eps y w b) (lnRows n eps Y w b) := fun p q => by
  show centered n y (ix2 p q) * Ideal.rsqrt (rowVar n y p + eps) * w (ix1 q) + b (ix1 q)
    = centered n Y (ix2 (e p) q) * Ideal.rsqrt (rowVar n Y (e p) + eps) * w (ix1 q) + b (ix1 q)
  rw [rowsOf_centered e n h p q, rowVar_rows e n h p]

theorem rowsOf_edgeM {ef gs : Arr a C} {EF GS : Arr A C} (hef : RowsOf e ef EF) (hgs : RowsOf e gs GS)
    (W : Arr C C) (b : Vec1 C) : RowsOf e (edgeM ef gs W b) (edgeM EF GS W b) := fun p q => by
  show gs (ix2 p q) + addRow (prod ef W) b (ix2 p q) = GS (ix2 (e p) q) + addRow (prod EF W) b (ix2 (e p) q)
  rw [hgs p q, rowsOf_addRow e (rowsOf_prod e hef W) b p q]

theorem rowsOf_edgeSig {ef gs : Arr a C} {EF GS : Arr A C} (hef : RowsOf e ef EF) (hgs : RowsOf e gs GS)
    (W : Arr C C) (b : Vec1 C) : RowsOf e (edgeSig ef gs W b) (edgeSig EF GS W b) := fun p q => by
  show Ideal.logistic (edgeM ef gs W b (ix2 p q)) = Ideal.logistic (edgeM EF GS W b (ix2 (e p) q))
  rw [rowsOf_edgeM e hef hgs W b p q]

theorem rowsOf_edgeWt {ef gs bhg : Arr a C} {EF GS BHG : Arr A C} (hef : RowsOf e ef EF) (hgs : RowsOf e gs GS)
    (hbh : RowsOf e bhg BHG) (W : Arr C C) (b : Vec1 C) :
    RowsOf e (edgeWt ef gs W b bhg) (edgeWt EF GS W b BHG) := fun p q => by
  show edgeSig ef gs W b (ix2 p q) * bhg (ix2 p q) = edgeSig EF GS W b (ix2 (e p) q) * BHG (ix2 (e p) q)
  rw [rowsOf_edgeSig e hef hgs W b p q, hbh p q]

theorem rowsOf_edgeY (n eps : EReal) {ef gs : Arr a C} {EF GS : Arr A C} (hef : RowsOf e ef EF) (hgs : RowsOf e gs GS)
    (W : Arr C C) (b lnw lnb : Vec1 C) :
    RowsOf e (edgeY n eps ef gs W b lnw lnb) (edgeY n eps EF GS W b lnw lnb) := fun p q => by
  show ef (ix2 p q) + silu (lnRows n eps (edgeM ef gs W b) lnw lnb (ix2 p q))
    = EF (ix2 (e p) q) + silu (lnRows n eps (edgeM EF GS W b) lnw lnb (ix2 (e p) q))
  rw [hef p q, rowsOf_lnRows e n eps (rowsOf_edgeM e hef hgs W b) lnw lnb p q]

theorem rowsOf_nodeX (δ : EReal) {nf num den : Arr a C} {NF NUM DEN : Arr A C} (hnf : RowsOf e nf NF)
    (hnum : RowsOf e num NUM) (hden : RowsOf e den DEN) (W : Arr C C) (b : Vec1 C) :
    RowsOf e (nodeX δ nf W b num den) (nodeX δ NF W b NUM DEN) := fun p q => by
  show addRow (prod nf W) b (ix2 p q) + Ideal.div (num (ix2 p q)) (den (ix2 p q) + δ)
    = addRow (prod NF W) b (ix2 (e p) q) + Ideal.div (NUM (ix2 (e p) q)) (DEN (ix2 (e p) q) + δ)
  rw [rowsOf_addRow e (rowsOf_prod e hnf W) b p q, hnum p q, hden p q]

theorem rowsOf_nodeOut (n eps δ : EReal) {nf num den : Arr a C} {NF NUM DEN : Arr A C} (hnf : RowsOf e nf NF)
    (hnum : RowsOf e num NUM) (hden : RowsOf e den DEN) (W : Arr C C) (b lnw lnb : Vec1 C) :
    RowsOf e (nodeOut n eps δ nf W b num den lnw lnb) (nodeOut n eps δ NF W b NUM DEN lnw lnb) := fun p q => by
  show nf (ix2 p q) + silu (lnRows n eps (nodeX δ nf W b num den) lnw lnb (ix2 p q))
    = NF (ix2 (e p) q) + silu (lnRows n eps (nodeX δ NF W b NUM DEN) lnw lnb (ix2 (e p) q))
  rw [hnf p q, rowsOf_lnRows e n eps (rowsOf_nodeX e δ hnf hnum hden W b) lnw lnb p q]

end Cert.Stage

end
-- ==== Proof.KI.Pay0.lean ====
/-
  THE VALUES THE NODE-PROJECTION KERNEL STORES, ON THE EXTENDED REALS. The kernel multiplies its [2000, 128] block by the
  [128, 384] weight into the zero accumulator, adds the [384] bias (seen as one row, spread down the rows), and stores
  the three [2000, 128] column thirds of the result. So the whole [2000, 384] value is the product plus the bias row
  (`pay0_all`), and the third stored at column offset 0, 128, 256 reads, at (p, q), the product's entry
  (p, q + offset) plus the bias entry q + offset (`pay0_0`, `pay0_1`, `pay0_2`). A change of float format is the
  identity on the extended reals, and a cast of an array to its own shape is the array.
-/
import proofs.«172384_j69131793596856_2_alg».proof.Proof.Gen.KernelIdeal.Skeleton
import proofs.«172384_j69131793596856_2_alg».proof.Proof.LibStages

noncomputable section

open scoped BigOperators

namespace Cert.KernelIdeal.Pay

open Cert.KernelIdeal Cert.KernelIdeal.Gen Cert.Stage Cert.Layer Cert.RowLocal Idealize.ShloMosaic Idealize.ShloMosaic.ValueIdx

/-- The [2000, 128] window of a [2000, 384] array at column offset o reads, at (p, q), the array at (p, q + o). -/
theorem third_apply (Z : FVec Ideal S2000x384 .f32) (o : Nat) (ho : o + 128 ≤ 384)
    (hs : S2000x384.Slices ![0, o] S2000x128) (p : Fin 2000) (q : Fin 128) :
    extractStridedSlice S2000x128 ![0, o] Z hs (ix2 p q) = Z (ix2 p (⟨q.val + o, by omega⟩ : Fin 384)) :=
  extractStridedSlice_apply ![0, o] Z hs (ix2 p q) (ix2 p (⟨q.val + o, by omega⟩ : Fin 384)) (fun ax => by
    match ax with
    | ⟨0, _⟩ => show p.val = 0 + p.val; omega
    | ⟨1, _⟩ => show q.val + o = o + q.val; omega)

/-- The whole [2000, 384] value: the block's product with the weight, plus the bias added to every row. -/
theorem pay0_all (x0 : Vec Ideal S2000x128 .f32) (wc : Vec Ideal S128x384 .f32) (bc : Vec Ideal S384 .f32) :
    k0_pay1 (F := Ideal) x0 wc bc = addRow (prod x0 wc) bc := by
  show addf (F := Ideal) (matmul dot_S2000x128_S128x384_S2000x384_1_0_0_1_n_n none
        (truncf .bf16 (x0 : FVec Ideal S2000x128 .f32) bitsLt_bf16_f32)
        (truncf .bf16 (shapeCast S128x384 (wc : FVec Ideal S128x384 .f32) shapeCasts_S128x384_S128x384) bitsLt_bf16_f32)
        (constant S2000x384 .f32 0x00000000#32))
      (broadcastTo S2000x384 (shapeCast S1x384 (shapeCast S384 (bc : FVec Ideal S384 .f32) shapeCasts_S384_S384)
        shapeCasts_S384_S1x384) broadcasts_S1x384_S2000x384)
    = addRow (prod x0 wc) bc
  rw [shapeCast_self, shapeCast_self,
    kernelProd_eq dot_S2000x128_S128x384_S2000x384_1_0_0_1_n_n rfl rfl rfl rfl rfl rfl]
  exact kernelAddRow_eq _ bc shapeCasts_S384_S1x384 broadcasts_S1x384_S2000x384

theorem pay0_0 (x0 : Vec Ideal S2000x128 .f32) (wc : Vec Ideal S128x384 .f32) (bc : Vec Ideal S384 .f32)
    (p : Fin 2000) (q : Fin 128) :
    k0_pay2 (F := Ideal) x0 wc bc (ix2 p q)
      = (∑ k : Fin 128, x0 (ix2 p k) * wc (ix2 k (⟨q.val, by omega⟩ : Fin 384)))
        + bc (ix1 (⟨q.val, by omega⟩ : Fin 384)) := by
  have h : k0_pay2 (F := Ideal) x0 wc bc
      = extractStridedSlice S2000x128 ![0, 0] (k0_pay1 (F := Ideal) x0 wc bc) slices_S2000x384_o0_0_S2000x128 := rfl
  rw [h, third_apply _ 0 (by omega), pay0_all]
  rfl

theorem pay0_1 (x0 : Vec Ideal S2000x128 .f32) (wc : Vec Ideal S128x384 .f32) (bc : Vec Ideal S384 .f32)
    (p : Fin 2000) (q : Fin 128) :
    k0_pay3 (F := Ideal) x0 wc bc (ix2 p q)
      = (∑ k : Fin 128, x0 (ix2 p k) * wc (ix2 k (⟨q.val + 128, by omega⟩ : Fin 384)))
        + bc (ix1 (⟨q.val + 128, by omega⟩ : Fin 384)) := by
  have h : k0_pay3 (F := Ideal) x0 wc bc
      = extractStridedSlice S2000x128 ![0, 128] (k0_pay1 (F := Ideal) x0 wc bc) slices_S2000x384_o0_128_S2000x128 := rfl
  rw [h, third_apply _ 128 (by omega), pay0_all]
  rfl

theorem pay0_2 (x0 : Vec Ideal S2000x128 .f32) (wc : Vec Ideal S128x384 .f32) (bc : Vec Ideal S384 .f32)
    (p : Fin 2000) (q : Fin 128) :
    k0_pay4 (F := Ideal) x0 wc bc (ix2 p q)
      = (∑ k : Fin 128, x0 (ix2 p k) * wc (ix2 k (⟨q.val + 256, by omega⟩ : Fin 384)))
        + bc (ix1 (⟨q.val + 256, by omega⟩ : Fin 384)) := by
  have h : k0_pay4 (F := Ideal) x0 wc bc
      = extractStridedSlice S2000x128 ![0, 256] (k0_pay1 (F := Ideal) x0 wc bc) slices_S2000x384_o0_256_S2000x128 := rfl
  rw [h, third_apply _ 256 (by omega), pay0_all]
  rfl

end Cert.KernelIdeal.Pay

end
-- ==== Proof.KI.Blocks0.lean ====
/-
  The node-projection region's three result arrays as whole-array functions. A grid point t writes rows
  2000·t … 2000·t + 1999 of each result; its input blocks are those rows of the node features and the whole of the
  concatenated weight and bias. Column q of result j is the row's product with column q + 128·j of the weight plus
  entry q + 128·j of the bias; the 25 blocks cover all 50000 rows.
-/
import proofs.«172384_j69131793596856_2_alg».proof.Proof.KI.Region0
import proofs.«172384_j69131793596856_2_alg».proof.Proof.KI.Pay0
import proofs.«172384_j69131793596856_2_alg».proof.Proof.LibStages
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Pay Cert.Stage
open Idealize.ShloMosaic Idealize.ShloMosaic.TcCoe Idealize.ShloMosaic.ValueIdx Idealize.SL.Sem
open Idealize.ShloMosaic.Pipeline (Dat)

/-- Columns off … off + 127 of X · Wc + bc, for a [128, 384] weight and a [384] bias. -/
def projCols {A : Nat} (off : Nat) (hoff : off + 128 ≤ 384) (X : Arr A 128) (Wc : Arr 128 384) (bc : Vec1 384) : Arr A 128 :=
  fun i => (∑ k : Fin 128, X (ix2 (i 0) k) * Wc (ix2 k (⟨(i 1).val + off, by have h : (i 1).val < 128 := (i 1).isLt; omega⟩ : Fin 384)))
    + bc (ix1 (⟨(i 1).val + off, by have h : (i 1).val < 128 := (i 1).isLt; omega⟩ : Fin 384))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, everything else at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ t.val < 25 :=
  (by decide +kernel : ∀ t : Fin grid0.N, _)

variable (V : (c : Dev nD) → (b : Ref sig .tc) → Buf (Elt Ideal) ((c : Thread nD τ).loc b))

/-- Row p of grid point t's block is row 2000·t + p of the array. -/
def row0 (t : Fin cfg0.N) (p : Fin 2000) : Fin 50000 := ⟨t.val * 2000 + p.val, by have := (idx0 t).2.2.2.2.2.2.2.2.2.2.2; have := p.isLt; omega⟩

theorem blk0_0 (c : Dev nD) (t : Fin cfg0.N) (p : Fin 2000) (k : Fin 128) :
    iblk0 V c 0 t (ix2 p k) = (V c main_arg0 : S50000x128.Idx → EReal) (ix2 (row0 t p) k) := by
  show (V c main_arg0 : S50000x128.Idx → EReal) (((cfg0.win 0).blk t).view.emb (ix2 p k)) = _
  refine congrArg _ ?_
  obtain ⟨e0, e1, -⟩ := idx0 t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk0_1 (c : Dev nD) (t : Fin cfg0.N) (k : Fin 128) (q : Fin 384) :
    iblk0 V c 1 t (ix2 k q) = (V c main_v0 : S128x384.Idx → EReal) (ix2 k q) := by
  show (V c main_v0 : S128x384.Idx → EReal) (((cfg0.win 1).blk t).view.emb (ix2 k q)) = _
  refine congrArg _ ?_
  obtain ⟨-, -, e2, e3, -⟩ := idx0 t
  funext a; apply Fin.ext
  match a with
  | ⟨0, _⟩ => show win0_1.index t (0 : Fin 2) * 128 + 1 * k.val = k.val; omega
  | ⟨1, _⟩ => show win0_1.index t (1 : Fin 2) * 384 + 1 * q.val = q.val; omega

theorem blk0_2 (c : Dev nD) (t : Fin cfg0.N) (q : Fin 384) :
    iblk0 V c 2 t (ix1 q) = (V c main_v1 : S384.Idx → EReal) (ix1 q) := by
  show (V c main_v1 : S384.Idx → EReal) (((cfg0.win 2).blk t).view.emb (ix1 q)) = _
  refine congrArg _ ?_
  obtain ⟨-, -, -, -, e4, -⟩ := idx0 t
  funext a; apply Fin.ext
  match a with
  | ⟨0, _⟩ => show win0_2.index t (0 : Fin 1) * 384 + 1 * q.val = q.val; omega

/-- Where an entry of grid point t's output block sits in the array (the three output windows move alike). -/
theorem emb0_3 (t : Fin cfg0.N) (p : Fin 2000) (q : Fin 128) : ((cfg0.win 3).blk t).view.emb (ix2 p q) = ix2 (row0 t p) q := by
  obtain ⟨-, -, -, -, -, e5, e6, -⟩ := idx0 t
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega
theorem emb0_4 (t : Fin cfg0.N) (p : Fin 2000) (q : Fin 128) : ((cfg0.win 4).blk t).view.emb (ix2 p q) = ix2 (row0 t p) q := by
  obtain ⟨-, -, -, -, -, -, -, e7, e8, -⟩ := idx0 t
  funext a; apply Fin.ext
  match a with
  | ⟨0, _⟩ => show win0_4.index t (0 : Fin 2) * 2000 + 1 * p.val = t.val * 2000 + p.val; omega
  | ⟨1, _⟩ => show win0_4.index t (1 : Fin 2) * 128 + 1 * q.val = q.val; omega
theorem emb0_5 (t : Fin cfg0.N) (p : Fin 2000) (q : Fin 128) : ((cfg0.win 5).blk t).view.emb (ix2 p q) = ix2 (row0 t p) q := by
  obtain ⟨-, -, -, -, -, -, -, -, -, e9, e10, -⟩ := idx0 t
  funext a; apply Fin.ext
  match a with
  | ⟨0, _⟩ => show win0_5.index t (0 : Fin 2) * 2000 + 1 * p.val = t.val * 2000 + p.val; omega
  | ⟨1, _⟩ => show win0_5.index t (1 : Fin 2) * 128 + 1 * q.val = q.val; omega

/-- One projected entry computed from a block whose rows are rows of X and whose weight and bias are W and b. -/
theorem entry0 {A : Nat} (x0 : Arr 2000 128) (x1 W : Arr 128 384) (x2 b : Vec1 384) (X : Arr A 128) (r : Fin A)
    (p : Fin 2000) (q : Fin 128) (off : Nat) (hoff : off + 128 ≤ 384)
    (h0 : ∀ k, x0 (ix2 p k) = X (ix2 r k)) (h1 : ∀ k q', x1 (ix2 k q') = W (ix2 k q')) (h2 : ∀ q', x2 (ix1 q') = b (ix1 q')) :
    (∑ k : Fin 128, x0 (ix2 p k) * x1 (ix2 k (⟨q.val + off, by have := q.isLt; omega⟩ : Fin 384)))
        + x2 (ix1 (⟨q.val + off, by have := q.isLt; omega⟩ : Fin 384))
      = projCols off hoff X W b (ix2 r q) := by
  rw [h2]
  refine congrArg (· + _) (Finset.sum_congr rfl fun k _ => ?_)
  rw [h0, h1]; rfl

theorem flushed0_3_eq (c : Dev nD) (t : Fin cfg0.N) :
    (dat0 V c).flushed 3 t = ((cfg0.win 3).blk t).view.read (Elt Ideal)
      (projCols 0 (by omega) (V c main_arg0 : S50000x128.Idx → EReal) (V c main_v0 : S128x384.Idx → EReal) (V c main_v1 : S384.Idx → EReal)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x384) hz2, View.ld_unit_zero (S := S384) hz1]
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 2 t) (ix2 p q)
    = projCols 0 (by omega) (V c main_arg0 : S50000x128.Idx → EReal) (V c main_v0 : S128x384.Idx → EReal) (V c main_v1 : S384.Idx → EReal) (((cfg0.win 3).blk t).view.emb (ix2 p q))
  rw [emb0_3]
  exact (pay0_0 _ _ _ p q).trans (entry0 (iblk0 V c 0 t) (iblk0 V c 1 t) _ (iblk0 V c 2 t) _ _ (row0 t p) p q 0 (by omega)
    (fun k => blk0_0 V c t p k) (fun k q' => blk0_1 V c t k q') (fun q' => blk0_2 V c t q'))

/-- An index of the array is in grid point t's block of window 3 iff each coordinate is in the block's range. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v2_0).slice (win0_3.rect t)).set ↔ _
  rw [View.set_slice_whole, Rect.mem_set_unit]
  exact Iff.rfl

/-- Row r of the array lies in the block of grid point r / 2000. -/
theorem covered0_3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, e5, e6, e7, e8, e9, e10, -⟩ := idx0 t
  have ht : t.val = (i 0).val / 2000 := rfl
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- Result 0 of the region, whole: columns 0 … 127 of features · weight + bias. -/
theorem arr0_3 (c : Dev nD) : (dat0 V c).arrAt 3 cfg0.N
    = projCols 0 (by omega) (V c main_arg0 : S50000x128.Idx → EReal) (V c main_v0 : S128x384.Idx → EReal) (V c main_v1 : S384.Idx → EReal) :=
  (dat0 V c).arrAt_eq_of_cover 3 _ (fun t _ => flushed0_3_eq V c t) covered0_3

theorem flushed0_4_eq (c : Dev nD) (t : Fin cfg0.N) :
    (dat0 V c).flushed 4 t = ((cfg0.win 4).blk t).view.read (Elt Ideal)
      (projCols 128 (by omega) (V c main_arg0 : S50000x128.Idx → EReal) (V c main_v0 : S128x384.Idx → EReal) (V c main_v1 : S384.Idx → EReal)) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x384) hz2, View.ld_unit_zero (S := S384) hz1]
  funext j
  obtain ⟨p, q, rfl⟩ : ∃ (p : Fin 2000) (q : Fin 128), j = ix2 p q := ⟨j 0, j 1, eq_ix2 j⟩
  show k0_pay3 (F := Ideal) (iblk0 V c 0 t) (iblk0 V c 1 t) (iblk0 V c 2 t) (ix2 p q)
    = projCols 128 (by omega) (V c main_arg0 : S50000x128.Idx → EReal) (V c main_v0 : S128x384.Idx → EReal) (V c main_v1 : S384.Idx → EReal) (((cfg0.win 4).blk t).view.emb (ix2 p q))
  rw [emb0_4]
  exact (pay0_1 _ _ _ p q).trans (entry0 (iblk0 V c 0 t) (iblk0 V c 1 t) _ (iblk0 V c 2 t) _ _ (row0 t p) p q 128 (by omega)
    (fun k => blk0_0 V c t p k) (fun k q' => blk0_1 V c t k q') (fun q' => blk0_2 V c t q'))

/-- An index of the array is in grid point t's block of window 4 iff each coordinate is in the block's range. -/
theorem mem_blk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v2_1).slice (win0_4.rect t)).set ↔ _
  rw [View.set_slice_whole, Rect.mem_set_unit]
  exact Iff.rfl

/-- Row r of the array lies in the block of grid point r / 2000. -/
theorem covered0_4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, e5, e6, e7, e8, e9, e10, -⟩ := idx0 t
  have ht : t.val = (i 0).val / 2000 := rfl
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- Result 1 of the region, whole: columns 128 … 255 of features · weight + bias. -/
theorem arr0_4 (c : Dev nD) : (dat0 V c).arrAt 4 cfg0.N
    = projCols 128 (by omega) (V c main_arg0 : S50000x128.Idx → EReal) (V c main_v0 : S128x384.Idx → EReal) (V c main_v1 : S384.Idx → EReal) :=
  (dat0 V c).arrAt_eq_of_cover 4 _ (fun t _ => flushed0_4_eq V c t) covered0_4

theorem flushed0_5_eq (c : Dev nD) (t : Fin cfg0.N) :
    (dat0 V c).flushed 5 t = ((cfg0.win 5).blk t).view.read (Elt Ideal)
      (projCols 256 (by omega) (V c main_arg0 : S50000x128.Idx → EReal) (V c main_v0 : S128x384.Idx → EReal) (V c main_v1 : S384.Idx → EReal)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x384) hz2, View.ld_unit_zero (S := S384) hz1]
  funext j
  obtain ⟨p, q, rfl⟩ : ∃ (p : Fin 2000) (q : Fin 128), j = ix2 p q := ⟨j 0, j 1, eq_ix2 j⟩
  show k0_pay4 (F := Ideal) (iblk0 V c 0 t) (iblk0 V c 1 t) (iblk0 V c 2 t) (ix2 p q)
    = projCols 256 (by omega) (V c main_arg0 : S50000x128.Idx → EReal) (V c main_v0 : S128x384.Idx → EReal) (V c main_v1 : S384.Idx → EReal) (((cfg0.win 5).blk t).view.emb (ix2 p q))
  rw [emb0_5]
  exact (pay0_2 _ _ _ p q).trans (entry0 (iblk0 V c 0 t) (iblk0 V c 1 t) _ (iblk0 V c 2 t) _ _ (row0 t p) p q 256 (by omega)
    (fun k => blk0_0 V c t p k) (fun k q' => blk0_1 V c t k q') (fun q' => blk0_2 V c t q'))

/-- An index of the array is in grid point t's block of window 5 iff each coordinate is in the block's range. -/
theorem mem_blk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v2_2).slice (win0_5.rect t)).set ↔ _
  rw [View.set_slice_whole, Rect.mem_set_unit]
  exact Iff.rfl

/-- Row r of the array lies in the block of grid point r / 2000. -/
theorem covered0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, e5, e6, e7, e8, e9, e10, -⟩ := idx0 t
  have ht : t.val = (i 0).val / 2000 := rfl
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- Result 2 of the region, whole: columns 256 … 383 of features · weight + bias. -/
theorem arr0_5 (c : Dev nD) : (dat0 V c).arrAt 5 cfg0.N
    = projCols 256 (by omega) (V c main_arg0 : S50000x128.Idx → EReal) (V c main_v0 : S128x384.Idx → EReal) (V c main_v1 : S384.Idx → EReal) :=
  (dat0 V c).arrAt_eq_of_cover 5 _ (fun t _ => flushed0_5_eq V c t) covered0_5

end Cert.KernelIdeal.Hand

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibKernelLN.lean ====
/-
  A KERNEL'S SPELLING OF A ROW-WISE LAYER NORMALISATION IS THE STAGE, generic in the row count a and the lane count c.

  A kernel takes a row's mean as a lane sum (a reduction of axis 1 from the zero word) seen as an [a, 1] column and
  divided by a broadcast scalar n; it spreads that column back over the c lanes and subtracts; the variance is the same
  lane mean of the squared differences, and the reciprocal square root of variance plus eps is again an [a, 1] column
  spread over the lanes; the scale and the shift are vectors seen as one row and spread down the rows. Read at (p, q):

  * the lane sum at row p is the sum over k of Y(p, k)                      (`laneSum_apply`);
  * the mean column at (p, 0) is the row's mean                             (`kMeanCol_apply`);
  * the difference is `centered`                                            (`kCentered_eq`);
  * the reciprocal-root column at (p, 0) is rsqrt(var(p) + eps)             (`kRstdCol_apply`);
  * the whole spelling is `lnRows`                                          (`kLN_eq`);
  * x0 + L · σ(L) entry by entry is x0 + silu(L)                            (`kSiluRes_apply`).

  Nothing here depends on a program.
-/
import proofs.«172384_j69131793596856_2_alg».proof.Proof.LibStages
import proofs.«172384_j69131793596856_2_alg».proof.Proof.LibKeepdims

noncomputable section

open scoped BigOperators

namespace Cert.Stage

open Idealize.ShloMosaic Idealize.ShloMosaic.ValueIdx Cert.Layer Cert.RowLocal

variable {a c : Nat}

/-- Over the row index (r), the index with lane k put back on axis 1 is (r, k). -/
theorem lift_row (h : (⟨2, ![a, c]⟩ : Shape).Reduces [1] ⟨1, ![a]⟩) (r : Fin a) (k : Fin c) :
    h.lift (ix1 r) k = ix2 r k := by
  funext d
  apply Fin.ext
  match d with
  | ⟨0, _⟩ => rfl
  | ⟨1, _⟩ => rfl

/-- A kernel's lane sum (the reduction of axis 1 from the zero word) at row r is the sum of row r. -/
theorem laneSum_apply (Y : FVec Ideal ⟨2, ![a, c]⟩ .f32) (h : (⟨2, ![a, c]⟩ : Shape).Reduces [1] ⟨1, ![a]⟩)
    (hφ : FKind.Formats .f32) (hacc : (0x00000000#32 : BitVec 32) = FKind.add.neutral .f32 hφ) (r : Fin a) :
    multiReduction .add [1] ⟨1, ![a]⟩ Y 0x00000000#32 h hφ hacc (ix1 r) = rowSum Y r :=
  (Ideal.multiReduction_add_single Y _ h hφ hacc (ix1 r)).trans
    (Finset.sum_congr rfl fun k _ => congrArg Y (lift_row h r k))

section Spelling
variable (n eps : Ideal .f32) (Y : FVec Ideal ⟨2, ![a, c]⟩ .f32)
  (hr : (⟨2, ![a, c]⟩ : Shape).Reduces [1] ⟨1, ![a]⟩) (hφ : FKind.Formats .f32)
  (hacc : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, c]⟩)

/-- The column of lane means of Z: the lane sum seen as a column, divided by the broadcast scalar n. -/
def kLaneMeanCol (Z : FVec Ideal ⟨2, ![a, c]⟩ .f32) : FVec Ideal ⟨2, ![a, 1]⟩ .f32 :=
  divf (shapeCast ⟨2, ![a, 1]⟩ (multiReduction .add [1] ⟨1, ![a]⟩ Z 0x00000000#32 hr hφ hacc) hc)
    (broadcast ⟨2, ![a, 1]⟩ n)

theorem kLaneMeanCol_apply (Z : FVec Ideal ⟨2, ![a, c]⟩ .f32) (p : Fin a) (u : Fin 1) :
    kLaneMeanCol n hr hφ hacc hc Z (ix2 p u) = Ideal.div (rowSum Z p) n := by
  show Ideal.div (shapeCast ⟨2, ![a, 1]⟩ (multiReduction .add [1] ⟨1, ![a]⟩ Z 0x00000000#32 hr hφ hacc) hc (ix2 p u)) n
    = Ideal.div (rowSum Z p) n
  rw [Cert.LibKeepdims.shapeCast_a_a1_apply, laneSum_apply]

/-- Every entry less its row's lane mean, the mean column spread over the lanes. -/
def kCentered : FVec Ideal ⟨2, ![a, c]⟩ .f32 :=
  subf Y (broadcastTo ⟨2, ![a, c]⟩ (kLaneMeanCol n hr hφ hacc hc Y) hb)

theorem kCentered_eq : kCentered n Y hr hφ hacc hc hb = centered n Y :=
  funext fun i => by
    obtain ⟨p, q, rfl⟩ : ∃ (p : Fin a) (q : Fin c), i = ix2 p q := ⟨i 0, i 1, eq_ix2 i⟩
    show Y (ix2 p q) - broadcastTo ⟨2, ![a, c]⟩ (kLaneMeanCol n hr hφ hacc hc Y) hb (ix2 p q)
      = Y (ix2 p q) - Ideal.div (rowSum Y p) n
    rw [Cert.LibKeepdims.broadcastTo_a1_ab_apply, kLaneMeanCol_apply]

/-- The column rsqrt(lane mean of D · D + eps), the eps a broadcast scalar. -/
def kRstdColOf (D : FVec Ideal ⟨2, ![a, c]⟩ .f32) : FVec Ideal ⟨2, ![a, 1]⟩ .f32 :=
  rsqrt (addf (kLaneMeanCol n hr hφ hacc hc (mulf D D)) (broadcast ⟨2, ![a, 1]⟩ eps))

theorem kRstdColOf_centered_apply (p : Fin a) (u : Fin 1) :
    kRstdColOf n eps hr hφ hacc hc (kCentered n Y hr hφ hacc hc hb) (ix2 p u) = Ideal.rsqrt (rowVar n Y p + eps) := by
  rw [kCentered_eq]
  show Ideal.rsqrt (kLaneMeanCol n hr hφ hacc hc (mulf (centered n Y) (centered n Y)) (ix2 p u) + eps)
    = Ideal.rsqrt (rowVar n Y p + eps)
  rw [kLaneMeanCol_apply]
  rfl

variable (w b : FVec Ideal ⟨1, ![c]⟩ .f32) (hcw : (⟨1, ![c]⟩ : Shape).ShapeCasts ⟨2, ![1, c]⟩)
  (hbw : (⟨2, ![1, c]⟩ : Shape).Broadcasts ⟨2, ![a, c]⟩)

/-- The normalised, scaled array: D · (rstd column over the lanes) · (scale row down the rows), D the centered array. -/
def kLNScaled : FVec Ideal ⟨2, ![a, c]⟩ .f32 :=
  mulf (mulf (kCentered n Y hr hφ hacc hc hb)
      (broadcastTo ⟨2, ![a, c]⟩ (kRstdColOf n eps hr hφ hacc hc (kCentered n Y hr hφ hacc hc hb)) hb))
    (broadcastTo ⟨2, ![a, c]⟩ (shapeCast ⟨2, ![1, c]⟩ w hcw) hbw)

/-- … and the shift row added down the rows. -/
def kLN : FVec Ideal ⟨2, ![a, c]⟩ .f32 :=
  addf (kLNScaled n eps Y hr hφ hacc hc hb w hcw hbw) (broadcastTo ⟨2, ![a, c]⟩ (shapeCast ⟨2, ![1, c]⟩ b hcw) hbw)

/-- A kernel's spelling of the layer normalisation is `lnRows`. -/
theorem kLN_eq : kLN n eps Y hr hφ hacc hc hb w b hcw hbw = lnRows n eps Y w b :=
  funext fun i => by
    obtain ⟨p, q, rfl⟩ : ∃ (p : Fin a) (q : Fin c), i = ix2 p q := ⟨i 0, i 1, eq_ix2 i⟩
    show kCentered n Y hr hφ hacc hc hb (ix2 p q)
          * broadcastTo ⟨2, ![a, c]⟩ (kRstdColOf n eps hr hφ hacc hc (kCentered n Y hr hφ hacc hc hb)) hb (ix2 p q)
          * broadcastTo ⟨2, ![a, c]⟩ (shapeCast ⟨2, ![1, c]⟩ w hcw) hbw (ix2 p q)
        + broadcastTo ⟨2, ![a, c]⟩ (shapeCast ⟨2, ![1, c]⟩ b hcw) hbw (ix2 p q)
      = centered n Y (ix2 p q) * Ideal.rsqrt (rowVar n Y p + eps) * w (ix1 q) + b (ix1 q)
    rw [Cert.LibKeepdims.broadcastTo_a1_ab_apply, kRstdColOf_centered_apply, broadcastTo_1b_ab_apply,
      broadcastTo_1b_ab_apply, shapeCast_a_1a_apply, shapeCast_a_1a_apply, kCentered_eq]

end Spelling

/-- x0 + L · σ(L), entry by entry. -/
def kSiluRes (X0 L : FVec Ideal ⟨2, ![a, c]⟩ .f32) : FVec Ideal ⟨2, ![a, c]⟩ .f32 := addf X0 (mulf L (logistic L))

theorem kSiluRes_apply (X0 L : FVec Ideal ⟨2, ![a, c]⟩ .f32) (i : (⟨2, ![a, c]⟩ : Shape).Idx) :
    kSiluRes X0 L i = X0 i + silu (L i) := rfl

end Cert.Stage

end
-- ==== Proof.KI.Pay1.lean ====
/-
  THE VALUES THE EDGE KERNEL STORES, ON THE EXTENDED REALS. On its [2400, 128] block the kernel forms the message
  M = x9 + (x0 · w + b), stores the gate σ(M) and the gated message σ(M) · x16, normalises every row of M (lane mean by
  division of the lane sum by 128, the reciprocal square root of the lane variance plus 1e-5, the scale and shift
  rows), and stores x0 + L · σ(L), L the normalised array. Those are the stages `edgeSig`, `edgeWt` and `edgeY` of
  the block. A change of float format is the identity on the extended reals, and a cast of an array to its own shape
  is the array.
-/
import proofs.«172384_j69131793596856_2_alg».proof.Proof.Gen.KernelIdeal.Skeleton
import proofs.«172384_j69131793596856_2_alg».proof.Proof.LibStages
import proofs.«172384_j69131793596856_2_alg».proof.Proof.LibKernelLN

noncomputable section

open scoped BigOperators

namespace Cert.KernelIdeal.Pay

open Cert.KernelIdeal Cert.KernelIdeal.Gen Cert.Stage Cert.Layer Cert.RowLocal Idealize.ShloMosaic Idealize.ShloMosaic.ValueIdx

/-- The kernel's message is the stage's: x9 + (x0 · w + b). -/
theorem pay1_m (x0 : Vec Ideal S2400x128 .f32) (x9 : Vec Ideal S2400x128 .bf16) (w : Vec Ideal S128x128 .f32)
    (b : Vec Ideal S128 .f32) : k1_pay2 (F := Ideal) x0 w b x9 = edgeM x0 x9 w b := by
  show addf (F := Ideal) (extf .f32 (shapeCast S2400x128 (x9 : FVec Ideal S2400x128 .bf16) shapeCasts_S2400x128_S2400x128) bitsLt_bf16_f32)
      (addf (matmul dot_S2400x128_S128x128_S2400x128_1_0_0_1_n_n none (truncf .bf16 (x0 : FVec Ideal S2400x128 .f32) bitsLt_bf16_f32)
          (truncf .bf16 (w : FVec Ideal S128x128 .f32) bitsLt_bf16_f32) (constant S2400x128 .f32 0x00000000#32))
        (broadcastTo S2400x128 (shapeCast S1x128 (b : FVec Ideal S128 .f32) shapeCasts_S128_S1x128) broadcasts_S1x128_S2400x128))
    = edgeM x0 x9 w b
  rw [shapeCast_self, kernelProd_eq dot_S2400x128_S128x128_S2400x128_1_0_0_1_n_n rfl rfl rfl rfl rfl rfl,
    kernelAddRow_eq _ b shapeCasts_S128_S1x128 broadcasts_S1x128_S2400x128]
  rfl

theorem pay1_sig (x0 : Vec Ideal S2400x128 .f32) (x9 : Vec Ideal S2400x128 .bf16) (w : Vec Ideal S128x128 .f32)
    (b : Vec Ideal S128 .f32) : k1_pay4 (F := Ideal) x0 w b x9 = edgeSig x0 x9 w b := by
  show truncf (F := Ideal) .bf16 (logistic (k1_pay2 (F := Ideal) x0 w b x9)) bitsLt_bf16_f32 = edgeSig x0 x9 w b
  rw [pay1_m]
  rfl

theorem pay1_wt (x0 : Vec Ideal S2400x128 .f32) (x9 : Vec Ideal S2400x128 .bf16) (w : Vec Ideal S128x128 .f32)
    (b : Vec Ideal S128 .f32) (x16 : Vec Ideal S2400x128 .bf16) :
    k1_pay5 (F := Ideal) x0 w b x9 x16 = edgeWt x0 x9 w b x16 := by
  show truncf (F := Ideal) .bf16 (mulf (logistic (k1_pay2 (F := Ideal) x0 w b x9))
      (extf .f32 (shapeCast S2400x128 (x16 : FVec Ideal S2400x128 .bf16) shapeCasts_S2400x128_S2400x128) bitsLt_bf16_f32)) bitsLt_bf16_f32
    = edgeWt x0 x9 w b x16
  rw [pay1_m, shapeCast_self]
  rfl

/-- The stored edge output is x0 + L · σ(L), L the kernel's normalisation of its message. -/
theorem pay1_spelt (x0 : Vec Ideal S2400x128 .f32) (x9 : Vec Ideal S2400x128 .bf16) (w : Vec Ideal S128x128 .f32)
    (b lnw lnb : Vec Ideal S128 .f32) :
    k1_pay1 (F := Ideal) x0 (k1_pay7 x0 w b x9) (k1_pay8 x0 w b x9) lnw lnb
      = kSiluRes x0 (kLN n128 eps5 (k1_pay2 (F := Ideal) x0 w b x9) reduces_S2400x128_S2400 (.inl rfl) rfl
          shapeCasts_S2400_S2400x1 broadcasts_S2400x1_S2400x128 lnw lnb shapeCasts_S128_S1x128
          broadcasts_S1x128_S2400x128) := rfl

theorem pay1_y (x0 : Vec Ideal S2400x128 .f32) (x9 : Vec Ideal S2400x128 .bf16) (w : Vec Ideal S128x128 .f32)
    (b lnw lnb : Vec Ideal S128 .f32) :
    k1_pay1 (F := Ideal) x0 (k1_pay7 x0 w b x9) (k1_pay8 x0 w b x9) lnw lnb = edgeY n128 eps5 x0 x9 w b lnw lnb := by
  refine (pay1_spelt x0 x9 w b lnw lnb).trans ?_
  refine (congrArg (kSiluRes x0) (kLN_eq n128 eps5 (k1_pay2 (F := Ideal) x0 w b x9) reduces_S2400x128_S2400 (.inl rfl) rfl
    shapeCasts_S2400_S2400x1 broadcasts_S2400x1_S2400x128 lnw lnb shapeCasts_S128_S1x128
    broadcasts_S1x128_S2400x128)).trans ?_
  rw [pay1_m]
  rfl

end Cert.KernelIdeal.Pay

end
-- ==== Proof.KI.Blocks1.lean ====
/-
  The edge region's three result arrays as whole-array functions. A grid point t writes rows 2400·t … 2400·t + 2399
  of each result; its input blocks are those rows of the edge features, of the gathered gate sum and of the gathered
  message source, and the whole of the weight, the bias and the normalisation's scale and shift. Each entry of the
  edge output, of the gate and of the gated message depends on one row of its row-indexed operands, so what a grid
  point writes is its rows of the stage of the whole arrays; the 250 blocks cover all 600000 rows.
-/
import proofs.«172384_j69131793596856_2_alg».proof.Proof.KI.Region1
import proofs.«172384_j69131793596856_2_alg».proof.Proof.KI.Pay1
import proofs.«172384_j69131793596856_2_alg».proof.Proof.LibStages
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Pay Cert.Stage Cert.RowLocal
open Idealize.ShloMosaic Idealize.ShloMosaic.TcCoe Idealize.ShloMosaic.ValueIdx Idealize.SL.Sem
open Idealize.ShloMosaic.Pipeline (Dat)

theorem r1_hz2 : (![0, 0] : Fin 2 → Nat) = fun _ => 0 := funext fun a => by fin_cases a <;> rfl
theorem r1_hz1 : (![0] : Fin 1 → Nat) = fun _ => 0 := funext fun a => by fin_cases a; rfl

/-- The index maps over the grid. The three row-blocked input windows sit at block row t; -/
theorem idx1a : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 ∧ t.val < 250 :=
  (by decide +kernel : ∀ t : Fin grid1.N, _)
/-- the weight, the bias, the scale and the shift at the origin; -/
theorem idx1b : ∀ t : Fin cfg1.N, win1_3.index t (0 : Fin 2) = 0 ∧ win1_3.index t (1 : Fin 2) = 0
    ∧ win1_4.index t (0 : Fin 1) = 0 ∧ win1_5.index t (0 : Fin 1) = 0 ∧ win1_6.index t (0 : Fin 1) = 0 :=
  (by decide +kernel : ∀ t : Fin grid1.N, _)
/-- and the three output windows at block row t. -/
theorem idx1c : ∀ t : Fin cfg1.N, win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

variable (V : (c : Dev nD) → (b : Ref sig .tc) → Buf (Elt Ideal) ((c : Thread nD τ).loc b))

/-- Row p of grid point t's block is row 2400·t + p of the array. -/
def row1 (t : Fin cfg1.N) (p : Fin 2400) : Fin 600000 :=
  ⟨t.val * 2400 + p.val, by have := (idx1a t).2.2.2.2.2.2; have := p.isLt; omega⟩

/-! ## The input blocks read where they sit in their arrays -/

theorem blk1_0 (c : Dev nD) (t : Fin cfg1.N) (p : Fin 2400) (k : Fin 128) :
    iblk1 V c 0 t (ix2 p k) = (V c main_arg1 : S600000x128.Idx → EReal) (ix2 (row1 t p) k) := by
  show (V c main_arg1 : S600000x128.Idx → EReal) (((cfg1.win 0).blk t).view.emb (ix2 p k)) = _
  refine congrArg _ ?_
  obtain ⟨e0, e1, -, -, -, -, -⟩ := idx1a t
  funext a; apply Fin.ext
  match a with
  | ⟨0, _⟩ => show win1_0.index t (0 : Fin 2) * 2400 + 1 * p.val = t.val * 2400 + p.val; omega
  | ⟨1, _⟩ => show win1_0.index t (1 : Fin 2) * 128 + 1 * k.val = k.val; omega

theorem blk1_1 (c : Dev nD) (t : Fin cfg1.N) (p : Fin 2400) (k : Fin 128) :
    iblk1 V c 1 t (ix2 p k) = (V c main_v18 : S600000x128.Idx → EReal) (ix2 (row1 t p) k) := by
  show (V c main_v18 : S600000x128.Idx → EReal) (((cfg1.win 1).blk t).view.emb (ix2 p k)) = _
  refine congrArg _ ?_
  obtain ⟨-, -, e2, e3, -, -, -⟩ := idx1a t
  funext a; apply Fin.ext
  match a with
  | ⟨0, _⟩ => show win1_1.index t (0 : Fin 2) * 2400 + 1 * p.val = t.val * 2400 + p.val; omega
  | ⟨1, _⟩ => show win1_1.index t (1 : Fin 2) * 128 + 1 * k.val = k.val; omega

theorem blk1_2 (c : Dev nD) (t : Fin cfg1.N) (p : Fin 2400) (k : Fin 128) :
    iblk1 V c 2 t (ix2 p k) = (V c main_v26 : S600000x128.Idx → EReal) (ix2 (row1 t p) k) := by
  show (V c main_v26 : S600000x128.Idx → EReal) (((cfg1.win 2).blk t).view.emb (ix2 p k)) = _
  refine congrArg _ ?_
  obtain ⟨-, -, -, -, e4, e5, -⟩ := idx1a t
  funext a; apply Fin.ext
  match a with
  | ⟨0, _⟩ => show win1_2.index t (0 : Fin 2) * 2400 + 1 * p.val = t.val * 2400 + p.val; omega
  | ⟨1, _⟩ => show win1_2.index t (1 : Fin 2) * 128 + 1 * k.val = k.val; omega

theorem blk1_3 (c : Dev nD) (t : Fin cfg1.N) (k q : Fin 128) :
    iblk1 V c 3 t (ix2 k q) = (V c main_arg6 : S128x128.Idx → EReal) (ix2 k q) := by
  show (V c main_arg6 : S128x128.Idx → EReal) (((cfg1.win 3).blk t).view.emb (ix2 k q)) = _
  refine congrArg _ ?_
  obtain ⟨e0, e1, -⟩ := idx1b t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The block is the whole weight. -/
theorem blk1_3_eq (c : Dev nD) (t : Fin cfg1.N) : (iblk1 V c 3 t : S128x128.Idx → EReal) = (V c main_arg6 : S128x128.Idx → EReal) := by
  funext j
  obtain ⟨k, q, rfl⟩ : ∃ (k q : Fin 128), j = ix2 k q := ⟨j 0, j 1, eq_ix2 j⟩
  exact blk1_3 V c t k q

theorem blk1_4 (c : Dev nD) (t : Fin cfg1.N) (q : Fin 128) :
    iblk1 V c 4 t (ix1 q) = (V c main_arg7 : S128.Idx → EReal) (ix1 q) := by
  show (V c main_arg7 : S128.Idx → EReal) (((cfg1.win 4).blk t).view.emb (ix1 q)) = _
  refine congrArg _ ?_
  obtain ⟨-, -, e2, -, -⟩ := idx1b t
  funext a; apply Fin.ext
  match a with
  | ⟨0, _⟩ => show win1_4.index t (0 : Fin 1) * 128 + 1 * q.val = q.val; omega

/-- The block is the whole vector. -/
theorem blk1_4_eq (c : Dev nD) (t : Fin cfg1.N) : (iblk1 V c 4 t : S128.Idx → EReal) = (V c main_arg7 : S128.Idx → EReal) := by
  funext j
  obtain ⟨q, rfl⟩ : ∃ q : Fin 128, j = ix1 q := ⟨j 0, eq_ix1 j⟩
  exact blk1_4 V c t q

theorem blk1_5 (c : Dev nD) (t : Fin cfg1.N) (q : Fin 128) :
    iblk1 V c 5 t (ix1 q) = (V c main_arg14 : S128.Idx → EReal) (ix1 q) := by
  show (V c main_arg14 : S128.Idx → EReal) (((cfg1.win 5).blk t).view.emb (ix1 q)) = _
  refine congrArg _ ?_
  obtain ⟨-, -, -, e3, -⟩ := idx1b t
  funext a; apply Fin.ext
  match a with
  | ⟨0, _⟩ => show win1_5.index t (0 : Fin 1) * 128 + 1 * q.val = q.val; omega

/-- The block is the whole vector. -/
theorem blk1_5_eq (c : Dev nD) (t : Fin cfg1.N) : (iblk1 V c 5 t : S128.Idx → EReal) = (V c main_arg14 : S128.Idx → EReal) := by
  funext j
  obtain ⟨q, rfl⟩ : ∃ q : Fin 128, j = ix1 q := ⟨j 0, eq_ix1 j⟩
  exact blk1_5 V c t q

theorem blk1_6 (c : Dev nD) (t : Fin cfg1.N) (q : Fin 128) :
    iblk1 V c 6 t (ix1 q) = (V c main_arg15 : S128.Idx → EReal) (ix1 q) := by
  show (V c main_arg15 : S128.Idx → EReal) (((cfg1.win 6).blk t).view.emb (ix1 q)) = _
  refine congrArg _ ?_
  obtain ⟨-, -, -, -, e4⟩ := idx1b t
  funext a; apply Fin.ext
  match a with
  | ⟨0, _⟩ => show win1_6.index t (0 : Fin 1) * 128 + 1 * q.val = q.val; omega

/-- The block is the whole vector. -/
theorem blk1_6_eq (c : Dev nD) (t : Fin cfg1.N) : (iblk1 V c 6 t : S128.Idx → EReal) = (V c main_arg15 : S128.Idx → EReal) := by
  funext j
  obtain ⟨q, rfl⟩ : ∃ q : Fin 128, j = ix1 q := ⟨j 0, eq_ix1 j⟩
  exact blk1_6 V c t q

/-! ## Result 0: the edge output -/

/-- Where an entry of grid point t's block of window 7 sits in the array. -/
theorem emb1_7 (t : Fin cfg1.N) (p : Fin 2400) (q : Fin 128) : ((cfg1.win 7).blk t).view.emb (ix2 p q) = ix2 (row1 t p) q := by
  obtain ⟨e0, e1, -, -, -, -⟩ := idx1c t
  funext a; apply Fin.ext
  match a with
  | ⟨0, _⟩ => show win1_7.index t (0 : Fin 2) * 2400 + 1 * p.val = t.val * 2400 + p.val; omega
  | ⟨1, _⟩ => show win1_7.index t (1 : Fin 2) * 128 + 1 * q.val = q.val; omega

/-- What grid point t writes back to window 7 is its block of the stage of the whole arrays. -/
theorem flushed1_7_eq (c : Dev nD) (t : Fin cfg1.N) :
    (dat1 V c).flushed 7 t = ((cfg1.win 7).blk t).view.read (Elt Ideal)
      (edgeY n128 eps5 (V c main_arg1 : S600000x128.Idx → EReal) (V c main_v18 : S600000x128.Idx → EReal) (V c main_arg6 : S128x128.Idx → EReal) (V c main_arg7 : S128.Idx → EReal) (V c main_arg14 : S128.Idx → EReal) (V c main_arg15 : S128.Idx → EReal)) := by
  show (cfg1.win 7).cut (grid1.coords t) ((dat1 V c).after 7 t) = _
  rw [after1_7]
  unfold out1_7
  rw [View.canon_unit_zero r1_hz2]
  simp only [View.ld_unit_zero (S := S2400x128) r1_hz2, View.ld_unit_zero (S := S128x128) r1_hz2, View.ld_unit_zero (S := S128) r1_hz1]
  funext j
  obtain ⟨p, q, rfl⟩ : ∃ (p : Fin 2400) (q : Fin 128), j = ix2 p q := ⟨j 0, j 1, eq_ix2 j⟩
  show k1_pay1 (F := Ideal) (iblk1 V c 0 t) (k1_pay7 (iblk1 V c 0 t) (iblk1 V c 3 t) (iblk1 V c 4 t) (iblk1 V c 1 t)) (k1_pay8 (iblk1 V c 0 t) (iblk1 V c 3 t) (iblk1 V c 4 t) (iblk1 V c 1 t)) (iblk1 V c 5 t) (iblk1 V c 6 t) (ix2 p q)
    = (edgeY n128 eps5 (V c main_arg1 : S600000x128.Idx → EReal) (V c main_v18 : S600000x128.Idx → EReal) (V c main_arg6 : S128x128.Idx → EReal) (V c main_arg7 : S128.Idx → EReal) (V c main_arg14 : S128.Idx → EReal) (V c main_arg15 : S128.Idx → EReal)) (((cfg1.win 7).blk t).view.emb (ix2 p q))
  rw [emb1_7]
  refine (congrFun (pay1_y (iblk1 V c 0 t) (iblk1 V c 1 t) (iblk1 V c 3 t) (iblk1 V c 4 t) (iblk1 V c 5 t) (iblk1 V c 6 t)) (ix2 p q)).trans ?_
  rw [blk1_3_eq V c t, blk1_4_eq V c t, blk1_5_eq V c t, blk1_6_eq V c t]
  exact rowsOf_edgeY (row1 t) n128 eps5 (fun p k => blk1_0 V c t p k) (fun p k => blk1_1 V c t p k)
    (V c main_arg6 : S128x128.Idx → EReal) (V c main_arg7 : S128.Idx → EReal) (V c main_arg14 : S128.Idx → EReal) (V c main_arg15 : S128.Idx → EReal) p q

/-- An index of the array is in grid point t's block of window 7 iff each coordinate is in the block's range. -/
theorem mem_blk1_7 (t : Fin cfg1.N) (i : S600000x128.Idx) :
    i ∈ ((cfg1.win 7).blk t).view.set ↔ ∀ a : Fin 2, win1_7.index t a * S2400x128.size a ≤ (i a).val ∧ (i a).val < win1_7.index t a * S2400x128.size a + S2400x128.size a := by
  show i ∈ ((View.whole main_v27_0).slice (win1_7.rect t)).set ↔ _
  rw [View.set_slice_whole, Rect.mem_set_unit]
  exact Iff.rfl

/-- Row r of the array lies in the block of grid point r / 2400. -/
theorem covered1_7 (i : S600000x128.Idx) : ∃ t : Fin cfg1.N, (cfg1.win 7).flush t = true ∧ i ∈ ((cfg1.win 7).blk t).view.set := by
  have hi0 : (i 0).val < 600000 := (i 0).isLt
  have hi1 : (i 1).val < 128 := (i 1).isLt
  let t : Fin cfg1.N := ⟨(i 0).val / 2400, by show (i 0).val / 2400 < 250; omega⟩
  obtain ⟨e0, e1, -, -, -, -⟩ := idx1c t
  have ht : t.val = (i 0).val / 2400 := rfl
  refine ⟨t, flush1_7 t, ?_⟩
  rw [mem_blk1_7]
  intro a
  match a with
  | ⟨0, _⟩ => show win1_7.index t (0 : Fin 2) * 2400 ≤ (i 0).val ∧ (i 0).val < win1_7.index t (0 : Fin 2) * 2400 + 2400; omega
  | ⟨1, _⟩ => show win1_7.index t (1 : Fin 2) * 128 ≤ (i 1).val ∧ (i 1).val < win1_7.index t (1 : Fin 2) * 128 + 128; omega

/-- The result array, whole. -/
theorem arr1_7 (c : Dev nD) : (dat1 V c).arrAt 7 cfg1.N
    = edgeY n128 eps5 (V c main_arg1 : S600000x128.Idx → EReal) (V c main_v18 : S600000x128.Idx → EReal) (V c main_arg6 : S128x128.Idx → EReal) (V c main_arg7 : S128.Idx → EReal) (V c main_arg14 : S128.Idx → EReal) (V c main_arg15 : S128.Idx → EReal) :=
  (dat1 V c).arrAt_eq_of_cover 7 _ (fun t _ => flushed1_7_eq V c t) covered1_7

/-! ## Result 1: the gate -/

/-- Where an entry of grid point t's block of window 8 sits in the array. -/
theorem emb1_8 (t : Fin cfg1.N) (p : Fin 2400) (q : Fin 128) : ((cfg1.win 8).blk t).view.emb (ix2 p q) = ix2 (row1 t p) q := by
  obtain ⟨-, -, e2, e3, -, -⟩ := idx1c t
  funext a; apply Fin.ext
  match a with
  | ⟨0, _⟩ => show win1_8.index t (0 : Fin 2) * 2400 + 1 * p.val = t.val * 2400 + p.val; omega
  | ⟨1, _⟩ => show win1_8.index t (1 : Fin 2) * 128 + 1 * q.val = q.val; omega

/-- What grid point t writes back to window 8 is its block of the stage of the whole arrays. -/
theorem flushed1_8_eq (c : Dev nD) (t : Fin cfg1.N) :
    (dat1 V c).flushed 8 t = ((cfg1.win 8).blk t).view.read (Elt Ideal)
      (edgeSig (V c main_arg1 : S600000x128.Idx → EReal) (V c main_v18 : S600000x128.Idx → EReal) (V c main_arg6 : S128x128.Idx → EReal) (V c main_arg7 : S128.Idx → EReal)) := by
  show (cfg1.win 8).cut (grid1.coords t) ((dat1 V c).after 8 t) = _
  rw [after1_8]
  unfold out1_8
  rw [View.canon_unit_zero r1_hz2]
  simp only [View.ld_unit_zero (S := S2400x128) r1_hz2, View.ld_unit_zero (S := S128x128) r1_hz2, View.ld_unit_zero (S := S128) r1_hz1]
  funext j
  obtain ⟨p, q, rfl⟩ : ∃ (p : Fin 2400) (q : Fin 128), j = ix2 p q := ⟨j 0, j 1, eq_ix2 j⟩
  show k1_pay4 (F := Ideal) (iblk1 V c 0 t) (iblk1 V c 3 t) (iblk1 V c 4 t) (iblk1 V c 1 t) (ix2 p q)
    = (edgeSig (V c main_arg1 : S600000x128.Idx → EReal) (V c main_v18 : S600000x128.Idx → EReal) (V c main_arg6 : S128x128.Idx → EReal) (V c main_arg7 : S128.Idx → EReal)) (((cfg1.win 8).blk t).view.emb (ix2 p q))
  rw [emb1_8]
  refine (congrFun (pay1_sig (iblk1 V c 0 t) (iblk1 V c 1 t) (iblk1 V c 3 t) (iblk1 V c 4 t)) (ix2 p q)).trans ?_
  rw [blk1_3_eq V c t, blk1_4_eq V c t]
  exact rowsOf_edgeSig (row1 t) (fun p k => blk1_0 V c t p k) (fun p k => blk1_1 V c t p k)
    (V c main_arg6 : S128x128.Idx → EReal) (V c main_arg7 : S128.Idx → EReal) p q

/-- An index of the array is in grid point t's block of window 8 iff each coordinate is in the block's range. -/
theorem mem_blk1_8 (t : Fin cfg1.N) (i : S600000x128.Idx) :
    i ∈ ((cfg1.win 8).blk t).view.set ↔ ∀ a : Fin 2, win1_8.index t a * S2400x128.size a ≤ (i a).val ∧ (i a).val < win1_8.index t a * S2400x128.size a + S2400x128.size a := by
  show i ∈ ((View.whole main_v27_1).slice (win1_8.rect t)).set ↔ _
  rw [View.set_slice_whole, Rect.mem_set_unit]
  exact Iff.rfl

/-- Row r of the array lies in the block of grid point r / 2400. -/
theorem covered1_8 (i : S600000x128.Idx) : ∃ t : Fin cfg1.N, (cfg1.win 8).flush t = true ∧ i ∈ ((cfg1.win 8).blk t).view.set := by
  have hi0 : (i 0).val < 600000 := (i 0).isLt
  have hi1 : (i 1).val < 128 := (i 1).isLt
  let t : Fin cfg1.N := ⟨(i 0).val / 2400, by show (i 0).val / 2400 < 250; omega⟩
  obtain ⟨-, -, e2, e3, -, -⟩ := idx1c t
  have ht : t.val = (i 0).val / 2400 := rfl
  refine ⟨t, flush1_8 t, ?_⟩
  rw [mem_blk1_8]
  intro a
  match a with
  | ⟨0, _⟩ => show win1_8.index t (0 : Fin 2) * 2400 ≤ (i 0).val ∧ (i 0).val < win1_8.index t (0 : Fin 2) * 2400 + 2400; omega
  | ⟨1, _⟩ => show win1_8.index t (1 : Fin 2) * 128 ≤ (i 1).val ∧ (i 1).val < win1_8.index t (1 : Fin 2) * 128 + 128; omega

/-- The result array, whole. -/
theorem arr1_8 (c : Dev nD) : (dat1 V c).arrAt 8 cfg1.N
    = edgeSig (V c main_arg1 : S600000x128.Idx → EReal) (V c main_v18 : S600000x128.Idx → EReal) (V c main_arg6 : S128x128.Idx → EReal) (V c main_arg7 : S128.Idx → EReal) :=
  (dat1 V c).arrAt_eq_of_cover 8 _ (fun t _ => flushed1_8_eq V c t) covered1_8

/-! ## Result 2: the gated message -/

/-- Where an entry of grid point t's block of window 9 sits in the array. -/
theorem emb1_9 (t : Fin cfg1.N) (p : Fin 2400) (q : Fin 128) : ((cfg1.win 9).blk t).view.emb (ix2 p q) = ix2 (row1 t p) q := by
  obtain ⟨-, -, -, -, e4, e5⟩ := idx1c t
  funext a; apply Fin.ext
  match a with
  | ⟨0, _⟩ => show win1_9.index t (0 : Fin 2) * 2400 + 1 * p.val = t.val * 2400 + p.val; omega
  | ⟨1, _⟩ => show win1_9.index t (1 : Fin 2) * 128 + 1 * q.val = q.val; omega

/-- What grid point t writes back to window 9 is its block of the stage of the whole arrays. -/
theorem flushed1_9_eq (c : Dev nD) (t : Fin cfg1.N) :
    (dat1 V c).flushed 9 t = ((cfg1.win 9).blk t).view.read (Elt Ideal)
      (edgeWt (V c main_arg1 : S600000x128.Idx → EReal) (V c main_v18 : S600000x128.Idx → EReal) (V c main_arg6 : S128x128.Idx → EReal) (V c main_arg7 : S128.Idx → EReal) (V c main_v26 : S600000x128.Idx → EReal)) := by
  show (cfg1.win 9).cut (grid1.coords t) ((dat1 V c).after 9 t) = _
  rw [after1_9]
  unfold out1_9
  rw [View.canon_unit_zero r1_hz2]
  simp only [View.ld_unit_zero (S := S2400x128) r1_hz2, View.ld_unit_zero (S := S128x128) r1_hz2, View.ld_unit_zero (S := S128) r1_hz1]
  funext j
  obtain ⟨p, q, rfl⟩ : ∃ (p : Fin 2400) (q : Fin 128), j = ix2 p q := ⟨j 0, j 1, eq_ix2 j⟩
  show k1_pay5 (F := Ideal) (iblk1 V c 0 t) (iblk1 V c 3 t) (iblk1 V c 4 t) (iblk1 V c 1 t) (iblk1 V c 2 t) (ix2 p q)
    = (edgeWt (V c main_arg1 : S600000x128.Idx → EReal) (V c main_v18 : S600000x128.Idx → EReal) (V c main_arg6 : S128x128.Idx → EReal) (V c main_arg7 : S128.Idx → EReal) (V c main_v26 : S600000x128.Idx → EReal)) (((cfg1.win 9).blk t).view.emb (ix2 p q))
  rw [emb1_9]
  refine (congrFun (pay1_wt (iblk1 V c 0 t) (iblk1 V c 1 t) (iblk1 V c 3 t) (iblk1 V c 4 t) (iblk1 V c 2 t)) (ix2 p q)).trans ?_
  rw [blk1_3_eq V c t, blk1_4_eq V c t]
  exact rowsOf_edgeWt (row1 t) (fun p k => blk1_0 V c t p k) (fun p k => blk1_1 V c t p k) (fun p k => blk1_2 V c t p k)
    (V c main_arg6 : S128x128.Idx → EReal) (V c main_arg7 : S128.Idx → EReal) p q

/-- An index of the array is in grid point t's block of window 9 iff each coordinate is in the block's range. -/
theorem mem_blk1_9 (t : Fin cfg1.N) (i : S600000x128.Idx) :
    i ∈ ((cfg1.win 9).blk t).view.set ↔ ∀ a : Fin 2, win1_9.index t a * S2400x128.size a ≤ (i a).val ∧ (i a).val < win1_9.index t a * S2400x128.size a + S2400x128.size a := by
  show i ∈ ((View.whole main_v27_2).slice (win1_9.rect t)).set ↔ _
  rw [View.set_slice_whole, Rect.mem_set_unit]
  exact Iff.rfl

/-- Row r of the array lies in the block of grid point r / 2400. -/
theorem covered1_9 (i : S600000x128.Idx) : ∃ t : Fin cfg1.N, (cfg1.win 9).flush t = true ∧ i ∈ ((cfg1.win 9).blk t).view.set := by
  have hi0 : (i 0).val < 600000 := (i 0).isLt
  have hi1 : (i 1).val < 128 := (i 1).isLt
  let t : Fin cfg1.N := ⟨(i 0).val / 2400, by show (i 0).val / 2400 < 250; omega⟩
  obtain ⟨-, -, -, -, e4, e5⟩ := idx1c t
  have ht : t.val = (i 0).val / 2400 := rfl
  refine ⟨t, flush1_9 t, ?_⟩
  rw [mem_blk1_9]
  intro a
  match a with
  | ⟨0, _⟩ => show win1_9.index t (0 : Fin 2) * 2400 ≤ (i 0).val ∧ (i 0).val < win1_9.index t (0 : Fin 2) * 2400 + 2400; omega
  | ⟨1, _⟩ => show win1_9.index t (1 : Fin 2) * 128 ≤ (i 1).val ∧ (i 1).val < win1_9.index t (1 : Fin 2) * 128 + 128; omega

/-- The result array, whole. -/
theorem arr1_9 (c : Dev nD) : (dat1 V c).arrAt 9 cfg1.N
    = edgeWt (V c main_arg1 : S600000x128.Idx → EReal) (V c main_v18 : S600000x128.Idx → EReal) (V c main_arg6 : S128x128.Idx → EReal) (V c main_arg7 : S128.Idx → EReal) (V c main_v26 : S600000x128.Idx → EReal) :=
  (dat1 V c).arrAt_eq_of_cover 9 _ (fun t _ => flushed1_9_eq V c t) covered1_9

end Cert.KernelIdeal.Hand

end
-- ==== Proof.KI.Pay2.lean ====
/-
  THE VALUE THE NODE-UPDATE KERNEL STORES, ON THE EXTENDED REALS. The kernel forms X = (x0 · w + b) + x9 / (x11 + 1e-6) on its
  [2000, 128] block, normalises every row of X (lane mean by division of the lane sum by 128, the reciprocal square
  root of the lane variance plus 1e-5, the scale and shift rows), and stores x0 + L · σ(L), L the normalised array.
  That is the stage `nodeOut` of the block. A change of float format is the identity on the extended reals, and a
  cast of an array to its own shape is the array.
-/
import proofs.«172384_j69131793596856_2_alg».proof.Proof.Gen.KernelIdeal.Skeleton
import proofs.«172384_j69131793596856_2_alg».proof.Proof.LibStages
import proofs.«172384_j69131793596856_2_alg».proof.Proof.LibKernelLN

noncomputable section

open scoped BigOperators

namespace Cert.KernelIdeal.Pay

open Cert.KernelIdeal Cert.KernelIdeal.Gen Cert.Stage Cert.Layer Cert.RowLocal Idealize.ShloMosaic Idealize.ShloMosaic.ValueIdx

/-- The kernel's pre-activation, as it spells it. -/
def k2X (x0 x9 x11 : Vec Ideal S2000x128 .f32) (w : Vec Ideal S128x128 .f32) (b : Vec Ideal S128 .f32) :
    FVec Ideal S2000x128 .f32 :=
  addf (F := Ideal)
    (addf (matmul dot_S2000x128_S128x128_S2000x128_1_0_0_1_n_n none
        (truncf .bf16 (x0 : FVec Ideal S2000x128 .f32) bitsLt_bf16_f32)
        (truncf .bf16 (w : FVec Ideal S128x128 .f32) bitsLt_bf16_f32) (constant S2000x128 .f32 0x00000000#32))
      (broadcastTo S2000x128 (shapeCast S1x128 (b : FVec Ideal S128 .f32) shapeCasts_S128_S1x128)
        broadcasts_S1x128_S2000x128))
    (divf (shapeCast S2000x128 (x9 : FVec Ideal S2000x128 .f32) shapeCasts_S2000x128_S2000x128)
      (addf (shapeCast S2000x128 (x11 : FVec Ideal S2000x128 .f32) shapeCasts_S2000x128_S2000x128)
        (broadcast S2000x128 (Scalar.ofBits (F := Ideal) .f32 0x358637BD#32))))

/-- The kernel's pre-activation is the stage's: (x0 · w + b) + x9 / (x11 + 1e-6). -/
theorem k2X_eq (x0 x9 x11 : Vec Ideal S2000x128 .f32) (w : Vec Ideal S128x128 .f32) (b : Vec Ideal S128 .f32) :
    k2X x0 x9 x11 w b = nodeX eps6 x0 w b x9 x11 := by
  unfold k2X
  rw [shapeCast_self, shapeCast_self,
    kernelProd_eq dot_S2000x128_S128x128_S2000x128_1_0_0_1_n_n rfl rfl rfl rfl rfl rfl,
    kernelAddRow_eq _ b shapeCasts_S128_S1x128 broadcasts_S1x128_S2000x128]
  rfl

/-- The stored value is x0 + L · σ(L), L the kernel's normalisation of its pre-activation. -/
theorem pay2_spelt (x0 x9 x11 : Vec Ideal S2000x128 .f32) (w : Vec Ideal S128x128 .f32) (b lnw lnb : Vec Ideal S128 .f32) :
    k2_pay1 (F := Ideal) x0 (k2_pay2 x0 w b x9 x11 lnw) (k2_pay3 lnb)
      = kSiluRes x0 (kLN n128 eps5 (k2X x0 x9 x11 w b) reduces_S2000x128_S2000 (.inl rfl) rfl shapeCasts_S2000_S2000x1
          broadcasts_S2000x1_S2000x128 lnw lnb shapeCasts_S128_S1x128 broadcasts_S1x128_S2000x128) := rfl

theorem pay2_out (x0 x9 x11 : Vec Ideal S2000x128 .f32) (w : Vec Ideal S128x128 .f32) (b lnw lnb : Vec Ideal S128 .f32) :
    k2_pay1 (F := Ideal) x0 (k2_pay2 x0 w b x9 x11 lnw) (k2_pay3 lnb) = nodeOut n128 eps5 eps6 x0 w b x9 x11 lnw lnb := by
  refine (pay2_spelt x0 x9 x11 w b lnw lnb).trans ?_
  refine (congrArg (kSiluRes x0) (kLN_eq n128 eps5 (k2X x0 x9 x11 w b) reduces_S2000x128_S2000 (.inl rfl) rfl
    shapeCasts_S2000_S2000x1 broadcasts_S2000x1_S2000x128 lnw lnb shapeCasts_S128_S1x128
    broadcasts_S1x128_S2000x128)).trans ?_
  rw [k2X_eq]
  rfl

end Cert.KernelIdeal.Pay

end
-- ==== Proof.KI.Blocks2.lean ====
/-
  The node-update region's result array as a whole-array function. A grid point t writes rows 2000·t … 2000·t + 1999
  of the result; its input blocks are those rows of the node features and of the two aggregate arrays, and the whole
  of the weight, the bias and the normalisation's scale and shift. Each entry of the node output depends on one row
  of its row-indexed operands, so what a grid point writes is its rows of the node output of the whole arrays; the 25
  blocks cover all 50000 rows.
-/
import proofs.«172384_j69131793596856_2_alg».proof.Proof.KI.Region2
import proofs.«172384_j69131793596856_2_alg».proof.Proof.KI.Pay2
import proofs.«172384_j69131793596856_2_alg».proof.Proof.LibStages
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Pay Cert.Stage Cert.RowLocal
open Idealize.ShloMosaic Idealize.ShloMosaic.TcCoe Idealize.ShloMosaic.ValueIdx Idealize.SL.Sem
open Idealize.ShloMosaic.Pipeline (Dat)

theorem r2_hz2 : (![0, 0] : Fin 2 → Nat) = fun _ => 0 := funext fun a => by fin_cases a <;> rfl
theorem r2_hz1 : (![0] : Fin 1 → Nat) = fun _ => 0 := funext fun a => by fin_cases a; rfl

/-- The index maps over the grid: the row-blocked windows sit at block row t, everything else at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 1) = 0 ∧ win2_6.index t (0 : Fin 1) = 0
    ∧ win2_7.index t (0 : Fin 2) = t.val ∧ win2_7.index t (1 : Fin 2) = 0 ∧ t.val < 25 :=
  (by decide +kernel : ∀ t : Fin grid2.N, _)

variable (V : (c : Dev nD) → (b : Ref sig .tc) → Buf (Elt Ideal) ((c : Thread nD τ).loc b))

/-- Row p of grid point t's block is row 2000·t + p of the array. -/
def row2 (t : Fin cfg2.N) (p : Fin 2000) : Fin 50000 :=
  ⟨t.val * 2000 + p.val, by have := (idx2 t).2.2.2.2.2.2.2.2.2.2.2.2.2; have := p.isLt; omega⟩

/-! ## The input blocks read where they sit in their arrays -/

theorem blk2_0 (c : Dev nD) (t : Fin cfg2.N) (p : Fin 2000) (k : Fin 128) :
    iblk2 V c 0 t (ix2 p k) = (V c main_arg0 : S50000x128.Idx → EReal) (ix2 (row2 t p) k) := by
  show (V c main_arg0 : S50000x128.Idx → EReal) (((cfg2.win 0).blk t).view.emb (ix2 p k)) = _
  refine congrArg _ ?_
  obtain ⟨e0, e1, -, -, -, -, -, -, -, -, -, -, -, -⟩ := idx2 t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

theorem blk2_1 (c : Dev nD) (t : Fin cfg2.N) (k q : Fin 128) :
    iblk2 V c 1 t (ix2 k q) = (V c main_arg8 : S128x128.Idx → EReal) (ix2 k q) := by
  show (V c main_arg8 : S128x128.Idx → EReal) (((cfg2.win 1).blk t).view.emb (ix2 k q)) = _
  refine congrArg _ ?_
  obtain ⟨-, -, e2, e3, -, -, -, -, -, -, -, -, -, -⟩ := idx2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- The block is the whole weight. -/
theorem blk2_1_eq (c : Dev nD) (t : Fin cfg2.N) : (iblk2 V c 1 t : S128x128.Idx → EReal) = (V c main_arg8 : S128x128.Idx → EReal) := by
  funext j
  obtain ⟨k, q, rfl⟩ : ∃ (k q : Fin 128), j = ix2 k q := ⟨j 0, j 1, eq_ix2 j⟩
  exact blk2_1 V c t k q

theorem blk2_2 (c : Dev nD) (t : Fin cfg2.N) (q : Fin 128) :
    iblk2 V c 2 t (ix1 q) = (V c main_arg9 : S128.Idx → EReal) (ix1 q) := by
  show (V c main_arg9 : S128.Idx → EReal) (((cfg2.win 2).blk t).view.emb (ix1 q)) = _
  refine congrArg _ ?_
  obtain ⟨-, -, -, -, e4, -, -, -, -, -, -, -, -, -⟩ := idx2 t
  funext a; apply Fin.ext
  match a with
  | ⟨0, _⟩ => show win2_2.index t (0 : Fin 1) * 128 + 1 * q.val = q.val; omega

/-- The block is the whole vector. -/
theorem blk2_2_eq (c : Dev nD) (t : Fin cfg2.N) : (iblk2 V c 2 t : S128.Idx → EReal) = (V c main_arg9 : S128.Idx → EReal) := by
  funext j
  obtain ⟨q, rfl⟩ : ∃ q : Fin 128, j = ix1 q := ⟨j 0, eq_ix1 j⟩
  exact blk2_2 V c t q

theorem blk2_3 (c : Dev nD) (t : Fin cfg2.N) (p : Fin 2000) (k : Fin 128) :
    iblk2 V c 3 t (ix2 p k) = (V c main_v34 : S50000x128.Idx → EReal) (ix2 (row2 t p) k) := by
  show (V c main_v34 : S50000x128.Idx → EReal) (((cfg2.win 3).blk t).view.emb (ix2 p k)) = _
  refine congrArg _ ?_
  obtain ⟨-, -, -, -, -, e5, e6, -, -, -, -, -, -, -⟩ := idx2 t
  funext a; apply Fin.ext
  match a with
  | ⟨0, _⟩ => show win2_3.index t (0 : Fin 2) * 2000 + 1 * p.val = t.val * 2000 + p.val; omega
  | ⟨1, _⟩ => show win2_3.index t (1 : Fin 2) * 128 + 1 * k.val = k.val; omega

theorem blk2_4 (c : Dev nD) (t : Fin cfg2.N) (p : Fin 2000) (k : Fin 128) :
    iblk2 V c 4 t (ix2 p k) = (V c main_v35 : S50000x128.Idx → EReal) (ix2 (row2 t p) k) := by
  show (V c main_v35 : S50000x128.Idx → EReal) (((cfg2.win 4).blk t).view.emb (ix2 p k)) = _
  refine congrArg _ ?_
  obtain ⟨-, -, -, -, -, -, -, e7, e8, -, -, -, -, -⟩ := idx2 t
  funext a; apply Fin.ext
  match a with
  | ⟨0, _⟩ => show win2_4.index t (0 : Fin 2) * 2000 + 1 * p.val = t.val * 2000 + p.val; omega
  | ⟨1, _⟩ => show win2_4.index t (1 : Fin 2) * 128 + 1 * k.val = k.val; omega

theorem blk2_5 (c : Dev nD) (t : Fin cfg2.N) (q : Fin 128) :
    iblk2 V c 5 t (ix1 q) = (V c main_arg12 : S128.Idx → EReal) (ix1 q) := by
  show (V c main_arg12 : S128.Idx → EReal) (((cfg2.win 5).blk t).view.emb (ix1 q)) = _
  refine congrArg _ ?_
  obtain ⟨-, -, -, -, -, -, -, -, -, e9, -, -, -, -⟩ := idx2 t
  funext a; apply Fin.ext
  match a with
  | ⟨0, _⟩ => show win2_5.index t (0 : Fin 1) * 128 + 1 * q.val = q.val; omega

/-- The block is the whole vector. -/
theorem blk2_5_eq (c : Dev nD) (t : Fin cfg2.N) : (iblk2 V c 5 t : S128.Idx → EReal) = (V c main_arg12 : S128.Idx → EReal) := by
  funext j
  obtain ⟨q, rfl⟩ : ∃ q : Fin 128, j = ix1 q := ⟨j 0, eq_ix1 j⟩
  exact blk2_5 V c t q

theorem blk2_6 (c : Dev nD) (t : Fin cfg2.N) (q : Fin 128) :
    iblk2 V c 6 t (ix1 q) = (V c main_arg13 : S128.Idx → EReal) (ix1 q) := by
  show (V c main_arg13 : S128.Idx → EReal) (((cfg2.win 6).blk t).view.emb (ix1 q)) = _
  refine congrArg _ ?_
  obtain ⟨-, -, -, -, -, -, -, -, -, -, e10, -, -, -⟩ := idx2 t
  funext a; apply Fin.ext
  match a with
  | ⟨0, _⟩ => show win2_6.index t (0 : Fin 1) * 128 + 1 * q.val = q.val; omega

/-- The block is the whole vector. -/
theorem blk2_6_eq (c : Dev nD) (t : Fin cfg2.N) : (iblk2 V c 6 t : S128.Idx → EReal) = (V c main_arg13 : S128.Idx → EReal) := by
  funext j
  obtain ⟨q, rfl⟩ : ∃ q : Fin 128, j = ix1 q := ⟨j 0, eq_ix1 j⟩
  exact blk2_6 V c t q

/-! ## The output block -/

/-- Where an entry of grid point t's output block sits in the array. -/
theorem emb2_7 (t : Fin cfg2.N) (p : Fin 2000) (q : Fin 128) : ((cfg2.win 7).blk t).view.emb (ix2 p q) = ix2 (row2 t p) q := by
  obtain ⟨-, -, -, -, -, -, -, -, -, -, -, e11, e12, -⟩ := idx2 t
  funext a; apply Fin.ext
  match a with
  | ⟨0, _⟩ => show win2_7.index t (0 : Fin 2) * 2000 + 1 * p.val = t.val * 2000 + p.val; omega
  | ⟨1, _⟩ => show win2_7.index t (1 : Fin 2) * 128 + 1 * q.val = q.val; omega

/-- What grid point t writes back is its block of the whole arrays' node output: the block's rows are rows of the
    row-indexed operands, and the weight, bias, scale and shift are whole. -/
theorem flushed2_7_eq (c : Dev nD) (t : Fin cfg2.N) :
    (dat2 V c).flushed 7 t = ((cfg2.win 7).blk t).view.read (Elt Ideal)
      (nodeOut n128 eps5 eps6 (V c main_arg0 : S50000x128.Idx → EReal) (V c main_arg8 : S128x128.Idx → EReal) (V c main_arg9 : S128.Idx → EReal) (V c main_v34 : S50000x128.Idx → EReal) (V c main_v35 : S50000x128.Idx → EReal) (V c main_arg12 : S128.Idx → EReal) (V c main_arg13 : S128.Idx → EReal)) := by
  show (cfg2.win 7).cut (grid2.coords t) ((dat2 V c).after 7 t) = _
  rw [after2_7]
  unfold out2_7
  rw [View.canon_unit_zero r2_hz2]
  simp only [View.ld_unit_zero (S := S2000x128) r2_hz2, View.ld_unit_zero (S := S128x128) r2_hz2, View.ld_unit_zero (S := S128) r2_hz1]
  funext j
  obtain ⟨p, q, rfl⟩ : ∃ (p : Fin 2000) (q : Fin 128), j = ix2 p q := ⟨j 0, j 1, eq_ix2 j⟩
  show k2_pay1 (F := Ideal) (iblk2 V c 0 t) (k2_pay2 (iblk2 V c 0 t) (iblk2 V c 1 t) (iblk2 V c 2 t) (iblk2 V c 3 t) (iblk2 V c 4 t) (iblk2 V c 5 t)) (k2_pay3 (iblk2 V c 6 t)) (ix2 p q)
    = (nodeOut n128 eps5 eps6 (V c main_arg0 : S50000x128.Idx → EReal) (V c main_arg8 : S128x128.Idx → EReal) (V c main_arg9 : S128.Idx → EReal) (V c main_v34 : S50000x128.Idx → EReal) (V c main_v35 : S50000x128.Idx → EReal) (V c main_arg12 : S128.Idx → EReal) (V c main_arg13 : S128.Idx → EReal)) (((cfg2.win 7).blk t).view.emb (ix2 p q))
  rw [emb2_7]
  refine (congrFun (pay2_out (iblk2 V c 0 t) (iblk2 V c 3 t) (iblk2 V c 4 t) (iblk2 V c 1 t) (iblk2 V c 2 t) (iblk2 V c 5 t) (iblk2 V c 6 t)) (ix2 p q)).trans ?_
  rw [blk2_1_eq V c t, blk2_2_eq V c t, blk2_5_eq V c t, blk2_6_eq V c t]
  exact rowsOf_nodeOut (row2 t) n128 eps5 eps6 (fun p k => blk2_0 V c t p k) (fun p k => blk2_3 V c t p k) (fun p k => blk2_4 V c t p k)
    (V c main_arg8 : S128x128.Idx → EReal) (V c main_arg9 : S128.Idx → EReal) (V c main_arg12 : S128.Idx → EReal) (V c main_arg13 : S128.Idx → EReal) p q

/-- An index of the array is in grid point t's block of window 7 iff each coordinate is in the block's range. -/
theorem mem_blk2_7 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v36).slice (win2_7.rect t)).set ↔ _
  rw [View.set_slice_whole, Rect.mem_set_unit]
  exact Iff.rfl

/-- Row r of the array lies in the block of grid point r / 2000. -/
theorem covered2_7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  let t : Fin cfg2.N := ⟨(i 0).val / 2000, by show (i 0).val / 2000 < 25; omega⟩
  obtain ⟨-, -, -, -, -, -, -, -, -, -, -, e11, e12, -⟩ := idx2 t
  have ht : t.val = (i 0).val / 2000 := rfl
  refine ⟨t, flush2_7 t, ?_⟩
  rw [mem_blk2_7]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- The region's result, whole: the node output of the whole arrays. -/
theorem arr2_7 (c : Dev nD) : (dat2 V c).arrAt 7 cfg2.N
    = nodeOut n128 eps5 eps6 (V c main_arg0 : S50000x128.Idx → EReal) (V c main_arg8 : S128x128.Idx → EReal) (V c main_arg9 : S128.Idx → EReal) (V c main_v34 : S50000x128.Idx → EReal) (V c main_v35 : S50000x128.Idx → EReal) (V c main_arg12 : S128.Idx → EReal) (V c main_arg13 : S128.Idx → EReal) :=
  (dat2 V c).arrAt_eq_of_cover 7 _ (fun t _ => flushed2_7_eq V c t) covered2_7

end Cert.KernelIdeal.Hand

end
-- ==== Proof.GlueCat.lean ====
/-
  A concatenation of three equal pieces read at an index: three [128, 128] matrices side by side along the column
  axis into a [128, 384] matrix, and three length-128 vectors end to end into a length-384 vector. Column
  q + 128·m of the result, for q < 128 and m = 0, 1, 2, is column q of piece m: the pieces before piece m take up
  128·m positions of the axis, and the position within the piece is what is left.
-/
import Idealize.ShloMosaic.PureOps.Ideal
import Idealize.ShloMosaic.Lib.ValueIdx
import Idealize.ShloMosaic.Lib.Pipeline.Value

noncomputable section

namespace Cert.Glue

open Idealize.ShloMosaic Idealize.ShloMosaic.ValueIdx

/-! ## Three matrices side by side -/

section Mat
variable (u0 u1 u2 : (⟨2, ![128, 128]⟩ : Shape).Idx → EReal)
  (h : Shape.Concatenates [⟨2, ![128, 128]⟩, ⟨2, ![128, 128]⟩, ⟨2, ![128, 128]⟩] ⟨2, ![128, 384]⟩ 1)
  (k q : Fin 128)

/-- Columns 0 … 127 are the first matrix. -/
theorem cat3_mat_0 :
    concatenate ⟨2, ![128, 384]⟩ 1 [⟨_, u0⟩, ⟨_, u1⟩, ⟨_, u2⟩] h (ix2 k (⟨q.val, by omega⟩ : Fin 384)) = u0 (ix2 k q) := by
  refine concatenate_apply_piece (t := ⟨2, ![128, 384]⟩) (α := EReal) 1 [⟨_, u0⟩, ⟨_, u1⟩, ⟨_, u2⟩] h _ 0 (by simp) ⟨2, ![128, 128]⟩ u0 rfl rfl 0 rfl
    (ix2 k q) (fun b hb => ?_) ?_
  · match b with
    | ⟨0, _⟩ => rfl
    | ⟨1, _⟩ => exact absurd rfl hb
  · show 0 + q.val = q.val
    omega

/-- Columns 128 … 255 are the second matrix. -/
theorem cat3_mat_1 :
    concatenate ⟨2, ![128, 384]⟩ 1 [⟨_, u0⟩, ⟨_, u1⟩, ⟨_, u2⟩] h (ix2 k (⟨q.val + 128, by omega⟩ : Fin 384)) = u1 (ix2 k q) := by
  refine concatenate_apply_piece (t := ⟨2, ![128, 384]⟩) (α := EReal) 1 [⟨_, u0⟩, ⟨_, u1⟩, ⟨_, u2⟩] h _ 1 (by simp) ⟨2, ![128, 128]⟩ u1 rfl rfl 128 rfl
    (ix2 k q) (fun b hb => ?_) ?_
  · match b with
    | ⟨0, _⟩ => rfl
    | ⟨1, _⟩ => exact absurd rfl hb
  · show 128 + q.val = q.val + 128
    omega

/-- Columns 256 … 383 are the third matrix. -/
theorem cat3_mat_2 :
    concatenate ⟨2, ![128, 384]⟩ 1 [⟨_, u0⟩, ⟨_, u1⟩, ⟨_, u2⟩] h (ix2 k (⟨q.val + 256, by omega⟩ : Fin 384)) = u2 (ix2 k q) := by
  refine concatenate_apply_piece (t := ⟨2, ![128, 384]⟩) (α := EReal) 1 [⟨_, u0⟩, ⟨_, u1⟩, ⟨_, u2⟩] h _ 2 (by simp) ⟨2, ![128, 128]⟩ u2 rfl rfl 256 rfl
    (ix2 k q) (fun b hb => ?_) ?_
  · match b with
    | ⟨0, _⟩ => rfl
    | ⟨1, _⟩ => exact absurd rfl hb
  · show 256 + q.val = q.val + 256
    omega

end Mat

/-! ## Three vectors end to end -/

section Vec
variable (v0 v1 v2 : (⟨1, ![128]⟩ : Shape).Idx → EReal)
  (h : Shape.Concatenates [⟨1, ![128]⟩, ⟨1, ![128]⟩, ⟨1, ![128]⟩] ⟨1, ![384]⟩ 0)
  (q : Fin 128)

/-- Entries 0 … 127 are the first vector. -/
theorem cat3_vec_0 :
    concatenate ⟨1, ![384]⟩ 0 [⟨_, v0⟩, ⟨_, v1⟩, ⟨_, v2⟩] h (ix1 (⟨q.val, by omega⟩ : Fin 384)) = v0 (ix1 q) := by
  refine concatenate_apply_piece (t := ⟨1, ![384]⟩) (α := EReal) 0 [⟨_, v0⟩, ⟨_, v1⟩, ⟨_, v2⟩] h _ 0 (by simp) ⟨1, ![128]⟩ v0 rfl rfl 0 rfl
    (ix1 q) (fun b hb => ?_) ?_
  · match b with
    | ⟨0, _⟩ => exact absurd rfl hb
  · show 0 + q.val = q.val
    omega

/-- Entries 128 … 255 are the second vector. -/
theorem cat3_vec_1 :
    concatenate ⟨1, ![384]⟩ 0 [⟨_, v0⟩, ⟨_, v1⟩, ⟨_, v2⟩] h (ix1 (⟨q.val + 128, by omega⟩ : Fin 384)) = v1 (ix1 q) := by
  refine concatenate_apply_piece (t := ⟨1, ![384]⟩) (α := EReal) 0 [⟨_, v0⟩, ⟨_, v1⟩, ⟨_, v2⟩] h _ 1 (by simp) ⟨1, ![128]⟩ v1 rfl rfl 128 rfl
    (ix1 q) (fun b hb => ?_) ?_
  · match b with
    | ⟨0, _⟩ => exact absurd rfl hb
  · show 128 + q.val = q.val + 128
    omega

/-- Entries 256 … 383 are the third vector. -/
theorem cat3_vec_2 :
    concatenate ⟨1, ![384]⟩ 0 [⟨_, v0⟩, ⟨_, v1⟩, ⟨_, v2⟩] h (ix1 (⟨q.val + 256, by omega⟩ : Fin 384)) = v2 (ix1 q) := by
  refine concatenate_apply_piece (t := ⟨1, ![384]⟩) (α := EReal) 0 [⟨_, v0⟩, ⟨_, v1⟩, ⟨_, v2⟩] h _ 2 (by simp) ⟨1, ![128]⟩ v2 rfl rfl 256 rfl
    (ix1 q) (fun b hb => ?_) ?_
  · match b with
    | ⟨0, _⟩ => exact absurd rfl hb
  · show 256 + q.val = q.val + 256
    omega

end Vec

end Cert.Glue

end
-- ==== Proof.LibSegCat.lean ====
/-
  Rows added into segments, column by column. An update (e, k) of an add-scatter of [R, C] rows into an [N, C]
  operand at scatter indices [R, 1] lands on element (n, q) exactly when the signed index of e is n and k is q: the
  row is chosen by the index, the column is kept. Hence column o + q of the scatter of a wide [R, C2] array W is the
  scatter of the narrow [R, C] array that W's columns o … o + C − 1 make up, read at column q, when both operands
  being added into are zero: the two landing sets correspond by (e, o + q) ↔ (e, q). For W the two-piece
  concatenation of U and V along the columns, the left half of the scatter is the scatter of U and the right half the
  scatter of V.
-/
import Idealize.ShloMosaic.PureOps.Ideal
import Idealize.ShloMosaic.PureOps.Ideal.Laws
import Idealize.ShloMosaic.Lib.ValueIdx
import Idealize.ShloMosaic.Lib.Pipeline.Value
import proofs.«172384_j69131793596856_2_alg».proof.Proof.LibSegSum

noncomputable section

open scoped BigOperators

namespace Cert.Glue

open Idealize.ShloMosaic Idealize.ShloMosaic.ValueIdx Cert.LibSegSum

/-! ## Where an added row lands, exactly -/

theorem addRows_lands_iff {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (n : Fin N) (q : Fin C) :
    (addRowsDims N R C wf).resultIdx? (ix2 e k) idx = some (ix2 n q)
      ↔ (idx (at0 e)).toInt = (n.val : Int) ∧ k = q := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart0 : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin0 : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  have hstart1 : (addRowsDims N R C wf).start (ix2 e k) idx 1 = 0 := by
    unfold ScatterDims.start
    rw [dif_neg (show (1 : Fin 2) ∉ (addRowsDims N R C wf).scatterDimsToOperandDims from (by decide : (1 : Fin 2) ∉ ([0] : List (Fin 2))))]
  have hwin1 : (addRowsDims N R C wf).window (ix2 e k) 1 = k.val := by
    unfold ScatterDims.window
    rw [dif_pos (show (1 : Fin 2) ∈ (addRowsDims N R C wf).sKept from (by decide : (1 : Fin 2) ∈ (List.finRange 2).filter (· ∉ ([0] : List (Fin 2)))))]
    rfl
  constructor
  · intro h
    unfold ScatterDims.resultIdx? at h
    split at h
    · rename_i hin
      have h0 := congrArg (fun f => (f 0).val) (Option.some.inj h)
      have h1 := congrArg (fun f => (f 1).val) (Option.some.inj h)
      simp only at h0 h1
      have hb := (hin 0).1
      rw [hstart0, hwin0] at h0 hb
      rw [hstart1, hwin1] at h1
      simp only [Nat.cast_zero, add_zero] at h0 hb
      have h0' : (idx (at0 e)).toInt.toNat = n.val := h0
      have h1' : ((0 : Int) + (k.val : Int)).toNat = q.val := h1
      exact ⟨by omega, Fin.ext (by omega)⟩
    · exact absurd h (by simp)
  · rintro ⟨hn, rfl⟩
    have hin : ∀ a : Fin 2, 0 ≤ (addRowsDims N R C wf).start (ix2 e k) idx a + (addRowsDims N R C wf).window (ix2 e k) a
        ∧ (addRowsDims N R C wf).start (ix2 e k) idx a + (addRowsDims N R C wf).window (ix2 e k) a
          < (⟨2, ![N, C]⟩ : Shape).size a := by
      intro a
      match a with
      | ⟨0, _⟩ =>
        show 0 ≤ (addRowsDims N R C wf).start (ix2 e k) idx 0 + ((addRowsDims N R C wf).window (ix2 e k) 0 : Nat)
          ∧ (addRowsDims N R C wf).start (ix2 e k) idx 0 + ((addRowsDims N R C wf).window (ix2 e k) 0 : Nat) < (N : Int)
        rw [hstart0, hwin0, hn]
        have := n.isLt
        constructor <;> omega
      | ⟨1, _⟩ =>
        show 0 ≤ (addRowsDims N R C wf).start (ix2 e k) idx 1 + ((addRowsDims N R C wf).window (ix2 e k) 1 : Nat)
          ∧ (addRowsDims N R C wf).start (ix2 e k) idx 1 + ((addRowsDims N R C wf).window (ix2 e k) 1 : Nat) < (C : Int)
        rw [hstart1, hwin1]
        have := k.isLt
        constructor <;> omega
    unfold ScatterDims.resultIdx?
    rw [dif_pos hin]
    refine congrArg some (funext fun a => Fin.ext ?_)
    match a with
    | ⟨0, _⟩ =>
      show ((addRowsDims N R C wf).start (ix2 e k) idx 0 + ((addRowsDims N R C wf).window (ix2 e k) 0 : Nat)).toNat = n.val
      rw [hstart0, hwin0, hn]
      omega
    | ⟨1, _⟩ =>
      show ((addRowsDims N R C wf).start (ix2 e k) idx 1 + ((addRowsDims N R C wf).window (ix2 e k) 1 : Nat)).toNat = k.val
      rw [hstart1, hwin1]
      omega

/-! ## The scatter acts column by column -/

/-- Column o + q of the rows W added into segments is column q of the rows U added into segments, when column o + q of W
    is column q of U for every q and both operands being added into are zero. -/
theorem addRows_cols {N R C C2 : Nat} (o : Nat) (ho : o + C ≤ C2)
    (wfK : ScatterDims.WF ⟨2, ![N, C2]⟩ ⟨2, ![R, 1]⟩ ⟨2, ![R, C2]⟩ [1] [0] [0] 1)
    (wfR : ScatterDims.WF ⟨2, ![N, C]⟩ ⟨2, ![R, 1]⟩ ⟨2, ![R, C]⟩ [1] [0] [0] 1)
    (idx : IVec ⟨2, ![R, 1]⟩ 32)
    (Z2 : FVec Ideal ⟨2, ![N, C2]⟩ .f32) (hZ2 : ∀ i, Z2 i = 0)
    (Z1 : FVec Ideal ⟨2, ![N, C]⟩ .f32) (hZ1 : ∀ i, Z1 i = 0)
    (W : FVec Ideal ⟨2, ![R, C2]⟩ .f32) (U : FVec Ideal ⟨2, ![R, C]⟩ .f32)
    (hW : ∀ (e : Fin R) (q : Fin C), W (ix2 e (⟨o + q.val, by omega⟩ : Fin C2)) = U (ix2 e q))
    (n : Fin N) (q : Fin C) :
    Host.scatterAdd (addRowsDims N R C2 wfK) Z2 idx W (ix2 n (⟨o + q.val, by omega⟩ : Fin C2))
      = Host.scatterAdd (addRowsDims N R C wfR) Z1 idx U (ix2 n q) := by
  have hq : o + q.val < C2 := by have := q.isLt; omega
  simp only [Host.scatterAdd, Ideal.hostScatterAdd_def, Ideal.hostScatterAdd]
  rw [hZ2, hZ1, zero_add, zero_add]
  refine Finset.sum_nbij' (fun j => ix2 (j 0) q) (fun j => ix2 (j 0) (⟨o + q.val, hq⟩ : Fin C2)) ?_ ?_ ?_ ?_ ?_
  · intro j hj
    obtain ⟨e, k, rfl⟩ : ∃ (e : Fin R) (k : Fin C2), j = ix2 e k := ⟨j 0, j 1, eq_ix2 j⟩
    have h := (addRows_lands_iff wfK idx e k n ⟨o + q.val, hq⟩).mp (Finset.mem_filter.mp hj).2
    exact Finset.mem_filter.mpr ⟨Finset.mem_univ _, (addRows_lands_iff wfR idx e q n q).mpr ⟨h.1, rfl⟩⟩
  · intro j hj
    obtain ⟨e, k, rfl⟩ : ∃ (e : Fin R) (k : Fin C), j = ix2 e k := ⟨j 0, j 1, eq_ix2 j⟩
    have h := (addRows_lands_iff wfR idx e k n q).mp (Finset.mem_filter.mp hj).2
    exact Finset.mem_filter.mpr ⟨Finset.mem_univ _,
      (addRows_lands_iff wfK idx e ⟨o + q.val, hq⟩ n ⟨o + q.val, hq⟩).mpr ⟨h.1, rfl⟩⟩
  · intro j hj
    obtain ⟨e, k, rfl⟩ : ∃ (e : Fin R) (k : Fin C2), j = ix2 e k := ⟨j 0, j 1, eq_ix2 j⟩
    have h := (addRows_lands_iff wfK idx e k n ⟨o + q.val, hq⟩).mp (Finset.mem_filter.mp hj).2
    show ix2 e (⟨o + q.val, hq⟩ : Fin C2) = ix2 e k
    rw [h.2]
  · intro j hj
    obtain ⟨e, k, rfl⟩ : ∃ (e : Fin R) (k : Fin C), j = ix2 e k := ⟨j 0, j 1, eq_ix2 j⟩
    have h := (addRows_lands_iff wfR idx e k n q).mp (Finset.mem_filter.mp hj).2
    show ix2 e q = ix2 e k
    rw [h.2]
  · intro j hj
    obtain ⟨e, k, rfl⟩ : ∃ (e : Fin R) (k : Fin C2), j = ix2 e k := ⟨j 0, j 1, eq_ix2 j⟩
    have h := (addRows_lands_iff wfK idx e k n ⟨o + q.val, hq⟩).mp (Finset.mem_filter.mp hj).2
    show W (ix2 e k) = U (ix2 e q)
    rw [h.2]
    exact hW e q

/-! ## The scatter of two arrays side by side -/

section Cat
variable {N R C C2 : Nat} (hC : C2 = C + C)
  (wfK : ScatterDims.WF ⟨2, ![N, C2]⟩ ⟨2, ![R, 1]⟩ ⟨2, ![R, C2]⟩ [1] [0] [0] 1)
  (wfR : ScatterDims.WF ⟨2, ![N, C]⟩ ⟨2, ![R, 1]⟩ ⟨2, ![R, C]⟩ [1] [0] [0] 1)
  (hc : Shape.Concatenates [⟨2, ![R, C]⟩, ⟨2, ![R, C]⟩] ⟨2, ![R, C2]⟩ 1)
  (U V : FVec Ideal ⟨2, ![R, C]⟩ .f32) (idx : IVec ⟨2, ![R, 1]⟩ 32)
  (Z2 : FVec Ideal ⟨2, ![N, C2]⟩ .f32) (hZ2 : ∀ i, Z2 i = 0)
  (Z1 : FVec Ideal ⟨2, ![N, C]⟩ .f32) (hZ1 : ∀ i, Z1 i = 0)

include hC hZ2 hZ1 in
/-- The left half of the scatter of [U | V] is the scatter of U. -/
theorem seg_cat_left_gen (hs : (⟨2, ![N, C2]⟩ : Shape).Slices ![0, 0] ⟨2, ![N, C]⟩) :
    extractStridedSlice ⟨2, ![N, C]⟩ ![0, 0]
      (Host.scatterAdd (addRowsDims N R C2 wfK) Z2 idx (concatenate ⟨2, ![R, C2]⟩ 1 [⟨_, U⟩, ⟨_, V⟩] hc)) hs
    = Host.scatterAdd (addRowsDims N R C wfR) Z1 idx U := by
  funext i
  obtain ⟨n, q, rfl⟩ : ∃ (n : Fin N) (q : Fin C), i = ix2 n q := ⟨i 0, i 1, eq_ix2 i⟩
  have hq : 0 + q.val < C2 := by have := q.isLt; omega
  refine (extractStridedSlice_apply ![0, 0] _ hs (ix2 n q) (ix2 n (⟨0 + q.val, hq⟩ : Fin C2)) (fun a => ?_)).trans ?_
  · match a with
    | ⟨0, _⟩ => show n.val = 0 + n.val; omega
    | ⟨1, _⟩ => rfl
  refine addRows_cols 0 (by omega) wfK wfR idx Z2 hZ2 Z1 hZ1 _ U (fun e q' => ?_) n q
  refine concatenate_pair_apply_left (t := ⟨2, ![R, C2]⟩) 1 U V hc _ rfl (ix2 e q') (fun b => ?_)
  match b with
  | ⟨0, _⟩ => rfl
  | ⟨1, _⟩ => show q'.val = 0 + q'.val; omega

include hC hZ2 hZ1 in
/-- The right half of the scatter of [U | V] is the scatter of V. -/
theorem seg_cat_right_gen (hs : (⟨2, ![N, C2]⟩ : Shape).Slices ![0, C] ⟨2, ![N, C]⟩) :
    extractStridedSlice ⟨2, ![N, C]⟩ ![0, C]
      (Host.scatterAdd (addRowsDims N R C2 wfK) Z2 idx (concatenate ⟨2, ![R, C2]⟩ 1 [⟨_, U⟩, ⟨_, V⟩] hc)) hs
    = Host.scatterAdd (addRowsDims N R C wfR) Z1 idx V := by
  funext i
  obtain ⟨n, q, rfl⟩ : ∃ (n : Fin N) (q : Fin C), i = ix2 n q := ⟨i 0, i 1, eq_ix2 i⟩
  have hq : C + q.val < C2 := by have := q.isLt; omega
  refine (extractStridedSlice_apply ![0, C] _ hs (ix2 n q) (ix2 n (⟨C + q.val, hq⟩ : Fin C2)) (fun a => ?_)).trans ?_
  · match a with
    | ⟨0, _⟩ => show n.val = 0 + n.val; omega
    | ⟨1, _⟩ => rfl
  refine addRows_cols C (by omega) wfK wfR idx Z2 hZ2 Z1 hZ1 _ V (fun e q' => ?_) n q
  refine concatenate_pair_apply_right (t := ⟨2, ![R, C2]⟩) 1 U V hc _ rfl rfl (ix2 e q') (fun b hb => ?_) ?_
  · match b with
    | ⟨0, _⟩ => rfl
    | ⟨1, _⟩ => exact absurd rfl hb
  · show q'.val + C = C + q'.val
    omega

end Cat

end Cert.Glue

end
-- ==== Proof.Glue.lean ====
/-
  The two layout laws of the host operations between the kernel calls, at the kernel's and the reference's shapes.

  * Three [128, 128] matrices side by side along the columns, and three length-128 vectors end to end, read at an
    index (cat3_mat_0/1/2, cat3_vec_0/1/2: the imported module).
  * The add-scatter of the two-piece concatenation [U | V] of [600000, 128] arrays into a zero [50000, 256] operand is
    the two add-scatters into zero [50000, 128] operands side by side: its columns 0 … 127 are the scatter of U, its
    columns 128 … 255 the scatter of V. Element (n, q) of either side is the sum of the updates (e, q) whose signed
    index is n.
-/
import proofs.«172384_j69131793596856_2_alg».proof.KernelIdeal
import proofs.«172384_j69131793596856_2_alg».proof.ReferenceIdeal
import proofs.«172384_j69131793596856_2_alg».proof.Proof.GlueCat
import proofs.«172384_j69131793596856_2_alg».proof.Proof.LibSegCat

noncomputable section

namespace Cert.Glue

open Idealize.ShloMosaic Idealize.ShloMosaic.ValueIdx

variable [Cert.KernelIdeal.Facts] [Cert.ReferenceIdeal.Facts]

section Seg
variable (U V : FVec Ideal ⟨2, ![600000, 128]⟩ .f32) (idx : IVec ⟨2, ![600000, 1]⟩ 32)
  (Z256 : FVec Ideal ⟨2, ![50000, 256]⟩ .f32) (hZ : ∀ i, Z256 i = 0)
  (Z128 : FVec Ideal ⟨2, ![50000, 128]⟩ .f32) (hZ' : ∀ i, Z128 i = 0)
  (hc : Shape.Concatenates [⟨2, ![600000, 128]⟩, ⟨2, ![600000, 128]⟩] ⟨2, ![600000, 256]⟩ 1)

include hZ hZ' in
/-- Columns 0 … 127 of the scatter of [U | V] are the scatter of U. -/
theorem seg_cat_left (hs0 : (⟨2, ![50000, 256]⟩ : Shape).Slices ![0, 0] ⟨2, ![50000, 128]⟩) :
    extractStridedSlice ⟨2, ![50000, 128]⟩ ![0, 0]
      (Host.scatterAdd Cert.KernelIdeal.scatter_S50000x256_S600000x1_S600000x256_1_0_0_1 Z256 idx
        (concatenate ⟨2, ![600000, 256]⟩ 1 [⟨_, U⟩, ⟨_, V⟩] hc)) hs0
    = Host.scatterAdd Cert.ReferenceIdeal.scatter_S50000x128_S600000x1_S600000x128_1_0_0_1 Z128 idx U :=
  seg_cat_left_gen (N := 50000) (R := 600000) (C := 128) (C2 := 256) rfl
    Cert.KernelIdeal.Facts₀.scatter_S50000x256_S600000x1_S600000x256_1_0_0_1_wf
    Cert.ReferenceIdeal.Facts₀.scatter_S50000x128_S600000x1_S600000x128_1_0_0_1_wf
    hc U V idx Z256 hZ Z128 hZ' hs0

include hZ hZ' in
/-- Columns 128 … 255 of the scatter of [U | V] are the scatter of V. -/
theorem seg_cat_right (hs1 : (⟨2, ![50000, 256]⟩ : Shape).Slices ![0, 128] ⟨2, ![50000, 128]⟩) :
    extractStridedSlice ⟨2, ![50000, 128]⟩ ![0, 128]
      (Host.scatterAdd Cert.KernelIdeal.scatter_S50000x256_S600000x1_S600000x256_1_0_0_1 Z256 idx
        (concatenate ⟨2, ![600000, 256]⟩ 1 [⟨_, U⟩, ⟨_, V⟩] hc)) hs1
    = Host.scatterAdd Cert.ReferenceIdeal.scatter_S50000x128_S600000x1_S600000x128_1_0_0_1 Z128 idx V :=
  seg_cat_right_gen (N := 50000) (R := 600000) (C := 128) (C2 := 256) rfl
    Cert.KernelIdeal.Facts₀.scatter_S50000x256_S600000x1_S600000x256_1_0_0_1_wf
    Cert.ReferenceIdeal.Facts₀.scatter_S50000x128_S600000x1_S600000x128_1_0_0_1_wf
    hc U V idx Z256 hZ Z128 hZ' hs1

end Seg

end Cert.Glue

end
-- ==== Proof.LibHostLN.lean ====
/-
  THE HOST'S SPELLING OF THREE STAGES IS THE STAGE, at the extended reals, generic in the row count A and the lane
  count C (the gated unit and the gate at any shape). Nothing here depends on a program: every shape fact is a
  hypothesis.

  * A layer normalisation of every row written with keepdims sums: the row sum from the zero constant, seen as an
    [A, 1] column, divided by the broadcast scalar 128, spread over the lanes and subtracted; the squares of the
    differences summed and divided the same way; the broadcast scalar 1e-5 added; the reciprocal square root spread
    over the lanes and multiplied; the scale and the shift vectors broadcast [C] → [1, C] → [A, C], multiplied and
    added. This is lnRows at the values of the two constants.
  * x · (1 / (1 + exp(−x))), the ones a broadcast scalar constant, is x · σ(x).
  * 1 / (1 + exp(−x)) likewise is σ(x).

  The sum along the lanes of an [A, C] array, read at row r, is the sum over k of the entries (r, k): the source index
  over the result index (r) whose coordinate on the dropped axis is k is (r, k). The mean column read at (r, 0) is that
  sum divided by the constant's value, so the array less its spread mean column is the centered array, entry by entry;
  the variance column is the mean column of the centered array's squares.
-/
import proofs.«172384_j69131793596856_2_alg».proof.Proof.LibStages
import Idealize.ShloMosaic.Lib.IdealHost

noncomputable section

open scoped BigOperators

namespace Cert.Stage

open Idealize.ShloMosaic Idealize.ShloMosaic.ValueIdx Cert.Layer Cert.RowLocal

variable {A C : Nat}

/-! ## The sum along the lanes -/

/-- A reduction fact of the host's kind along the lanes of an [A, C] array is one of the kernel's kind: the result
    has an axis. -/
theorem reduces_of_reducesTo (hr : (⟨2, ![A, C]⟩ : Shape).ReducesTo [1] ⟨1, ![A]⟩) :
    (⟨2, ![A, C]⟩ : Shape).Reduces [1] ⟨1, ![A]⟩ :=
  hr.elim fun e hb => ⟨e, Nat.one_pos, hb⟩

/-- The source index over row r whose lane is k. -/
theorem lift_row_host (h : (⟨2, ![A, C]⟩ : Shape).Reduces [1] ⟨1, ![A]⟩) (r : Fin A) (k : Fin C) :
    h.lift (ix1 r) k = ix2 r k := by
  funext c
  refine Fin.ext ?_
  show h.liftVal (ix1 r) k.val c = (ix2 r k c).val
  unfold Shape.Reduces.liftVal
  match c with
  | ⟨0, _⟩ => rfl
  | ⟨1, _⟩ => rfl

/-- The host's sum along the lanes from the zero constant, read at row r: the row's sum. -/
theorem hostRowSum_apply (Y : FVec Ideal ⟨2, ![A, C]⟩ .f32)
    (hr : (⟨2, ![A, C]⟩ : Shape).ReducesTo [1] ⟨1, ![A]⟩) (hu : 0 < (⟨0, ![]⟩ : Shape).numel) (r : Fin A) :
    Host.reduceAdd (F := Ideal) Y (constant (F := Ideal) ⟨0, ![]⟩ .f32 0x00000000#32) hr hu (ix1 r) = rowSum Y r := by
  refine (hostReduceAdd_apply Y _ hr hu (ix1 r)).trans ?_
  refine (Ideal.hostReduceAdd_single hr (reduces_of_reducesTo hr) Y _ (ix1 r)).trans ?_
  rw [constant_apply, Ideal.ofBits_zero_f32, zero_add]
  unfold rowSum
  exact Finset.sum_congr rfl fun k _ => congrArg Y (lift_row_host _ r k)

/-- The keepdims mean of the host: the row sums as a column, divided by a broadcast scalar constant, read at (r, 0):
    row r's sum divided by the constant's value. -/
theorem hostMeanCol_apply (Y : FVec Ideal ⟨2, ![A, C]⟩ .f32) (nb : BitVec 32)
    (hr : (⟨2, ![A, C]⟩ : Shape).ReducesTo [1] ⟨1, ![A]⟩) (hu : 0 < (⟨0, ![]⟩ : Shape).numel)
    (hc : (⟨1, ![A]⟩ : Shape).BroadcastsInDim ⟨2, ![A, 1]⟩ ![0])
    (hs : (⟨0, ![]⟩ : Shape).BroadcastsInDim ⟨2, ![A, 1]⟩ ![]) (r : Fin A) :
    Host.divf (F := Ideal)
        (broadcastInDim ⟨2, ![A, 1]⟩ ![0] hc
          (Host.reduceAdd (F := Ideal) Y (constant (F := Ideal) ⟨0, ![]⟩ .f32 0x00000000#32) hr hu))
        (broadcastInDim ⟨2, ![A, 1]⟩ ![] hs (constant (F := Ideal) ⟨0, ![]⟩ .f32 nb)) (col0 r)
      = Ideal.div (rowSum Y r) (Ideal.ofBits .f32 nb) := by
  rw [hostDivf_apply, Cert.LibSegSum.bcast_unit_apply, broadcastInDim_scalar_apply, hostRowSum_apply, constant_apply]

/-! ## The layer normalisation -/

section LN

variable (Y : FVec Ideal ⟨2, ![A, C]⟩ .f32) (w b : FVec Ideal ⟨1, ![C]⟩ .f32)
  (hr : (⟨2, ![A, C]⟩ : Shape).ReducesTo [1] ⟨1, ![A]⟩) (hu : 0 < (⟨0, ![]⟩ : Shape).numel)
  (hc : (⟨1, ![A]⟩ : Shape).BroadcastsInDim ⟨2, ![A, 1]⟩ ![0])
  (hs : (⟨0, ![]⟩ : Shape).BroadcastsInDim ⟨2, ![A, 1]⟩ ![])
  (hb : (⟨2, ![A, 1]⟩ : Shape).BroadcastsInDim ⟨2, ![A, C]⟩ ![0, 1])
  (h1 : (⟨1, ![C]⟩ : Shape).BroadcastsInDim ⟨2, ![1, C]⟩ ![1])
  (h2 : (⟨2, ![1, C]⟩ : Shape).BroadcastsInDim ⟨2, ![A, C]⟩ ![0, 1])

/- The host's sub-terms, named for this section only; each name stands for the text on its right, written out in
   place wherever it is used. -/

/- The keepdims mean column of X: its row sums from zero as a column, over the broadcast scalar 128. -/
set_option quotPrecheck false in
local notation "meanCol(" X ")" =>
  Host.divf (F := Ideal)
    (broadcastInDim ⟨2, ![A, 1]⟩ ![0] hc
      (Host.reduceAdd (F := Ideal) X (constant (F := Ideal) ⟨0, ![]⟩ .f32 0x00000000#32) hr hu))
    (broadcastInDim ⟨2, ![A, 1]⟩ ![] hs (constant (F := Ideal) ⟨0, ![]⟩ .f32 0x43000000#32))

/- Y less its mean column spread over the lanes. -/
set_option quotPrecheck false in
local notation "cen" => subf Y (broadcastInDim ⟨2, ![A, C]⟩ ![0, 1] hb meanCol(Y))

/- The reciprocal square root, as a column, of the mean column of D's squares plus the broadcast scalar 1e-5. -/
set_option quotPrecheck false in
local notation "rsCol(" D ")" =>
  Host.rsqrt (F := Ideal)
    (addf meanCol(mulf D D) (broadcastInDim ⟨2, ![A, 1]⟩ ![] hs (constant (F := Ideal) ⟨0, ![]⟩ .f32 0x3727C5AC#32)))

/- A vector spread down the rows by two keepdims broadcasts. -/
set_option quotPrecheck false in
local notation "rowOf(" v ")" => broadcastInDim ⟨2, ![A, C]⟩ ![0, 1] h2 (broadcastInDim ⟨2, ![1, C]⟩ ![1] h1 v)

/-- Y less its spread mean column is the centered array. -/
theorem hostCentered_eq : cen = centered n128 Y :=
  funext fun i => by
    obtain ⟨p, q, rfl⟩ : ∃ (p : Fin A) (q : Fin C), i = ix2 p q := ⟨i 0, i 1, eq_ix2 i⟩
    show Y (ix2 p q) - broadcastInDim ⟨2, ![A, C]⟩ ![0, 1] hb meanCol(Y) (ix2 p q)
      = Y (ix2 p q) - Ideal.div (rowSum Y p) n128
    rw [bcastCol_apply, hostMeanCol_apply]

/-- The host's layer normalisation of every row is lnRows at 128 and 1e-5. -/
theorem hostLN_eq :
    addf (mulf (mulf cen (broadcastInDim ⟨2, ![A, C]⟩ ![0, 1] hb rsCol(cen))) rowOf(w)) rowOf(b)
      = lnRows n128 eps5 Y w b := by
  rw [hostCentered_eq Y hr hu hc hs hb]
  funext i
  obtain ⟨p, q, rfl⟩ : ∃ (p : Fin A) (q : Fin C), i = ix2 p q := ⟨i 0, i 1, eq_ix2 i⟩
  show centered n128 Y (ix2 p q) * broadcastInDim ⟨2, ![A, C]⟩ ![0, 1] hb rsCol(centered n128 Y) (ix2 p q)
      * rowOf(w) (ix2 p q) + rowOf(b) (ix2 p q) = lnRows n128 eps5 Y w b (ix2 p q)
  rw [bcastCol_apply, Cert.LibSegSum.bcast_row_apply, Cert.LibSegSum.bcast_row_apply]
  show centered n128 Y (ix2 p q)
        * Ideal.rsqrt (meanCol(mulf (centered n128 Y) (centered n128 Y)) (col0 p)
            + broadcastInDim ⟨2, ![A, 1]⟩ ![] hs (constant (F := Ideal) ⟨0, ![]⟩ .f32 0x3727C5AC#32) (col0 p))
        * w (ix1 q) + b (ix1 q) = lnRows n128 eps5 Y w b (ix2 p q)
  rw [hostMeanCol_apply, broadcastInDim_scalar_apply, constant_apply]
  rfl

end LN

/-! ## The gate and the gated unit, at any shape -/

/-- 1 / (1 + exp(−x)), the ones a broadcast scalar constant, is σ(x). -/
theorem hostSigmoid_eq {S : Shape} (M : FVec Ideal S .f32) (h0 : (⟨0, ![]⟩ : Shape).BroadcastsInDim S ![]) :
    Host.divf (F := Ideal) (broadcastInDim S ![] h0 (constant (F := Ideal) ⟨0, ![]⟩ .f32 0x3F800000#32))
        (addf (broadcastInDim S ![] h0 (constant (F := Ideal) ⟨0, ![]⟩ .f32 0x3F800000#32))
          (Host.exp (F := Ideal) (Host.negf (F := Ideal) M)))
      = fun i => Ideal.logistic (M i) :=
  funext fun i => by
    show Ideal.div (broadcastInDim S ![] h0 (constant (F := Ideal) ⟨0, ![]⟩ .f32 0x3F800000#32) i)
        (broadcastInDim S ![] h0 (constant (F := Ideal) ⟨0, ![]⟩ .f32 0x3F800000#32) i + Ideal.exp (-(M i)))
      = Ideal.logistic (M i)
    rw [broadcastInDim_scalar_apply, constant_apply, Ideal.ofBits_one_f32]
    rfl

/-- x · (1 / (1 + exp(−x))) is x · σ(x). -/
theorem hostSilu_eq {S : Shape} (Z : FVec Ideal S .f32) (h0 : (⟨0, ![]⟩ : Shape).BroadcastsInDim S ![]) :
    mulf Z (Host.divf (F := Ideal) (broadcastInDim S ![] h0 (constant (F := Ideal) ⟨0, ![]⟩ .f32 0x3F800000#32))
        (addf (broadcastInDim S ![] h0 (constant (F := Ideal) ⟨0, ![]⟩ .f32 0x3F800000#32))
          (Host.exp (F := Ideal) (Host.negf (F := Ideal) Z))))
      = fun i => silu (Z i) := by
  rw [hostSigmoid_eq Z h0]
  rfl

end Cert.Stage

end
-- ==== Proof.Ref.lean ====
/-
  THE REFERENCE'S TWO RESULTS ARE THE NETWORK'S STAGES, at the extended reals, with its gathers and its add-scatters
  carried as whole-array terms that are never opened.

  The reference projects the node features three times (NF · W + b), gathers two of the projections at the source and
  target lists and adds them (the gate sum GS), adds the edge projection (the message M), takes the gate σ(M), gathers
  the third projection at the source list (BHG), adds the gated messages σ(M) · BHG and the gates σ(M) into the nodes
  of the target list (NUM and DEN), forms (NF · W + b) + NUM / (DEN + 1e-6), and returns NF + silu(LN(·)) of that and
  EF + silu(LN(M)). Each of its spellings is the stage of the same name: a dot_general with two keepdims broadcasts of
  the bias is the projection; the keepdims layer normalisation is lnRows; 1 / (1 + exp(−x)) is σ; x · that is silu.
  The gathers (with the reference's own wrap of a negative index) and the add-scatters into zero are the same terms on
  both sides of each equation.
-/
import proofs.«172384_j69131793596856_2_alg».proof.Proof.Gen.ReferenceIdeal.Run
import proofs.«172384_j69131793596856_2_alg».proof.Proof.LibHostLN

noncomputable section

open scoped BigOperators

namespace Cert.RefStage

open Cert.ReferenceIdeal Cert.ReferenceIdeal.Gen Cert.ReferenceIdeal.Value Cert.Stage Cert.Layer
open Idealize.ShloMosaic Idealize.ShloMosaic.TcCoe Idealize.SL.Sem Idealize.ShloMosaic.StableHlo Idealize.ShloMosaic.ValueIdx

/-! ## The reference's whole-array terms -/

/-- A node projection X · W + b. -/
def proj (X : Arr 50000 128) (W : Arr 128 128) (b : Vec1 128) : Arr 50000 128 := addRow (prod X W) b

/-- An index list as the gather's [600000, 1] start indices, a negative index wrapped by 50000 first. -/
def idxCol (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The rows of X gathered at an index list. -/
def gat (X : Arr 50000 128) (s : IVec S600000 32) : Arr 600000 128 :=
  Host.gather gather_S50000x128_S600000x1_S600000x128_1_0_n_n_0_1_1128 X (idxCol s)

/-- The rows of U added into the nodes of an index list, from zero. -/
def seg (U : Arr 600000 128) (d : IVec S600000 32) : Arr 50000 128 :=
  Host.scatterAdd (F := Ideal) (φ := .f32) scatter_S50000x128_S600000x1_S600000x128_1_0_0_1
    (broadcastInDim S50000x128 ![] bcast_S_S50000x128 (constant (F := Ideal) S_ .f32 0x00000000#32))
    (broadcastInDim S600000x1 ![0] bcast_S600000_S600000x1_0 d) U

/-! ## Each spelling is its stage -/

/-- A node projection as the reference spells it. -/
theorem projN_eq (X : FVec Ideal S50000x128 .f32) (W : FVec Ideal S128x128 .f32) (b : FVec Ideal S128 .f32) :
    addf (Host.dotGeneral (F := Ideal) dot_S50000x128_S128x128_S50000x128_1_0_0_1_n_n none X W)
        (broadcastInDim S50000x128 ![0, 1] bcast_S1x128_S50000x128_0_1 (broadcastInDim S1x128 ![1] bcast_S128_S1x128_1 b))
      = proj X W b := by
  rw [dotGeneral_eq_prod dot_S50000x128_S128x128_S50000x128_1_0_0_1_n_n rfl rfl rfl rfl rfl rfl X W]
  exact hostAddRow_eq (prod X W) b bcast_S128_S1x128_1 bcast_S1x128_S50000x128_0_1

/-- The edge projection as the reference spells it. -/
theorem projE_eq (X : FVec Ideal S600000x128 .f32) (W : FVec Ideal S128x128 .f32) (b : FVec Ideal S128 .f32) :
    addf (Host.dotGeneral (F := Ideal) dot_S600000x128_S128x128_S600000x128_1_0_0_1_n_n none X W)
        (broadcastInDim S600000x128 ![0, 1] bcast_S1x128_S600000x128_0_1 (broadcastInDim S1x128 ![1] bcast_S128_S1x128_1 b))
      = addRow (prod X W) b := by
  rw [dotGeneral_eq_prod dot_S600000x128_S128x128_S600000x128_1_0_0_1_n_n rfl rfl rfl rfl rfl rfl X W]
  exact hostAddRow_eq (prod X W) b bcast_S128_S1x128_1 bcast_S1x128_S600000x128_0_1

/-- A gather at a wrapped index list, as the reference spells it. -/
theorem gat_eq (X : FVec Ideal S50000x128 .f32) (s : IVec S600000 32) :
    Host.gather gather_S50000x128_S600000x1_S600000x128_1_0_n_n_0_1_1128 X
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 50000#32))) s))
      = gat X s := rfl

/-- An add-scatter into zero, as the reference spells it. -/
theorem seg_eq (U : FVec Ideal S600000x128 .f32) (d : IVec S600000 32) :
    Host.scatterAdd (F := Ideal) scatter_S50000x128_S600000x1_S600000x128_1_0_0_1
        (broadcastInDim S50000x128 ![] bcast_S_S50000x128 (constant (F := Ideal) S_ .f32 0x00000000#32))
        (broadcastInDim S600000x1 ![0] bcast_S600000_S600000x1_0 d) U
      = seg U d := rfl

/-- The gate sum plus the edge projection is the message. -/
theorem edgeM_eq (GS EF : FVec Ideal S600000x128 .f32) (W : FVec Ideal S128x128 .f32) (b : FVec Ideal S128 .f32) :
    addf GS (addRow (prod EF W) b : FVec Ideal S600000x128 .f32) = edgeM EF GS W b := rfl

/-- The gate of the message, as the reference spells it. -/
theorem edgeSig_eq (GS EF : FVec Ideal S600000x128 .f32) (W : FVec Ideal S128x128 .f32) (b : FVec Ideal S128 .f32) :
    Host.divf (F := Ideal) (broadcastInDim S600000x128 ![] bcast_S_S600000x128 (constant (F := Ideal) S_ .f32 0x3F800000#32))
        (addf (broadcastInDim S600000x128 ![] bcast_S_S600000x128 (constant (F := Ideal) S_ .f32 0x3F800000#32))
          (Host.exp (F := Ideal) (Host.negf (F := Ideal) (edgeM EF GS W b : FVec Ideal S600000x128 .f32))))
      = edgeSig EF GS W b :=
  hostSigmoid_eq (edgeM EF GS W b) bcast_S_S600000x128

/-- The gate times the gathered third projection is the gated message. -/
theorem edgeWt_eq (GS EF BHG : FVec Ideal S600000x128 .f32) (W : FVec Ideal S128x128 .f32) (b : FVec Ideal S128 .f32) :
    mulf (edgeSig EF GS W b : FVec Ideal S600000x128 .f32) BHG = edgeWt EF GS W b BHG := rfl

/-- The node projection plus the quotient of the two segment sums, 1e-6 added to the divisor, is the node
    pre-activation. -/
theorem nodeX_eq (NF NUM DEN : FVec Ideal S50000x128 .f32) (W : FVec Ideal S128x128 .f32) (b : FVec Ideal S128 .f32) :
    addf (proj NF W b : FVec Ideal S50000x128 .f32)
        (Host.divf (F := Ideal) NUM
          (addf DEN (broadcastInDim S50000x128 ![] bcast_S_S50000x128 (constant (F := Ideal) S_ .f32 0x358637BD#32))))
      = nodeX eps6 NF W b NUM DEN :=
  funext fun i => by
    show addRow (prod NF W) b i
        + Ideal.div (NUM i) (DEN i + broadcastInDim S50000x128 ![] bcast_S_S50000x128 (constant (F := Ideal) S_ .f32 0x358637BD#32) i)
      = addRow (prod NF W) b i + Ideal.div (NUM i) (DEN i + eps6)
    rw [broadcastInDim_scalar_apply, constant_apply]

section Args

variable (m : (ℓ : Loc nD τ sig) → Buf (Elt Ideal) ℓ) (c : Dev nD)

/- @main's arguments at launch, named for this section only. -/
set_option quotPrecheck false in local notation "a0" => m ((c.tc : Thread nD τ).loc main_arg0)
set_option quotPrecheck false in local notation "a1" => m ((c.tc : Thread nD τ).loc main_arg1)
set_option quotPrecheck false in local notation "a2" => m ((c.tc : Thread nD τ).loc main_arg2)
set_option quotPrecheck false in local notation "a3" => m ((c.tc : Thread nD τ).loc main_arg3)
set_option quotPrecheck false in local notation "a4" => m ((c.tc : Thread nD τ).loc main_arg4)
set_option quotPrecheck false in local notation "a5" => m ((c.tc : Thread nD τ).loc main_arg5)
set_option quotPrecheck false in local notation "a6" => m ((c.tc : Thread nD τ).loc main_arg6)
set_option quotPrecheck false in local notation "a7" => m ((c.tc : Thread nD τ).loc main_arg7)
set_option quotPrecheck false in local notation "a8" => m ((c.tc : Thread nD τ).loc main_arg8)
set_option quotPrecheck false in local notation "a9" => m ((c.tc : Thread nD τ).loc main_arg9)
set_option quotPrecheck false in local notation "a10" => m ((c.tc : Thread nD τ).loc main_arg10)
set_option quotPrecheck false in local notation "a11" => m ((c.tc : Thread nD τ).loc main_arg11)
set_option quotPrecheck false in local notation "a12" => m ((c.tc : Thread nD τ).loc main_arg12)
set_option quotPrecheck false in local notation "a13" => m ((c.tc : Thread nD τ).loc main_arg13)
set_option quotPrecheck false in local notation "a14" => m ((c.tc : Thread nD τ).loc main_arg14)
set_option quotPrecheck false in local notation "a15" => m ((c.tc : Thread nD τ).loc main_arg15)
set_option quotPrecheck false in local notation "a16" => m ((c.tc : Thread nD τ).loc main_arg16)
set_option quotPrecheck false in local notation "a17" => m ((c.tc : Thread nD τ).loc main_arg17)

/-- The gate sum: the first projection gathered at the source list plus the second gathered at the target list. -/
def GSr : Arr 600000 128 :=
  addf (F := Ideal) (s := S600000x128) (φ := .f32) (gat (proj a0 a2 a3) a16) (gat (proj a0 a4 a5) a17)

/-- The third projection gathered at the source list. -/
def BHGr : Arr 600000 128 := gat (proj a0 a10 a11) a16

/-- The two gathered projections added are the gate sum. -/
theorem GSr_eq :
    addf (F := Ideal) (s := S600000x128) (φ := .f32) (gat (proj a0 a2 a3) a16) (gat (proj a0 a4 a5) a17) = GSr m c := rfl

/-- The third projection gathered at the source list. -/
theorem BHGr_eq : gat (proj a0 a10 a11) a16 = BHGr m c := rfl

/- The stages at @main's arguments, named for this section only. -/
set_option quotPrecheck false in local notation "Mr" => edgeM a1 (GSr m c) a6 a7
set_option quotPrecheck false in local notation "NUMr" => seg (edgeWt a1 (GSr m c) a6 a7 (BHGr m c)) a17
set_option quotPrecheck false in local notation "DENr" => seg (edgeSig a1 (GSr m c) a6 a7) a17
set_option quotPrecheck false in local notation "Xr" => nodeX eps6 a0 a8 a9 NUMr DENr

set_option maxRecDepth 16384 in
/-- The reference's second result is the edge output. -/
theorem ref_out1 : res_main_v111 (F := Ideal) m c = edgeY n128 eps5 a1 (GSr m c) a6 a7 a14 a15 := by
  unfold res_main_v111
  -- the two node projections and the edge projection
  rewrite [projN_eq a0 a2 a3, projN_eq a0 a4 a5, projE_eq a1 a6 a7]
  -- their gathers at the source and the target list, and the gate sum
  rewrite [gat_eq (proj a0 a2 a3) a16, gat_eq (proj a0 a4 a5) a17]
  rewrite [GSr_eq m c]
  -- the message
  rewrite [edgeM_eq (GSr m c) a1 a6 a7]
  -- its layer normalisation, then the gated unit
  rewrite [hostLN_eq (A := 600000) (C := 128) Mr a14 a15 reducesTo_S600000x128_S600000_d1 h_S_
      bcast_S600000_S600000x1_0 bcast_S_S600000x1 bcast_S600000x1_S600000x128_0_1 bcast_S128_S1x128_1
      bcast_S1x128_S600000x128_0_1]
  rewrite [hostSilu_eq (lnRows n128 eps5 Mr a14 a15) bcast_S_S600000x128]
  -- EF + silu(LN(M)), entry by entry
  rfl

set_option maxRecDepth 16384 in
/-- The reference's first result is the node output. -/
theorem ref_out0 : res_main_v110 (F := Ideal) m c
    = nodeOut n128 eps5 eps6 a0 a8 a9 (seg (edgeWt a1 (GSr m c) a6 a7 (BHGr m c)) a17)
        (seg (edgeSig a1 (GSr m c) a6 a7) a17) a12 a13 := by
  unfold res_main_v110
  -- the four node projections and the edge projection
  rewrite [projN_eq a0 a8 a9, projN_eq a0 a2 a3, projN_eq a0 a4 a5, projN_eq a0 a10 a11, projE_eq a1 a6 a7]
  -- the three gathers, the gate sum and the gathered third projection
  rewrite [gat_eq (proj a0 a2 a3) a16, gat_eq (proj a0 a4 a5) a17, gat_eq (proj a0 a10 a11) a16]
  rewrite [GSr_eq m c, BHGr_eq m c]
  -- the message, its gate, the gated message
  rewrite [edgeM_eq (GSr m c) a1 a6 a7]
  rewrite [edgeSig_eq (GSr m c) a1 a6 a7]
  rewrite [edgeWt_eq (GSr m c) a1 (BHGr m c) a6 a7]
  -- the two segment sums into the nodes of the target list
  rewrite [seg_eq (edgeWt a1 (GSr m c) a6 a7 (BHGr m c)) a17, seg_eq (edgeSig a1 (GSr m c) a6 a7) a17]
  -- the node pre-activation, its layer normalisation, then the gated unit
  rewrite [nodeX_eq a0 NUMr DENr a8 a9]
  rewrite [hostLN_eq (A := 50000) (C := 128) Xr a12 a13 reducesTo_S50000x128_S50000_d1 h_S_
      bcast_S50000_S50000x1_0 bcast_S_S50000x1 bcast_S50000x1_S50000x128_0_1 bcast_S128_S1x128_1
      bcast_S1x128_S50000x128_0_1]
  rewrite [hostSilu_eq (lnRows n128 eps5 Xr a12 a13) bcast_S_S50000x128]
  -- NF + silu(LN(X)), entry by entry
  rfl

end Args

end Cert.RefStage

end
-- ==== Proof.KI.Value.lean ====
/-
  What the kernel program's two results hold at the end of the run, as the network's stages of the argument arrays.
  Boundary by boundary: the first region's three results are the three projections of the node features (the
  concatenated weight read back column block by column block); the gathers give the per-edge gate sum and gathered
  update; the edge region gives the edge output, the gate and the gated message; the scatter-add of the two laid side
  by side is the two segment sums; the last region gives the node output.
-/
import proofs.«172384_j69131793596856_2_alg».proof.Proof.KI.Frame
import proofs.«172384_j69131793596856_2_alg».proof.Proof.KI.HostRead
import proofs.«172384_j69131793596856_2_alg».proof.Proof.KI.Blocks0
import proofs.«172384_j69131793596856_2_alg».proof.Proof.KI.Blocks1
import proofs.«172384_j69131793596856_2_alg».proof.Proof.KI.Blocks2
import proofs.«172384_j69131793596856_2_alg».proof.Proof.Glue
import proofs.«172384_j69131793596856_2_alg».proof.Proof.Ref

set_option maxRecDepth 16384

noncomputable section

open scoped BigOperators

namespace Cert.KernelIdeal.Hand

open Cert.KernelIdeal Cert.KernelIdeal.Gen Cert.Stage Cert.Layer Cert.Glue
open Idealize.ShloMosaic Idealize.ShloMosaic.TcCoe Idealize.ShloMosaic.ValueIdx Idealize.SL.Sem

/-! ## The concatenated weight, read back -/

theorem projCols_cat0 {A : Nat} (X : Arr A 128) (u0 u1 u2 : Arr 128 128) (v0 v1 v2 : Vec1 128)
    (h : Shape.Concatenates [⟨2, ![128, 128]⟩, ⟨2, ![128, 128]⟩, ⟨2, ![128, 128]⟩] ⟨2, ![128, 384]⟩ 1)
    (h' : Shape.Concatenates [⟨1, ![128]⟩, ⟨1, ![128]⟩, ⟨1, ![128]⟩] ⟨1, ![384]⟩ 0) :
    projCols 0 (by omega) X (concatenate ⟨2, ![128, 384]⟩ 1 [⟨_, u0⟩, ⟨_, u1⟩, ⟨_, u2⟩] h)
      (concatenate ⟨1, ![384]⟩ 0 [⟨_, v0⟩, ⟨_, v1⟩, ⟨_, v2⟩] h') = addRow (prod X u0) v0 := by
  funext i
  refine congrArg₂ (· + ·) (Finset.sum_congr rfl fun k _ => congrArg (X (ix2 (i 0) k) * ·) ?_) ?_
  · exact cat3_mat_0 u0 u1 u2 h k (i 1)
  · exact cat3_vec_0 v0 v1 v2 h' (i 1)

theorem projCols_cat1 {A : Nat} (X : Arr A 128) (u0 u1 u2 : Arr 128 128) (v0 v1 v2 : Vec1 128)
    (h : Shape.Concatenates [⟨2, ![128, 128]⟩, ⟨2, ![128, 128]⟩, ⟨2, ![128, 128]⟩] ⟨2, ![128, 384]⟩ 1)
    (h' : Shape.Concatenates [⟨1, ![128]⟩, ⟨1, ![128]⟩, ⟨1, ![128]⟩] ⟨1, ![384]⟩ 0) :
    projCols 128 (by omega) X (concatenate ⟨2, ![128, 384]⟩ 1 [⟨_, u0⟩, ⟨_, u1⟩, ⟨_, u2⟩] h)
      (concatenate ⟨1, ![384]⟩ 0 [⟨_, v0⟩, ⟨_, v1⟩, ⟨_, v2⟩] h') = addRow (prod X u1) v1 := by
  funext i
  refine congrArg₂ (· + ·) (Finset.sum_congr rfl fun k _ => congrArg (X (ix2 (i 0) k) * ·) ?_) ?_
  · exact cat3_mat_1 u0 u1 u2 h k (i 1)
  · exact cat3_vec_1 v0 v1 v2 h' (i 1)

theorem projCols_cat2 {A : Nat} (X : Arr A 128) (u0 u1 u2 : Arr 128 128) (v0 v1 v2 : Vec1 128)
    (h : Shape.Concatenates [⟨2, ![128, 128]⟩, ⟨2, ![128, 128]⟩, ⟨2, ![128, 128]⟩] ⟨2, ![128, 384]⟩ 1)
    (h' : Shape.Concatenates [⟨1, ![128]⟩, ⟨1, ![128]⟩, ⟨1, ![128]⟩] ⟨1, ![384]⟩ 0) :
    projCols 256 (by omega) X (concatenate ⟨2, ![128, 384]⟩ 1 [⟨_, u0⟩, ⟨_, u1⟩, ⟨_, u2⟩] h)
      (concatenate ⟨1, ![384]⟩ 0 [⟨_, v0⟩, ⟨_, v1⟩, ⟨_, v2⟩] h') = addRow (prod X u2) v2 := by
  funext i
  refine congrArg₂ (· + ·) (Finset.sum_congr rfl fun k _ => congrArg (X (ix2 (i 0) k) * ·) ?_) ?_
  · exact cat3_mat_2 u0 u1 u2 h k (i 1)
  · exact cat3_vec_2 v0 v1 v2 h' (i 1)

variable (m : (ℓ : Loc nD τ sig) → Buf (Elt Ideal) ℓ) (ρ : Dev nD → PrngReg) (c : Dev nD)

/-- The argument arrays on core c. -/
abbrev ar0 : Arr 50000 128 := m ((c : Thread nD τ).loc main_arg0)
abbrev ar1 : Arr 600000 128 := m ((c : Thread nD τ).loc main_arg1)
abbrev ar2 : Arr 128 128 := m ((c : Thread nD τ).loc main_arg2)
abbrev ar3 : Vec1 128 := m ((c : Thread nD τ).loc main_arg3)
abbrev ar4 : Arr 128 128 := m ((c : Thread nD τ).loc main_arg4)
abbrev ar5 : Vec1 128 := m ((c : Thread nD τ).loc main_arg5)
abbrev ar6 : Arr 128 128 := m ((c : Thread nD τ).loc main_arg6)
abbrev ar7 : Vec1 128 := m ((c : Thread nD τ).loc main_arg7)
abbrev ar8 : Arr 128 128 := m ((c : Thread nD τ).loc main_arg8)
abbrev ar9 : Vec1 128 := m ((c : Thread nD τ).loc main_arg9)
abbrev ar10 : Arr 128 128 := m ((c : Thread nD τ).loc main_arg10)
abbrev ar11 : Vec1 128 := m ((c : Thread nD τ).loc main_arg11)
abbrev ar12 : Vec1 128 := m ((c : Thread nD τ).loc main_arg12)
abbrev ar13 : Vec1 128 := m ((c : Thread nD τ).loc main_arg13)
abbrev ar14 : Vec1 128 := m ((c : Thread nD τ).loc main_arg14)
abbrev ar15 : Vec1 128 := m ((c : Thread nD τ).loc main_arg15)
abbrev ar16 : IVec S600000 32 := m ((c : Thread nD τ).loc main_arg16)
abbrev ar17 : IVec S600000 32 := m ((c : Thread nD τ).loc main_arg17)

/-! ## After the first region: the three projections -/

theorem X2_v2_0 : (X2 m ρ c main_v2_0 : S50000x128.Idx → EReal) = addRow (prod (ar0 m c) (ar2 m c)) (ar3 m c) := by
  refine ((hF0 m ρ c 3).symm.trans (arr0_3 (X1 m ρ) c)).trans ?_
  rw [show (X1 m ρ c main_arg0 : S50000x128.Idx → EReal) = ar0 m c from U1_main_arg0 m ρ c,
    show (X1 m ρ c main_v0 : S128x384.Idx → EReal) = _ from host0_v0 (U0 m ρ c),
    show (X1 m ρ c main_v1 : S384.Idx → EReal) = _ from host0_v1 (U0 m ρ c)]
  exact projCols_cat0 _ _ _ _ _ _ _ _ _

theorem X2_v2_1 : (X2 m ρ c main_v2_1 : S50000x128.Idx → EReal) = addRow (prod (ar0 m c) (ar4 m c)) (ar5 m c) := by
  refine ((hF0 m ρ c 4).symm.trans (arr0_4 (X1 m ρ) c)).trans ?_
  rw [show (X1 m ρ c main_arg0 : S50000x128.Idx → EReal) = ar0 m c from U1_main_arg0 m ρ c,
    show (X1 m ρ c main_v0 : S128x384.Idx → EReal) = _ from host0_v0 (U0 m ρ c),
    show (X1 m ρ c main_v1 : S384.Idx → EReal) = _ from host0_v1 (U0 m ρ c)]
  exact projCols_cat1 _ _ _ _ _ _ _ _ _

theorem X2_v2_2 : (X2 m ρ c main_v2_2 : S50000x128.Idx → EReal) = addRow (prod (ar0 m c) (ar10 m c)) (ar11 m c) := by
  refine ((hF0 m ρ c 5).symm.trans (arr0_5 (X1 m ρ) c)).trans ?_
  rw [show (X1 m ρ c main_arg0 : S50000x128.Idx → EReal) = ar0 m c from U1_main_arg0 m ρ c,
    show (X1 m ρ c main_v0 : S128x384.Idx → EReal) = _ from host0_v0 (U0 m ρ c),
    show (X1 m ρ c main_v1 : S384.Idx → EReal) = _ from host0_v1 (U0 m ρ c)]
  exact projCols_cat2 _ _ _ _ _ _ _ _ _

/-! ## After the gathers -/

theorem U2_arg16 : U2 m ρ c (Proc.devRef .tc main_arg16) = ar16 m c :=
  (U2_of_ne m ρ c main_arg16 (by decide)).trans (U1_main_arg16 m ρ c)
theorem U2_arg17 : U2 m ρ c (Proc.devRef .tc main_arg17) = ar17 m c :=
  (U2_of_ne m ρ c main_arg17 (by decide)).trans (U1_main_arg17 m ρ c)
theorem U4_arg17 : U4 m ρ c (Proc.devRef .tc main_arg17) = ar17 m c :=
  (U4_of_ne m ρ c main_arg17 (by decide)).trans (U3_main_arg17 m ρ c)

/-- The per-edge gate sum: the source-gate projection gathered at the sources plus the destination-gate projection
    gathered at the destinations. -/
def GSk : Arr 600000 128 :=
  addf (F := Ideal) (s := S600000x128) (φ := .f32)
    (Host.gather gather_S50000x128_S600000x1_S600000x128_1_0_n_n_0_1_1128 (addRow (prod (ar0 m c) (ar2 m c)) (ar3 m c)) (idxK (ar16 m c)))
    (Host.gather gather_S50000x128_S600000x1_S600000x128_1_0_n_n_0_1_1128 (addRow (prod (ar0 m c) (ar4 m c)) (ar5 m c)) (idxK (ar17 m c)))
/-- The update projection gathered at the sources. -/
def BHGk : Arr 600000 128 :=
  Host.gather gather_S50000x128_S600000x1_S600000x128_1_0_n_n_0_1_1128 (addRow (prod (ar0 m c) (ar10 m c)) (ar11 m c)) (idxK (ar16 m c))

theorem X3_v18 : (X3 m ρ c main_v18 : S600000x128.Idx → EReal) = GSk m c := by
  refine (host1_v18 (U2 m ρ c)).trans ?_
  rw [show (U2 m ρ c (Proc.devRef .tc main_v2_0) : S50000x128.Idx → EReal) = _ from X2_v2_0 m ρ c,
    show (U2 m ρ c (Proc.devRef .tc main_v2_1) : S50000x128.Idx → EReal) = _ from X2_v2_1 m ρ c,
    U2_arg16 m ρ c, U2_arg17 m ρ c]
  rfl

theorem X3_v26 : (X3 m ρ c main_v26 : S600000x128.Idx → EReal) = BHGk m c := by
  refine (host1_v26 (U2 m ρ c)).trans ?_
  rw [show (U2 m ρ c (Proc.devRef .tc main_v2_2) : S50000x128.Idx → EReal) = _ from X2_v2_2 m ρ c, U2_arg16 m ρ c]
  rfl

/-! ## After the edge region -/

theorem X4_v27_0 : (X4 m ρ c main_v27_0 : S600000x128.Idx → EReal)
    = edgeY n128 eps5 (ar1 m c) (GSk m c) (ar6 m c) (ar7 m c) (ar14 m c) (ar15 m c) := by
  refine ((hF1 m ρ c 7).symm.trans (arr1_7 (X3 m ρ) c)).trans ?_
  rw [show (X3 m ρ c main_arg1 : S600000x128.Idx → EReal) = ar1 m c from U3_main_arg1 m ρ c,
    X3_v18 m ρ c,
    show (X3 m ρ c main_arg6 : S128x128.Idx → EReal) = ar6 m c from U3_main_arg6 m ρ c,
    show (X3 m ρ c main_arg7 : S128.Idx → EReal) = ar7 m c from U3_main_arg7 m ρ c,
    show (X3 m ρ c main_arg14 : S128.Idx → EReal) = ar14 m c from U3_main_arg14 m ρ c,
    show (X3 m ρ c main_arg15 : S128.Idx → EReal) = ar15 m c from U3_main_arg15 m ρ c]

theorem X4_v27_1 : (X4 m ρ c main_v27_1 : S600000x128.Idx → EReal)
    = edgeSig (ar1 m c) (GSk m c) (ar6 m c) (ar7 m c) := by
  refine ((hF1 m ρ c 8).symm.trans (arr1_8 (X3 m ρ) c)).trans ?_
  rw [show (X3 m ρ c main_arg1 : S600000x128.Idx → EReal) = ar1 m c from U3_main_arg1 m ρ c,
    X3_v18 m ρ c,
    show (X3 m ρ c main_arg6 : S128x128.Idx → EReal) = ar6 m c from U3_main_arg6 m ρ c,
    show (X3 m ρ c main_arg7 : S128.Idx → EReal) = ar7 m c from U3_main_arg7 m ρ c]

theorem X4_v27_2 : (X4 m ρ c main_v27_2 : S600000x128.Idx → EReal)
    = edgeWt (ar1 m c) (GSk m c) (ar6 m c) (ar7 m c) (BHGk m c) := by
  refine ((hF1 m ρ c 9).symm.trans (arr1_9 (X3 m ρ) c)).trans ?_
  rw [show (X3 m ρ c main_arg1 : S600000x128.Idx → EReal) = ar1 m c from U3_main_arg1 m ρ c,
    X3_v18 m ρ c, X3_v26 m ρ c,
    show (X3 m ρ c main_arg6 : S128x128.Idx → EReal) = ar6 m c from U3_main_arg6 m ρ c,
    show (X3 m ρ c main_arg7 : S128.Idx → EReal) = ar7 m c from U3_main_arg7 m ρ c]

/-! ## After the scatter-add -/

/-- The rows of U added up per destination node (the reference's own segment sum). -/
abbrev segk (U : Arr 600000 128) : Arr 50000 128 := Cert.RefStage.seg U (ar17 m c)

theorem zero256 (i : S50000x256.Idx) :
    (broadcastInDim S50000x256 ![] bcast_S_S50000x256 (constant (F := Ideal) S_ .f32 0x00000000#32) : S50000x256.Idx → EReal) i = 0 := by
  show Ideal.ofBits .f32 0x00000000#32 = 0
  exact Ideal.ofBits_zero_f32

theorem scat_eq : scat (U4 m ρ c)
    = Host.scatterAdd scatter_S50000x256_S600000x1_S600000x256_1_0_0_1
        (broadcastInDim S50000x256 ![] bcast_S_S50000x256 (constant (F := Ideal) S_ .f32 0x00000000#32))
        (broadcastInDim S600000x1 ![0] bcast_S600000_S600000x1_0 (ar17 m c))
        (concatenate S600000x256 1
          [⟨S600000x128, edgeWt (ar1 m c) (GSk m c) (ar6 m c) (ar7 m c) (BHGk m c)⟩,
           ⟨S600000x128, edgeSig (ar1 m c) (GSk m c) (ar6 m c) (ar7 m c)⟩]
          concatenates_S600000x128_S600000x128_S600000x256_d1) := by
  unfold scat
  rw [U4_arg17 m ρ c,
    show (U4 m ρ c (Proc.devRef .tc main_v27_2) : S600000x128.Idx → EReal) = _ from X4_v27_2 m ρ c,
    show (U4 m ρ c (Proc.devRef .tc main_v27_1) : S600000x128.Idx → EReal) = _ from X4_v27_1 m ρ c]
  rfl

theorem X5_v34 : (X5 m ρ c main_v34 : S50000x128.Idx → EReal)
    = segk m c (edgeWt (ar1 m c) (GSk m c) (ar6 m c) (ar7 m c) (BHGk m c)) := by
  refine (host2_v34 (U4 m ρ c)).trans ?_
  rw [scat_eq m ρ c]
  exact seg_cat_left _ _ _ _ zero256 _ (fun i => Ideal.ofBits_zero_f32) _ _

theorem X5_v35 : (X5 m ρ c main_v35 : S50000x128.Idx → EReal)
    = segk m c (edgeSig (ar1 m c) (GSk m c) (ar6 m c) (ar7 m c)) := by
  refine (host2_v35 (U4 m ρ c)).trans ?_
  rw [scat_eq m ρ c]
  exact seg_cat_right _ _ _ _ zero256 _ (fun i => Ideal.ofBits_zero_f32) _ _

/-! ## The two results -/

/-- The node result at the end of the run. -/
theorem val_v36 : (U6 m ρ c (Proc.devRef .tc main_v36) : S50000x128.Idx → EReal)
    = nodeOut n128 eps5 eps6 (ar0 m c) (ar8 m c) (ar9 m c)
        (segk m c (edgeWt (ar1 m c) (GSk m c) (ar6 m c) (ar7 m c) (BHGk m c)))
        (segk m c (edgeSig (ar1 m c) (GSk m c) (ar6 m c) (ar7 m c))) (ar12 m c) (ar13 m c) := by
  refine ((hF2 m ρ c 7).symm.trans (arr2_7 (X5 m ρ) c)).trans ?_
  rw [show (X5 m ρ c main_arg0 : S50000x128.Idx → EReal) = ar0 m c from U5_main_arg0 m ρ c,
    show (X5 m ρ c main_arg8 : S128x128.Idx → EReal) = ar8 m c from U5_main_arg8 m ρ c,
    show (X5 m ρ c main_arg9 : S128.Idx → EReal) = ar9 m c from U5_main_arg9 m ρ c,
    X5_v34 m ρ c, X5_v35 m ρ c,
    show (X5 m ρ c main_arg12 : S128.Idx → EReal) = ar12 m c from U5_main_arg12 m ρ c,
    show (X5 m ρ c main_arg13 : S128.Idx → EReal) = ar13 m c from U5_main_arg13 m ρ c]

/-- The edge result at the end of the run: no later host operation or region writes it. -/
theorem val_v27_0 : (U6 m ρ c (Proc.devRef .tc main_v27_0) : S600000x128.Idx → EReal)
    = edgeY n128 eps5 (ar1 m c) (GSk m c) (ar6 m c) (ar7 m c) (ar14 m c) (ar15 m c) :=
  ((U6_of_ne m ρ c main_v27_0 (by decide)).trans (U5_of m ρ c main_v27_0 (by decide))).trans (X4_v27_0 m ρ c)

end Cert.KernelIdeal.Hand

end
-- ==== Proof.lean ====
/-
  The five claims for the edge-gated graph convolution.

  The kernel program is three tiled regions among host operations: node projections e_src, e_dst, Bh = X·W + b (one
  product with the three weights side by side, cut in three); per edge the gate sum e_src[src] + e_dst[dst] and Bh[src]
  gathered on the host; an edge region computing m = gate sum + (E·W + b), the gate σ(m), the gated message σ(m)·Bh[src]
  and the edge output E + silu(LN(m)); a host scatter-add of [σ(m)·Bh[src] | σ(m)] to the destination nodes, cut in two;
  and a node region computing X + silu(LN((X·W + b) + num / (den + δ))). The reference computes the same quantities with
  three separate projections and two separate segment sums.

  Frames: every region's body loads whole blocks, computes, and stores whole blocks, so each region leaves its input
  arrays as they were; no host operation writes an argument. Value: on the extended reals each region's result array is
  a row-wise stage of its operand arrays (a block of rows in, that block of rows out, the blocks covering the array),
  the three-way product cut in three is the three products, the scatter-add of two arrays side by side is the two
  scatter-adds, a change of float format is the identity, and σ(x) is 1 / (1 + e^(−x)); the reference's host
  operations spell the same stages. The gathers and segment sums are the same host operations on both sides and are
  carried whole.
-/
import proofs.«172384_j69131793596856_2_alg».proof.Defs
import proofs.«172384_j69131793596856_2_alg».proof.Proof.Gen.Kernel
import proofs.«172384_j69131793596856_2_alg».proof.Proof.Gen.KernelIdeal
import proofs.«172384_j69131793596856_2_alg».proof.Proof.Gen.ReferenceIdeal
import proofs.«172384_j69131793596856_2_alg».proof.Proof.Gen.Pre_finite_inputs
import proofs.«172384_j69131793596856_2_alg».proof.Proof.Gen.ReferenceIdeal.Run
import proofs.«172384_j69131793596856_2_alg».proof.Proof.Gen.ReferenceIdeal.Read
import proofs.«172384_j69131793596856_2_alg».proof.Proof.K.Frame
import proofs.«172384_j69131793596856_2_alg».proof.Proof.KI.Value
import proofs.«172384_j69131793596856_2_alg».proof.Proof.Ref

set_option maxRecDepth 16384

noncomputable section

namespace Cert.Proof

open Idealize.ShloMosaic Idealize.ShloMosaic.TcCoe Idealize.SL.Sem
open Cert.KernelIdeal.Hand Cert.Stage

theorem frame_k : Cert.frame_Kernel := fun m ρ _ => Cert.Kernel.Hand.frame m ρ
theorem frame_ki : Cert.frame_KernelIdeal := fun m ρ _ => Cert.KernelIdeal.Hand.frame m ρ
/-- The reference is host operations only: its generated run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

section Bridge

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's node result, from argument arrays equal to the kernel program's, is the kernel program's. -/
theorem node_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v110 (F := Ideal) m' c = U6 m ρ c (Proc.devRef .tc Cert.KernelIdeal.main_v36) := by
  refine (Cert.RefStage.ref_out0 m' c).trans (Eq.trans ?_ (val_v36 m ρ c).symm)
  unfold Cert.RefStage.GSr Cert.RefStage.BHGr
  rw [h0, h1, h2, h3, h4, h5, h6, h7, h8, h9, h10, h11, h12, h13, h16, h17]
  rfl

/-- The reference's edge result likewise. -/
theorem edge_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v111 (F := Ideal) m' c = U6 m ρ c (Proc.devRef .tc Cert.KernelIdeal.main_v27_0) := by
  refine (Cert.RefStage.ref_out1 m' c).trans (Eq.trans ?_ (val_v27_0 m ρ c).symm)
  unfold Cert.RefStage.GSr
  rw [h0, h1, h2, h3, h4, h5, h6, h7, h14, h15, h16, h17]
  rfl

end Bridge

/-- From memories agreeing on the arguments both programs run to the end, and the reference's two results are the
    kernel program's, array by array. -/
theorem algebraic : Cert.algebraic_KernelIdeal_ReferenceIdeal := by
  intro m ρ m' ρ' _ hagree
  refine ⟨fun c => U6 m ρ c (Proc.devRef .tc Cert.KernelIdeal.main_v36), fun c => U6 m ρ c (Proc.devRef .tc Cert.KernelIdeal.main_v27_0), ?_, ?_⟩
  · exact (θ_run Cert.KernelIdeal.defs _ _).mono (fun r h c =>
      ⟨h c _ (mem_ucH Cert.KernelIdeal.main_v36 (by decide)), h c _ (mem_ucH Cert.KernelIdeal.main_v27_0 (by decide)), args_kept m ρ r.2 h c⟩)
      (run_all m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17⟩ := hagree c
      exact node_eq m ρ m' c h0 h1 h2 h3 h4 h5 h6 h7 h8 h9 h10 h11 h12 h13 h14 h15 h16 h17
    · obtain ⟨h0, h1, h2, h3, h4, h5, h6, h7, h8, h9, h10, h11, h12, h13, h14, h15, h16, h17⟩ := hagree c
      exact edge_eq m ρ m' c h0 h1 h2 h3 h4 h5 h6 h7 h8 h9 h10 h11 h12 h13 h14 h15 h16 h17

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
